-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S2x600000 : Shape := ⟨2, ![2, 600000]⟩
abbrev S512x5 : Shape := ⟨2, ![512, 5]⟩
abbrev S512 : Shape := ⟨1, ![512]⟩
abbrev S128x512 : Shape := ⟨2, ![128, 512]⟩
abbrev S128 : Shape := ⟨1, ![128]⟩
abbrev S128x128 : Shape := ⟨2, ![128, 128]⟩
abbrev S9x384 : Shape := ⟨2, ![9, 384]⟩
abbrev S9 : Shape := ⟨1, ![9]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S512x5 : S_.BroadcastsInDim S512x5 (![] : Fin 0 → Fin S512x5.rank)
  reducesTo_S512x5_S_d0_1 : S512x5.ReducesTo [0, 1] S_
  bcast_S_S512 : S_.BroadcastsInDim S512 (![] : Fin 0 → Fin S512.rank)
  reducesTo_S512_S_d0 : S512.ReducesTo [0] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S9x384 : S_.BroadcastsInDim S9x384 (![] : Fin 0 → Fin S9x384.rank)
  reducesTo_S9x384_S_d0_1 : S9x384.ReducesTo [0, 1] S_
  bcast_S_S9 : S_.BroadcastsInDim S9 (![] : Fin 0 → Fin S9.rank)
  reducesTo_S9_S_d0 : S9.ReducesTo [0] S_

variable [Facts]

def fn_part5 {F : FTy → Type} [FloatOps F] (main_arg19 : FVec F S9 .f32) (main_v83 : IVec S_ 1) (main_v84 : FVec F S9x384 .f32) (main_cst_32 : FVec F S_ .f32) : IVec S_ 1 :=
  let main_v85 : FVec F S9x384 .f32 := broadcastInDim S9x384 ![] bcast_S_S9x384 main_cst_32
  let main_v86 : IVec S9x384 1 := cmpf .olt main_v84 main_v85
  let main_c_33 : IVec S_ 1 := constantI S_ 1 1#1
  let main_v87 : IVec S_ 1 := (fun x v => Host.reduce IntOp.andi x v reducesTo_S9x384_S_d0_1 h_S_) main_v86 main_c_33
  let main_v88 : IVec S_ 1 := andi main_v83 main_v87
  let main_v89 : FVec F S9 .f32 := Host.absf main_arg19
  let main_cst_34 : FVec F S_ .f32 := constant S_ .f32 0x7F800000#32
  let main_v90 : FVec F S9 .f32 := broadcastInDim S9 ![] bcast_S_S9 main_cst_34
  let main_v91 : IVec S9 1 := cmpf .olt main_v89 main_v90
  let main_c_35 : IVec S_ 1 := constantI S_ 1 1#1
  let main_v92 : IVec S_ 1 := (fun x v => Host.reduce IntOp.andi x v reducesTo_S9_S_d0 h_S_) main_v91 main_c_35
  let main_v93 : IVec S_ 1 := andi main_v88 main_v92
  main_v93

def fn_part4 {F : FTy → Type} [FloatOps F] (main_arg15 : FVec F S128x128 .f32) (main_arg16 : FVec F S128 .f32) (main_arg17 : FVec F S128x128 .f32) (main_arg18 : FVec F S9x384 .f32) (main_arg19 : FVec F S9 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg17
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S9x384 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S9x384 .f32) (main_arg19 : FVec F S9 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_arg18 main_arg19 main_v63 main_v67

def fn_part2 {F : FTy → Type} [FloatOps F] (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S9x384 .f32) (main_arg19 : FVec F S9 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_arg17 main_arg18 main_arg19 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S9x384 .f32) (main_arg19 : FVec F S9 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S100000x5 .f32) (main_arg1 : IVec S2x600000 32) (main_arg2 : FVec F S512x5 .f32) (main_arg3 : FVec F S512 .f32) (main_arg4 : FVec F S128x512 .f32) (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S9x384 .f32) (main_arg19 : FVec F S9 .f32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S512x5 .f32 := Host.absf main_arg2
  let main_cst_0 : FVec F S_ .f32 := constant S_ .f32 0x7F800000#32
  let main_v5 : FVec F S512x5 .f32 := broadcastInDim S512x5 ![] bcast_S_S512x5 main_cst_0
  let main_v6 : IVec S512x5 1 := cmpf .olt main_v4 main_v5
  let main_c_1 : IVec S_ 1 := constantI S_ 1 1#1
  let main_v7 : IVec S_ 1 := (fun x v => Host.reduce IntOp.andi x v reducesTo_S512x5_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S128x512 .f32 := Host.absf main_arg4
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S100000x5 : Shape := ⟨2, ![100000, 5]⟩
abbrev S2x600000 : Shape := ⟨2, ![2, 600000]⟩
abbrev S512x5 : Shape := ⟨2, ![512, 5]⟩
abbrev S512 : Shape := ⟨1, ![512]⟩
abbrev S128x512 : Shape := ⟨2, ![128, 512]⟩
abbrev S128 : Shape := ⟨1, ![128]⟩
abbrev S128x128 : Shape := ⟨2, ![128, 128]⟩
abbrev S9x384 : Shape := ⟨2, ![9, 384]⟩
abbrev S9 : Shape := ⟨1, ![9]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S100000x128 : Shape := ⟨2, ![100000, 128]⟩
abbrev S2000x5 : Shape := ⟨2, ![2000, 5]⟩
abbrev S2000x128 : Shape := ⟨2, ![2000, 128]⟩
abbrev S5x512 : Shape := ⟨2, ![5, 512]⟩
abbrev S2000x512 : Shape := ⟨2, ![2000, 512]⟩
abbrev S1x512 : Shape := ⟨2, ![1, 512]⟩
abbrev S512x128 : Shape := ⟨2, ![512, 128]⟩
abbrev S1x128 : Shape := ⟨2, ![1, 128]⟩
abbrev S600000x128 : Shape := ⟨2, ![600000, 128]⟩
abbrev S9x128 : Shape := ⟨2, ![9, 128]⟩
abbrev S100000x9 : Shape := ⟨2, ![100000, 9]⟩
abbrev S2000x9 : Shape := ⟨2, ![2000, 9]⟩
abbrev S128x9 : Shape := ⟨2, ![128, 9]⟩
abbrev S1x9 : Shape := ⟨2, ![1, 9]⟩

abbrev nBuf : Space → Nat
  | .hbm => 103
  | .vmem => 56
  | .smem => 0
  | _ => 0

abbrev bufTy : (tb : Table) → Fin (tcTables nBuf tb) → BufTy
  | .hbm, ⟨0, _⟩ => ⟨S100000x5, .f32⟩
  | .hbm, ⟨1, _⟩ => ⟨S2x600000, .i32⟩
  | .hbm, ⟨2, _⟩ => ⟨S512x5, .f32⟩
  | .hbm, ⟨3, _⟩ => ⟨S512, .f32⟩
  | .hbm, ⟨4, _⟩ => ⟨S128x512, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S9x384, .f32⟩
  | .hbm, ⟨19, _⟩ => ⟨S9, .f32⟩
  | .hbm, ⟨20, _⟩ => ⟨S1x600000, .i32⟩
  | .hbm, ⟨21, _⟩ => ⟨S600000, .i32⟩
  | .hbm, ⟨22, _⟩ => ⟨S1x600000, .i32⟩
  | .hbm, ⟨23, _⟩ => ⟨S600000, .i32⟩
  | .hbm, ⟨24, _⟩ => ⟨S_, .f32⟩
  | .hbm, ⟨25, _⟩ => ⟨S600000, .f32⟩
  | .hbm, ⟨26, _⟩ => ⟨S_, .f32⟩
  | .hbm, ⟨27, _⟩ => ⟨S100000, .f32⟩
  | .hbm, ⟨28, _⟩ => ⟨S600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S_, .i32⟩
  | .hbm, ⟨36, _⟩ => ⟨S600000, .i32⟩
  | .hbm, ⟨37, _⟩ => ⟨S600000, .i1⟩
  | .hbm, ⟨38, _⟩ => ⟨S_, .i32⟩
  | .hbm, ⟨39, _⟩ => ⟨S600000, .i32⟩
  | .hbm, ⟨40, _⟩ => ⟨S600000, .i32⟩
  | .hbm, ⟨41, _⟩ => ⟨S600000, .i32⟩
  | .hbm, ⟨42, _⟩ => ⟨S600000x1, .i32⟩
  | .hbm, ⟨43, _⟩ => ⟨S600000x128, .f32⟩
  | .hbm, ⟨44, _⟩ => ⟨S_, .f32⟩
  | .hbm, ⟨45, _⟩ => ⟨S100000x128, .f32⟩
  | .hbm, ⟨46, _⟩ => ⟨S600000x1, .i32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S600000, .i32⟩
  | .hbm, ⟨53, _⟩ => ⟨S600000, .i1⟩
  | .hbm, ⟨54, _⟩ => ⟨S_, .i32⟩
  | .hbm, ⟨55, _⟩ => ⟨S600000, .i32⟩
  | .hbm, ⟨56, _⟩ => ⟨S600000, .i32⟩
  | .hbm, ⟨57, _⟩ => ⟨S600000, .i32⟩
  | .hbm, ⟨58, _⟩ => ⟨S600000x1, .i32⟩
  | .hbm, ⟨59, _⟩ => ⟨S600000x128, .f32⟩
  | .hbm, ⟨60, _⟩ => ⟨S_, .f32⟩
  | .hbm, ⟨61, _⟩ => ⟨S100000x128, .f32⟩
  | .hbm, ⟨62, _⟩ => ⟨S600000x1, .i32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S_, .i32⟩
  | .hbm, ⟨68, _⟩ => ⟨S600000, .i32⟩
  | .hbm, ⟨69, _⟩ => ⟨S600000, .i1⟩
  | .hbm, ⟨70, _⟩ => ⟨S_, .i32⟩
  | .hbm, ⟨71, _⟩ => ⟨S600000, .i32⟩
  | .hbm, ⟨72, _⟩ => ⟨S600000, .i32⟩
  | .hbm, ⟨73, _⟩ => ⟨S600000, .i32⟩
  | .hbm, ⟨74, _⟩ => ⟨S600000x1, .i32⟩
  | .hbm, ⟨75, _⟩ => ⟨S600000x128, .f32⟩
  | .hbm, ⟨76, _⟩ => ⟨S_, .f32⟩
  | .hbm, ⟨77, _⟩ => ⟨S100000x128, .f32⟩
  | .hbm, ⟨78, _⟩ => ⟨S600000x1, .i32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S100000x128, .f32⟩
  | .hbm, ⟨83, _⟩ => ⟨S_, .i32⟩
  | .hbm, ⟨84, _⟩ => ⟨S600000, .i32⟩
  | .hbm, ⟨85, _⟩ => ⟨S600000, .i1⟩
  | .hbm, ⟨86, _⟩ => ⟨S_, .i32⟩
  | .hbm, ⟨87, _⟩ => ⟨S600000, .i32⟩
  | .hbm, ⟨88, _⟩ => ⟨S600000, .i32⟩
  | .hbm, ⟨89, _⟩ => ⟨S600000, .i32⟩
  | .hbm, ⟨90, _⟩ => ⟨S600000x1, .i32⟩
  | .hbm, ⟨91, _⟩ => ⟨S600000x128, .f32⟩
  | .hbm, ⟨92, _⟩ => ⟨S_, .f32⟩
  | .hbm, ⟨93, _⟩ => ⟨S100000x128, .f32⟩
  | .hbm, ⟨94, _⟩ => ⟨S600000x1, .i32⟩
  | .hbm, ⟨95, _⟩ => ⟨S100000x128, .f32⟩
  | .hbm, ⟨96, _⟩ => ⟨S100000x128, .f32⟩
  | .hbm, ⟨97, _⟩ => ⟨S100000x128, .f32⟩
  | .hbm, ⟨98, _⟩ => ⟨S100000x128, .f32⟩
  | .hbm, ⟨99, _⟩ => ⟨S9x128, .f32⟩
  | .hbm, ⟨100, _⟩ => ⟨S9x128, .f32⟩
  | .hbm, ⟨101, _⟩ => ⟨S9x128, .f32⟩
  | .hbm, ⟨102, _⟩ => ⟨S100000x9, .f32⟩
  | .local _ .vmem, ⟨0, _⟩ => ⟨S2000x5, .f32⟩
  | .local _ .vmem, ⟨1, _⟩ => ⟨S2000x5, .f32⟩
  | .local _ .vmem, ⟨2, _⟩ => ⟨S512x5, .f32⟩
  | .local _ .vmem, ⟨3, _⟩ => ⟨S512, .f32⟩
  | .local _ .vmem, ⟨4, _⟩ => ⟨S128x512, .f32⟩
  | .local _ .vmem, ⟨5, _⟩ => ⟨S128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S128, .f32⟩
  | .local _ .vmem, ⟨14, _⟩ => ⟨S128x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S128x128, .f32⟩
  | .local _ .vmem, ⟨22, _⟩ => ⟨S128, .f32⟩
  | .local _ .vmem, ⟨23, _⟩ => ⟨S128x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x128, .f32⟩
  | .local _ .vmem, ⟨31, _⟩ => ⟨S128, .f32⟩
  | .local _ .vmem, ⟨32, _⟩ => ⟨S128x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S128x128, .f32⟩
  | .local _ .vmem, ⟨40, _⟩ => ⟨S128, .f32⟩
  | .local _ .vmem, ⟨41, _⟩ => ⟨S128x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S9x128, .f32⟩
  | .local _ .vmem, ⟨51, _⟩ => ⟨S9x128, .f32⟩
  | .local _ .vmem, ⟨52, _⟩ => ⟨S9x128, .f32⟩
  | .local _ .vmem, ⟨53, _⟩ => ⟨S9, .f32⟩
  | .local _ .vmem, ⟨54, _⟩ => ⟨S2000x9, .f32⟩
  | .local _ .vmem, ⟨55, _⟩ => ⟨S2000x9, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c : Ref sig .tc := ⟨.hbm, 35, rfl⟩
abbrev main_v12 : Ref sig .tc := ⟨.hbm, 36, rfl⟩
abbrev main_v13 : Ref sig .tc := ⟨.hbm, 37, rfl⟩
abbrev main_c_2 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_3 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c_4 : Ref sig .tc := ⟨.hbm, 51, rfl⟩
abbrev main_v25 : Ref sig .tc := ⟨.hbm, 52, rfl⟩
abbrev main_v26 : Ref sig .tc := ⟨.hbm, 53, rfl⟩
abbrev main_c_5 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_6 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_c_7 : Ref sig .tc := ⟨.hbm, 67, rfl⟩
abbrev main_v38 : Ref sig .tc := ⟨.hbm, 68, rfl⟩
abbrev main_v39 : Ref sig .tc := ⟨.hbm, 69, rfl⟩
abbrev main_c_8 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_9 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_c_10 : Ref sig .tc := ⟨.hbm, 83, rfl⟩
abbrev main_v51 : Ref sig .tc := ⟨.hbm, 84, rfl⟩
abbrev main_v52 : Ref sig .tc := ⟨.hbm, 85, rfl⟩
abbrev main_c_11 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_12 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg2_1 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg6_0 : Ref sig .tc := ⟨.vmem, 53, rfl⟩
abbrev cc5_stg7_0 : Ref sig .tc := ⟨.vmem, 54, rfl⟩
abbrev cc5_stg7_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem5_1 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem2_1 : DmaSem sig := 49
abbrev cc5_sem3_0 : DmaSem sig := 50
abbrev cc5_sem4_0 : DmaSem sig := 51
abbrev cc5_sem5_0 : DmaSem sig := 52
abbrev cc5_sem6_0 : DmaSem sig := 53
abbrev cc5_sem7_0 : DmaSem sig := 54
abbrev cc5_sem7_1 : DmaSem sig := 55

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S9x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S9x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S9x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S9 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S2000x9 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  inb_S2000x5_S2000x5_0_0 : ∀ a, (![0, 0] : Fin 2 → Nat) a + S2000x5.size a ≤ S2000x5.size a
  h_S2000x5 : 0 < S2000x5.numel
  bitsLt_bf16_f32 : FTy.bits .bf16 < FTy.bits .f32
  inb_S512x5_S512x5_0_0 : ∀ a, (![0, 0] : Fin 2 → Nat) a + S512x5.size a ≤ S512x5.size a
  h_S512x5 : 0 < S512x5.numel
  inb_S512_S512_0 : ∀ a, (![0] : Fin 1 → Nat) a + S512.size a ≤ S512.size a
  h_S512 : 0 < S512.numel
  transposes_S512x5_p1_0_S5x512 : S512x5.Transposes [1, 0] S5x512
  shapeCasts_S512_S1x512 : S512.ShapeCasts S1x512
  broadcasts_S1x512_S2000x512 : S1x512.Broadcasts S2000x512
  inb_S128x512_S128x512_0_0 : ∀ a, (![0, 0] : Fin 2 → Nat) a + S128x512.size a ≤ S128x512.size a
  h_S128x512 : 0 < S128x512.numel
  inb_S128_S128_0 : ∀ a, (![0] : Fin 1 → Nat) a + S128.size a ≤ S128.size a
  h_S128 : 0 < S128.numel
  transposes_S128x512_p1_0_S512x128 : S128x512.Transposes [1, 0] S512x128
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  slices_S9x384_S9x128_0_0 : S9x384.Slices ![0, 0] S9x128
  slices_S9x384_S9x128_0_128 : S9x384.Slices ![0, 128] S9x128
  slices_S9x384_S9x128_0_256 : S9x384.Slices ![0, 256] S9x128
  inb_S9x128_S9x128_0_0 : ∀ a, (![0, 0] : Fin 2 → Nat) a + S9x128.size a ≤ S9x128.size a
  h_S9x128 : 0 < S9x128.numel
  shapeCasts_S9x128_S9x128 : S9x128.ShapeCasts S9x128
  inb_S9_S9_0 : ∀ a, (![0] : Fin 1 → Nat) a + S9.size a ≤ S9.size a
  h_S9 : 0 < S9.numel
  transposes_S9x128_p1_0_S128x9 : S9x128.Transposes [1, 0] S128x9
  shapeCasts_S9_S1x9 : S9.ShapeCasts S1x9
  broadcasts_S1x9_S2000x9 : S1x9.Broadcasts S2000x9
  inb_S2000x9_S2000x9_0_0 : ∀ a, (![0, 0] : Fin 2 → Nat) a + S2000x9.size a ≤ S2000x9.size a
  h_S2000x9 : 0 < S2000x9.numel
  scatter_S100000_S600000x1_S600000_n_0_0_1_wf : ScatterDims.WF S100000 S600000x1 S600000 [] [0] [0] 1
  dot_S2000x5_S5x512_S2000x512_1_0_0_1_n_n_wf : DotDims.WF S2000x5 S5x512 S2000x512 [1] [0] [0] [1] [] []
  dot_S2000x512_S512x128_S2000x128_1_0_0_1_n_n_wf : DotDims.WF S2000x512 S512x128 S2000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S2000x128_S128x128_S2000x128_1_0_0_1_n_n_wf : DotDims.WF S2000x128 S128x128 S2000x128 [1] [0] [0] [1] [] []
  dot_S2000x128_S128x9_S2000x9_1_0_0_1_n_n_wf : DotDims.WF S2000x128 S128x9 S2000x9 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x5.size a ≤ S100000x5.size a
  hwx0_0 : ∀ i : grid0.Coords, EltTy.bits .f32 = 32 ∨ (Rect.block (s := S100000x5) S2000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x5.size a ≤ S512x5.size a
  hwx0_1 : ∀ i : grid0.Coords, EltTy.bits .f32 = 32 ∨ (Rect.block (s := S512x5) S512x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S100000x128.size a
  hwx3_5 : ∀ i : grid3.Coords, EltTy.bits .f32 = 32 ∨ (Rect.block (s := S100000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S100000x128.size a
  hwx4_5 : ∀ i : grid4.Coords, EltTy.bits .f32 = 32 ∨ (Rect.block (s := S100000x128) S2000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S100000x128.size a
  hwx5_1 : ∀ i : grid5.Coords, EltTy.bits .f32 = 32 ∨ (Rect.block (s := S100000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S100000x128.size a
  hwx5_2 : ∀ i : grid5.Coords, EltTy.bits .f32 = 32 ∨ (Rect.block (s := S100000x128) S2000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S9x128.size a ≤ S9x128.size a
  hwx5_3 : ∀ i : grid5.Coords, EltTy.bits .f32 = 32 ∨ (Rect.block (s := S9x128) S9x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S9x128.size a ≤ S9x128.size a
  hwx5_4 : ∀ i : grid5.Coords, EltTy.bits .f32 = 32 ∨ (Rect.block (s := S9x128) S9x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S9x128.size a ≤ S9x128.size a
  hwx5_5 : ∀ i : grid5.Coords, EltTy.bits .f32 = 32 ∨ (Rect.block (s := S9x128) S9x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S9.size a ≤ S9.size a
  hwx5_6 : ∀ i : grid5.Coords, EltTy.bits .f32 = 32 ∨ (Rect.block (s := S9) S9.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S2000x9.size a ≤ S100000x9.size a
  hwx5_7 : ∀ i : grid5.Coords, EltTy.bits .f32 = 32 ∨ (Rect.block (s := S100000x9) S2000x9.size (cc5_transform_7 i) (hinb5_7 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S2000x5_S5x512_S2000x512_1_0_0_1_n_n : DotDims S2000x5 S5x512 S2000x512 where
  lhsContracting := [1]
  rhsContracting := [0]
  lhsNonContracting := [0]
  rhsNonContracting := [1]
  lhsBatch := []
  rhsBatch := []
  wf := dot_S2000x5_S5x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x9_S2000x9_1_0_0_1_n_n : DotDims S2000x128 S128x9 S2000x9 where
  lhsContracting := [1]
  rhsContracting := [0]
  lhsNonContracting := [0]
  rhsNonContracting := [1]
  lhsBatch := []
  rhsBatch := []
  wf := dot_S2000x128_S128x9_S2000x9_1_0_0_1_n_n_wf

abbrev win0_0 : Pipeline.Window sig grid0 :=
  Pipeline.Window.ofSpec (Memref.whole main_arg0) S2000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v23) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v49) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v50) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v62) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v50) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg15) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg16) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg17) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v63) S2000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v11) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v37) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v63) S2000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v64) S9x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v65) S9x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v66) S9x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg19) S9.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v67) S2000x9.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S100000x5 : Shape := ⟨2, ![100000, 5]⟩
abbrev S2x600000 : Shape := ⟨2, ![2, 600000]⟩
abbrev S512x5 : Shape := ⟨2, ![512, 5]⟩
abbrev S512 : Shape := ⟨1, ![512]⟩
abbrev S128x512 : Shape := ⟨2, ![128, 512]⟩
abbrev S128 : Shape := ⟨1, ![128]⟩
abbrev S128x128 : Shape := ⟨2, ![128, 128]⟩
abbrev S9x384 : Shape := ⟨2, ![9, 384]⟩
abbrev S9 : Shape := ⟨1, ![9]⟩
abbrev S1x600000 : Shape := ⟨2, ![1, 600000]⟩
abbrev S600000 : Shape := ⟨1, ![600000]⟩
abbrev S5x512 : Shape := ⟨2, ![5, 512]⟩
abbrev S100000x512 : Shape := ⟨2, ![100000, 512]⟩
abbrev S1x512 : Shape := ⟨2, ![1, 512]⟩
abbrev S_ : Shape := ⟨0, ![]⟩
abbrev S512x128 : Shape := ⟨2, ![512, 128]⟩
abbrev S100000x128 : Shape := ⟨2, ![100000, 128]⟩
abbrev S1x128 : Shape := ⟨2, ![1, 128]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S100000x384 : Shape := ⟨2, ![100000, 384]⟩
abbrev S384x9 : Shape := ⟨2, ![384, 9]⟩
abbrev S100000x9 : Shape := ⟨2, ![100000, 9]⟩
abbrev S1x9 : Shape := ⟨2, ![1, 9]⟩

abbrev nBuf : Space → Nat
  | .hbm => 190
  | .vmem => 0
  | .smem => 0
  | _ => 0

abbrev hbmTy0_0 (i : Nat) : BufTy := match i % 128 with
  | 0 => ⟨S100000x5, .f32⟩
  | 1 => ⟨S2x600000, .i32⟩
  | 2 => ⟨S512x5, .f32⟩
  | 3 => ⟨S512, .f32⟩
  | 4 => ⟨S128x512, .f32⟩
  | 5 => ⟨S128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S128x128, .f32⟩
  | 15 => ⟨S128x128, .f32⟩
  | 16 => ⟨S128, .f32⟩
  | 17 => ⟨S128x128, .f32⟩
  | 18 => ⟨S9x384, .f32⟩
  | 19 => ⟨S9, .f32⟩
  | 20 => ⟨S1x600000, .i32⟩
  | 21 => ⟨S600000, .i32⟩
  | 22 => ⟨S1x600000, .i32⟩
  | 23 => ⟨S600000, .i32⟩
  | 24 => ⟨S5x512, .f32⟩
  | 25 => ⟨S100000x512, .f32⟩
  | 26 => ⟨S1x512, .f32⟩
  | 27 => ⟨S100000x512, .f32⟩
  | 28 => ⟨S100000x512, .f32⟩
  | 29 => ⟨S_, .f32⟩
  | 30 => ⟨S100000x512, .f32⟩
  | 31 => ⟨S100000x512, .f32⟩
  | 32 => ⟨S512x128, .f32⟩
  | 33 => ⟨S100000x128, .f32⟩
  | 34 => ⟨S1x128, .f32⟩
  | 35 => ⟨S100000x128, .f32⟩
  | 36 => ⟨S100000x128, .f32⟩
  | 37 => ⟨S_, .f32⟩
  | 38 => ⟨S100000x128, .f32⟩
  | 39 => ⟨S100000x128, .f32⟩
  | 40 => ⟨S_, .i32⟩
  | 41 => ⟨S600000, .i32⟩
  | 42 => ⟨S600000, .i1⟩
  | 43 => ⟨S_, .i32⟩
  | 44 => ⟨S600000, .i32⟩
  | 45 => ⟨S600000, .i32⟩
  | 46 => ⟨S600000, .i32⟩
  | 47 => ⟨S600000x1, .i32⟩
  | 48 => ⟨S600000x128, .f32⟩
  | 49 => ⟨S_, .f32⟩
  | 50 => ⟨S100000x128, .f32⟩
  | 51 => ⟨S600000x1, .i32⟩
  | 52 => ⟨S100000x128, .f32⟩
  | 53 => ⟨S_, .f32⟩
  | 54 => ⟨S600000, .f32⟩
  | 55 => ⟨S_, .f32⟩
  | 56 => ⟨S100000, .f32⟩
  | 57 => ⟨S600000x1, .i32⟩
  | 58 => ⟨S100000, .f32⟩
  | 59 => ⟨S_, .f32⟩
  | 60 => ⟨S100000, .f32⟩
  | 61 => ⟨S100000, .f32⟩
  | 62 => ⟨S100000x1, .f32⟩
  | 63 => ⟨S100000x128, .f32⟩
  | 64 => ⟨S100000x128, .f32⟩
  | 65 => ⟨S128x128, .f32⟩
  | 66 => ⟨S100000x128, .f32⟩
  | 67 => ⟨S1x128, .f32⟩
  | 68 => ⟨S100000x128, .f32⟩
  | 69 => ⟨S100000x128, .f32⟩
  | 70 => ⟨S128x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S_, .i32⟩
  | 77 => ⟨S600000, .i32⟩
  | 78 => ⟨S600000, .i1⟩
  | 79 => ⟨S_, .i32⟩
  | 80 => ⟨S600000, .i32⟩
  | 81 => ⟨S600000, .i32⟩
  | 82 => ⟨S600000, .i32⟩
  | 83 => ⟨S600000x1, .i32⟩
  | 84 => ⟨S600000x128, .f32⟩
  | 85 => ⟨S_, .f32⟩
  | 86 => ⟨S100000x128, .f32⟩
  | 87 => ⟨S600000x1, .i32⟩
  | 88 => ⟨S100000x128, .f32⟩
  | 89 => ⟨S_, .f32⟩
  | 90 => ⟨S600000, .f32⟩
  | 91 => ⟨S_, .f32⟩
  | 92 => ⟨S100000, .f32⟩
  | 93 => ⟨S600000x1, .i32⟩
  | 94 => ⟨S100000, .f32⟩
  | 95 => ⟨S_, .f32⟩
  | 96 => ⟨S100000, .f32⟩
  | 97 => ⟨S100000, .f32⟩
  | 98 => ⟨S100000x1, .f32⟩
  | 99 => ⟨S100000x128, .f32⟩
  | 100 => ⟨S100000x128, .f32⟩
  | 101 => ⟨S128x128, .f32⟩
  | 102 => ⟨S100000x128, .f32⟩
  | 103 => ⟨S1x128, .f32⟩
  | 104 => ⟨S100000x128, .f32⟩
  | 105 => ⟨S100000x128, .f32⟩
  | 106 => ⟨S128x128, .f32⟩
  | 107 => ⟨S100000x128, .f32⟩
  | 108 => ⟨S100000x128, .f32⟩
  | 109 => ⟨S_, .f32⟩
  | 110 => ⟨S100000x128, .f32⟩
  | 111 => ⟨S100000x128, .f32⟩
  | 112 => ⟨S_, .i32⟩
  | 113 => ⟨S600000, .i32⟩
  | 114 => ⟨S600000, .i1⟩
  | 115 => ⟨S_, .i32⟩
  | 116 => ⟨S600000, .i32⟩
  | 117 => ⟨S600000, .i32⟩
  | 118 => ⟨S600000, .i32⟩
  | 119 => ⟨S600000x1, .i32⟩
  | 120 => ⟨S600000x128, .f32⟩
  | 121 => ⟨S_, .f32⟩
  | 122 => ⟨S100000x128, .f32⟩
  | 123 => ⟨S600000x1, .i32⟩
  | 124 => ⟨S100000x128, .f32⟩
  | 125 => ⟨S_, .f32⟩
  | 126 => ⟨S600000, .f32⟩
  | 127 => ⟨S_, .f32⟩
  | _ => ⟨S100000x5, .f32⟩

abbrev hbmTy0_1 (i : Nat) : BufTy := match i % 128 with
  | 0 => ⟨S100000, .f32⟩
  | 1 => ⟨S600000x1, .i32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x128, .f32⟩
  | 8 => ⟨S100000x128, .f32⟩
  | 9 => ⟨S128x128, .f32⟩
  | 10 => ⟨S100000x128, .f32⟩
  | 11 => ⟨S1x128, .f32⟩
  | 12 => ⟨S100000x128, .f32⟩
  | 13 => ⟨S100000x128, .f32⟩
  | 14 => ⟨S128x128, .f32⟩
  | 15 => ⟨S100000x128, .f32⟩
  | 16 => ⟨S100000x128, .f32⟩
  | 17 => ⟨S_, .f32⟩
  | 18 => ⟨S100000x128, .f32⟩
  | 19 => ⟨S100000x128, .f32⟩
  | 20 => ⟨S_, .i32⟩
  | 21 => ⟨S600000, .i32⟩
  | 22 => ⟨S600000, .i1⟩
  | 23 => ⟨S_, .i32⟩
  | 24 => ⟨S600000, .i32⟩
  | 25 => ⟨S600000, .i32⟩
  | 26 => ⟨S600000, .i32⟩
  | 27 => ⟨S600000x1, .i32⟩
  | 28 => ⟨S600000x128, .f32⟩
  | 29 => ⟨S_, .f32⟩
  | 30 => ⟨S100000x128, .f32⟩
  | 31 => ⟨S600000x1, .i32⟩
  | 32 => ⟨S100000x128, .f32⟩
  | 33 => ⟨S_, .f32⟩
  | 34 => ⟨S600000, .f32⟩
  | 35 => ⟨S_, .f32⟩
  | 36 => ⟨S100000, .f32⟩
  | 37 => ⟨S600000x1, .i32⟩
  | 38 => ⟨S100000, .f32⟩
  | 39 => ⟨S_, .f32⟩
  | 40 => ⟨S100000, .f32⟩
  | 41 => ⟨S100000, .f32⟩
  | 42 => ⟨S100000x1, .f32⟩
  | 43 => ⟨S100000x128, .f32⟩
  | 44 => ⟨S100000x128, .f32⟩
  | 45 => ⟨S128x128, .f32⟩
  | 46 => ⟨S100000x128, .f32⟩
  | 47 => ⟨S1x128, .f32⟩
  | 48 => ⟨S100000x128, .f32⟩
  | 49 => ⟨S100000x128, .f32⟩
  | 50 => ⟨S128x128, .f32⟩
  | 51 => ⟨S100000x128, .f32⟩
  | 52 => ⟨S100000x128, .f32⟩
  | 53 => ⟨S_, .f32⟩
  | 54 => ⟨S100000x128, .f32⟩
  | 55 => ⟨S100000x128, .f32⟩
  | 56 => ⟨S100000x384, .f32⟩
  | 57 => ⟨S384x9, .f32⟩
  | 58 => ⟨S100000x9, .f32⟩
  | 59 => ⟨S1x9, .f32⟩
  | 60 => ⟨S100000x9, .f32⟩
  | 61 => ⟨S100000x9, .f32⟩
  | _ => ⟨S100000x5, .f32⟩

abbrev hbmTy (i : Nat) : BufTy := match i / 128 with
  | 0 => hbmTy0_0 i
  | 1 => hbmTy0_1 i
  | _ => ⟨S100000x5, .f32⟩

abbrev bufTy : (tb : Table) → Fin (tcTables nBuf tb) → BufTy
  | .hbm, ⟨i, _⟩ => hbmTy i
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_call0_cst : Ref sig .tc := ⟨.hbm, 29, rfl⟩
abbrev main_call0_v0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_call1_cst : Ref sig .tc := ⟨.hbm, 37, rfl⟩
abbrev main_call1_v0 : Ref sig .tc := ⟨.hbm, 38, rfl⟩
abbrev main_v15 : Ref sig .tc := ⟨.hbm, 39, rfl⟩
abbrev main_c : Ref sig .tc := ⟨.hbm, 40, rfl⟩
abbrev main_v16 : Ref sig .tc := ⟨.hbm, 41, rfl⟩
abbrev main_v17 : Ref sig .tc := ⟨.hbm, 42, rfl⟩
abbrev main_c_0 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_1 : Ref sig .tc := ⟨.hbm, 53, rfl⟩
abbrev main_v26 : Ref sig .tc := ⟨.hbm, 54, rfl⟩
abbrev main_cst_2 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_3 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_call2_cst : Ref sig .tc := ⟨.hbm, 73, rfl⟩
abbrev main_call2_v0 : Ref sig .tc := ⟨.hbm, 74, rfl⟩
abbrev main_v43 : Ref sig .tc := ⟨.hbm, 75, rfl⟩
abbrev main_c_4 : Ref sig .tc := ⟨.hbm, 76, rfl⟩
abbrev main_v44 : Ref sig .tc := ⟨.hbm, 77, rfl⟩
abbrev main_v45 : Ref sig .tc := ⟨.hbm, 78, rfl⟩
abbrev main_c_5 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_6 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_7 : Ref sig .tc := ⟨.hbm, 89, rfl⟩
abbrev main_v54 : Ref sig .tc := ⟨.hbm, 90, rfl⟩
abbrev main_cst_8 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_9 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_call3_cst : Ref sig .tc := ⟨.hbm, 109, rfl⟩
abbrev main_call3_v0 : Ref sig .tc := ⟨.hbm, 110, rfl⟩
abbrev main_v71 : Ref sig .tc := ⟨.hbm, 111, rfl⟩
abbrev main_c_10 : Ref sig .tc := ⟨.hbm, 112, rfl⟩
abbrev main_v72 : Ref sig .tc := ⟨.hbm, 113, rfl⟩
abbrev main_v73 : Ref sig .tc := ⟨.hbm, 114, rfl⟩
abbrev main_c_11 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_cst_12 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_cst_13 : Ref sig .tc := ⟨.hbm, 125, rfl⟩
abbrev main_v82 : Ref sig .tc := ⟨.hbm, 126, rfl⟩
abbrev main_cst_14 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_cst_15 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_call4_cst : Ref sig .tc := ⟨.hbm, 145, rfl⟩
abbrev main_call4_v0 : Ref sig .tc := ⟨.hbm, 146, rfl⟩
abbrev main_v99 : Ref sig .tc := ⟨.hbm, 147, rfl⟩
abbrev main_c_16 : Ref sig .tc := ⟨.hbm, 148, rfl⟩
abbrev main_v100 : Ref sig .tc := ⟨.hbm, 149, rfl⟩
abbrev main_v101 : Ref sig .tc := ⟨.hbm, 150, rfl⟩
abbrev main_c_17 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_cst_18 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_cst_19 : Ref sig .tc := ⟨.hbm, 161, rfl⟩
abbrev main_v110 : Ref sig .tc := ⟨.hbm, 162, rfl⟩
abbrev main_cst_20 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_cst_21 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_call5_cst : Ref sig .tc := ⟨.hbm, 181, rfl⟩
abbrev main_call5_v0 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  transposes_S512x5_S5x512_1_0 : S512x5.Transposes [1, 0] S5x512
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  transposes_S128x512_S512x128_1_0 : S128x512.Transposes [1, 0] S512x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  concatenates_S100000x128_S100000x128_S100000x128_S100000x384_d1 : Shape.Concatenates [S100000x128, S100000x128, S100000x128] S100000x384 1
  transposes_S9x384_S384x9_1_0 : S9x384.Transposes [1, 0] S384x9
  bcast_S9_S1x9_1 : S9.BroadcastsInDim S1x9 (![1] : Fin 1 → Fin S1x9.rank)
  bcast_S1x9_S100000x9_0_1 : S1x9.BroadcastsInDim S100000x9 (![0, 1] : Fin 2 → Fin S100000x9.rank)
  dot_S100000x5_S5x512_S100000x512_1_0_0_1_n_n_wf : DotDims.WF S100000x5 S5x512 S100000x512 [1] [0] [0] [1] [] []
  dot_S100000x512_S512x128_S100000x128_1_0_0_1_n_n_wf : DotDims.WF S100000x512 S512x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []
  dot_S100000x384_S384x9_S100000x9_1_0_0_1_n_n_wf : DotDims.WF S100000x384 S384x9 S100000x9 [1] [0] [0] [1] [] []

variable [Facts₀]

def dot_S100000x5_S5x512_S100000x512_1_0_0_1_n_n : DotDims S100000x5 S5x512 S100000x512 where
  lhsContracting := [1]
  rhsContracting := [0]
  lhsNonContracting := [0]
  rhsNonContracting := [1]
  lhsBatch := []
  rhsBatch := []
  wf := dot_S100000x5_S5x512_S100000x512_1_0_0_1_n_n_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x384_S384x9_S100000x9_1_0_0_1_n_n : DotDims S100000x384 S384x9 S100000x9 where
  lhsContracting := [1]
  rhsContracting := [0]
  lhsNonContracting := [0]
  rhsNonContracting := [1]
  lhsBatch := []
  rhsBatch := []
  wf := dot_S100000x384_S384x9_S100000x9_1_0_0_1_n_n_wf

class Facts : Prop extends Facts₀ where

variable [Facts]
-- ==== Proof.RefSpell.lean ====
/-
  The reference program's stages, each as a function of whole arrays in the spelling the reference prints.

  The reference computes, from the observations, the edge list and the weights:
    the encoder `feat` (two dense stages, each followed by the maximum with zero);
    from the edge list its two rows as vectors, the sources `srcV` and the targets `dstV`;
    the clamped in-degree of every node as a column, `degCol` (a scatter-add of ones at the targets, then the
    maximum with one);
    the mean over a node's incoming edges of the sources' feature rows, `mean` (gather the source rows — a negative
    source index counted from the end —, scatter-add them at the targets, divide by the degree column repeated along
    the features);
    one graph layer `layer` (mean·wlᵀ + bl + x·wrᵀ, then the maximum with zero);
    the head `head` (the three feature arrays side by side, times qwᵀ, plus qb).
  Its result is head(feat, layer(layer(feat)), layer(layer(layer(layer(feat))))) with each layer's own weights.
-/
import proofs.«176323_j18245021074049_1_alg».proof.Proof.Gen.ReferenceIdeal
import Idealize.ShloMosaic.PureOps.Ideal

noncomputable section

namespace Cert.ReferenceIdeal.Spell

open Cert.ReferenceIdeal Cert.ReferenceIdeal.Gen Idealize.ShloMosaic Idealize.ShloMosaic.TcCoe

/-- Row 0 of the edge list as a vector: the source node of every edge. -/
def srcV (a1 : Vec Ideal S2x600000 .i32) : Vec Ideal S600000 .i32 :=
  shapeCast S600000 (extractStridedSlice S1x600000 ![0, 0] a1 slices_S2x600000_S1x600000_0_0) shapeCasts_S1x600000_S600000

/-- Row 1 of the edge list as a vector: the target node of every edge. -/
def dstV (a1 : Vec Ideal S2x600000 .i32) : Vec Ideal S600000 .i32 :=
  shapeCast S600000 (extractStridedSlice S1x600000 ![1, 0] a1 slices_S2x600000_S1x600000_1_0) shapeCasts_S1x600000_S600000

/-- The number of edges into each node, clamped below by one, as a column. -/
def degCol (dst : Vec Ideal S600000 .i32) : FVec Ideal S100000x1 .f32 :=
  broadcastInDim S100000x1 ![0] bcast_S100000_S100000x1_0 (maximumf (Host.scatterAdd scatter_S100000_S600000x1_S600000_n_0_0_1 (broadcastInDim S100000 ![] bcast_S_S100000 (constant S_ .f32 0x00000000#32)) (broadcastInDim S600000x1 ![0] bcast_S600000_S600000x1_0 dst) (broadcastInDim S600000 ![] bcast_S_S600000 (constant S_ .f32 0x3F800000#32))) (broadcastInDim S100000 ![] bcast_S_S100000 (constant S_ .f32 0x3F800000#32)))

/-- The mean over a node's incoming edges of the sources' rows of `x`. -/
def mean (x : FVec Ideal S100000x128 .f32) (src dst : Vec Ideal S600000 .i32) (deg : FVec Ideal S100000x1 .f32) : FVec Ideal S100000x128 .f32 :=
  Host.divf (Host.scatterAdd scatter_S100000x128_S600000x1_S600000x128_1_0_0_1 (broadcastInDim S100000x128 ![] bcast_S_S100000x128 (constant S_ .f32 0x00000000#32)) (broadcastInDim S600000x1 ![0] bcast_S600000_S600000x1_0 dst) (Host.gather gather_S100000x128_S600000x1_S600000x128_1_0_n_n_0_1_1128 x (broadcastInDim S600000x1 ![0] bcast_S600000_S600000x1_0 (select (cmpi .slt src (broadcastInDim S600000 ![] bcast_S_S600000 (constantI S_ 32 0#32))) (addi src (broadcastInDim S600000 ![] bcast_S_S600000 (constantI S_ 32 100000#32))) src)))) (broadcastInDim S100000x128 ![0, 1] bcast_S100000x1_S100000x128_0_1 deg)

/-- One graph layer from the neighbour means `mn` and the features `x`. -/
def layer (x mn : FVec Ideal S100000x128 .f32) (wl : FVec Ideal S128x128 .f32) (bl : FVec Ideal S128 .f32) (wr : FVec Ideal S128x128 .f32) : FVec Ideal S100000x128 .f32 :=
  maximumf (addf (addf (Host.dotGeneral dot_S100000x128_S128x128_S100000x128_1_0_0_1_n_n none mn (transpose S128x128 [1, 0] wl transposes_S128x128_S128x128_1_0)) (broadcastInDim S100000x128 ![0, 1] bcast_S1x128_S100000x128_0_1 (broadcastInDim S1x128 ![1] bcast_S128_S1x128_1 bl))) (Host.dotGeneral dot_S100000x128_S128x128_S100000x128_1_0_0_1_n_n none x (transpose S128x128 [1, 0] wr transposes_S128x128_S128x128_1_0))) (broadcastInDim S100000x128 ![] bcast_S_S100000x128 (constant S_ .f32 0x00000000#32))

/-- The two-stage encoder. -/
def feat (a0 : FVec Ideal S100000x5 .f32) (a2 : FVec Ideal S512x5 .f32) (a3 : FVec Ideal S512 .f32) (a4 : FVec Ideal S128x512 .f32) (a5 : FVec Ideal S128 .f32) : FVec Ideal S100000x128 .f32 :=
  maximumf (addf (Host.dotGeneral dot_S100000x512_S512x128_S100000x128_1_0_0_1_n_n none (maximumf (addf (Host.dotGeneral dot_S100000x5_S5x512_S100000x512_1_0_0_1_n_n none a0 (transpose S5x512 [1, 0] a2 transposes_S512x5_S5x512_1_0)) (broadcastInDim S100000x512 ![0, 1] bcast_S1x512_S100000x512_0_1 (broadcastInDim S1x512 ![1] bcast_S512_S1x512_1 a3))) (broadcastInDim S100000x512 ![] bcast_S_S100000x512 (constant S_ .f32 0x00000000#32))) (transpose S512x128 [1, 0] a4 transposes_S128x512_S512x128_1_0)) (broadcastInDim S100000x128 ![0, 1] bcast_S1x128_S100000x128_0_1 (broadcastInDim S1x128 ![1] bcast_S128_S1x128_1 a5))) (broadcastInDim S100000x128 ![] bcast_S_S100000x128 (constant S_ .f32 0x00000000#32))

/-- The head on the three feature arrays side by side. -/
def head (f r1 r2 : FVec Ideal S100000x128 .f32) (a18 : FVec Ideal S9x384 .f32) (a19 : FVec Ideal S9 .f32) : FVec Ideal S100000x9 .f32 :=
  addf (Host.dotGeneral dot_S100000x384_S384x9_S100000x9_1_0_0_1_n_n none (concatenate S100000x384 1 [⟨S100000x128, f⟩, ⟨S100000x128, r1⟩, ⟨S100000x128, r2⟩] concatenates_S100000x128_S100000x128_S100000x128_S100000x384_d1) (transpose S384x9 [1, 0] a18 transposes_S9x384_S384x9_1_0)) (broadcastInDim S100000x9 ![0, 1] bcast_S1x9_S100000x9_0_1 (broadcastInDim S1x9 ![1] bcast_S9_S1x9_1 a19))

/-- The layer with its neighbour means computed from the edge list. -/
def layerE (x : FVec Ideal S100000x128 .f32) (a1 : Vec Ideal S2x600000 .i32) (wl : FVec Ideal S128x128 .f32) (bl : FVec Ideal S128 .f32) (wr : FVec Ideal S128x128 .f32) : FVec Ideal S100000x128 .f32 :=
  layer x (mean x (srcV a1) (dstV a1) (degCol (dstV a1))) wl bl wr

end Cert.ReferenceIdeal.Spell

end
-- ==== Proof.HostSteps.lean ====
/-
  The host operations between the kernel's regions, read as functions of the buffers they start from.

  Before the first region the program takes the two rows of the edge list apart (the sources and the targets of
  the edges) and counts, per node, the edges into it, clamped below by one. Before each graph layer it forms the
  neighbour means of the current features: the sources' rows gathered, summed at the targets, and divided by that
  count. Before the head it cuts the head's weight matrix into its three blocks of 128 columns. Each is the same
  operation, on the same buffers' contents, that the reference program spells; a buffer that a stretch of host
  operations does not write keeps its contents through it.
-/
import proofs.«176323_j18245021074049_1_alg».proof.Proof.Gen.KernelIdeal.Launch
import proofs.«176323_j18245021074049_1_alg».proof.Proof.RefSpell
import Idealize.ShloMosaic.Lib.StableHlo.Run

set_option maxRecDepth 16384

noncomputable section

namespace Cert.KernelIdeal.HostSteps

open Cert.KernelIdeal Cert.KernelIdeal.Gen Idealize.ShloMosaic Idealize.ShloMosaic.TcCoe Idealize.SL.Sem Idealize.ShloMosaic.StableHlo
open Cert.ReferenceIdeal (Spell.srcV Spell.dstV Spell.degCol Spell.mean)

variable (W : Valuation τ sig (Elt Ideal))

/-! ## What each stretch writes, and that it writes nothing else -/

/-- The buffers stretch 0 writes. -/
def wr0 : List (Ref sig .tc) := [main_v0, main_v1, main_v2, main_v3, main_cst, main_v4, main_cst_0, main_v5, main_v6, main_v7, main_cst_1, main_v8, main_v9, main_v10]

theorem writes0 : (hostOps0 (F := Ideal)).Forall fun op => op.writes ⊆ (wr0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer stretch 0 does not write keeps its contents through it. -/
theorem keep0 (r : Ref sig .tc) (hr : r ∉ wr0) :
    StableHlo.after (hostOps0 (F := Ideal)) W (Proc.devRef .tc r) = W (Proc.devRef .tc r) :=
  StableHlo.after_of_writes_sub _ W writes0 hr

/-- The buffers stretch 1 writes. -/
def wr1 : List (Ref sig .tc) := [main_c, main_v12, main_v13, main_c_2, main_v14, main_v15, main_v16, main_v17, main_v18, main_cst_3, main_v19, main_v20, main_v21, main_v22, main_v23]

theorem writes1 : (hostOps1 (F := Ideal)).Forall fun op => op.writes ⊆ (wr1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer stretch 1 does not write keeps its contents through it. -/
theorem keep1 (r : Ref sig .tc) (hr : r ∉ wr1) :
    StableHlo.after (hostOps1 (F := Ideal)) W (Proc.devRef .tc r) = W (Proc.devRef .tc r) :=
  StableHlo.after_of_writes_sub _ W writes1 hr

/-- The buffers stretch 2 writes. -/
def wr2 : List (Ref sig .tc) := [main_c_4, main_v25, main_v26, main_c_5, main_v27, main_v28, main_v29, main_v30, main_v31, main_cst_6, main_v32, main_v33, main_v34, main_v35, main_v36]

theorem writes2 : (hostOps2 (F := Ideal)).Forall fun op => op.writes ⊆ (wr2.map (Proc.devRef (τ := τ) .tc)).toFinset := by
  simp only [hostOps2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer stretch 2 does not write keeps its contents through it. -/
theorem keep2 (r : Ref sig .tc) (hr : r ∉ wr2) :
    StableHlo.after (hostOps2 (F := Ideal)) W (Proc.devRef .tc r) = W (Proc.devRef .tc r) :=
  StableHlo.after_of_writes_sub _ W writes2 hr

/-- The buffers stretch 3 writes. -/
def wr3 : List (Ref sig .tc) := [main_c_7, main_v38, main_v39, main_c_8, main_v40, main_v41, main_v42, main_v43, main_v44, main_cst_9, main_v45, main_v46, main_v47, main_v48, main_v49]

theorem writes3 : (hostOps3 (F := Ideal)).Forall fun op => op.writes ⊆ (wr3.map (Proc.devRef (τ := τ) .tc)).toFinset := by
  simp only [hostOps3, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer stretch 3 does not write keeps its contents through it. -/
theorem keep3 (r : Ref sig .tc) (hr : r ∉ wr3) :
    StableHlo.after (hostOps3 (F := Ideal)) W (Proc.devRef .tc r) = W (Proc.devRef .tc r) :=
  StableHlo.after_of_writes_sub _ W writes3 hr

/-- The buffers stretch 4 writes. -/
def wr4 : List (Ref sig .tc) := [main_c_10, main_v51, main_v52, main_c_11, main_v53, main_v54, main_v55, main_v56, main_v57, main_cst_12, main_v58, main_v59, main_v60, main_v61, main_v62]

theorem writes4 : (hostOps4 (F := Ideal)).Forall fun op => op.writes ⊆ (wr4.map (Proc.devRef (τ := τ) .tc)).toFinset := by
  simp only [hostOps4, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer stretch 4 does not write keeps its contents through it. -/
theorem keep4 (r : Ref sig .tc) (hr : r ∉ wr4) :
    StableHlo.after (hostOps4 (F := Ideal)) W (Proc.devRef .tc r) = W (Proc.devRef .tc r) :=
  StableHlo.after_of_writes_sub _ W writes4 hr

/-- The buffers stretch 5 writes. -/
def wr5 : List (Ref sig .tc) := [main_v64, main_v65, main_v66]

theorem writes5 : (hostOps5 (F := Ideal)).Forall fun op => op.writes ⊆ (wr5.map (Proc.devRef (τ := τ) .tc)).toFinset := by
  simp only [hostOps5, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer stretch 5 does not write keeps its contents through it. -/
theorem keep5 (r : Ref sig .tc) (hr : r ∉ wr5) :
    StableHlo.after (hostOps5 (F := Ideal)) W (Proc.devRef .tc r) = W (Proc.devRef .tc r) :=
  StableHlo.after_of_writes_sub _ W writes5 hr

/-! ## What the stretches compute -/

/-- After stretch 0 the sources of the edges. -/
theorem src0 : StableHlo.after (hostOps0 (F := Ideal)) W (Proc.devRef .tc main_v1)
    = Cert.ReferenceIdeal.Spell.srcV (W (Proc.devRef .tc main_arg1)) := by
  after_results; rfl

/-- After stretch 0 the targets of the edges. -/
theorem dst0 : StableHlo.after (hostOps0 (F := Ideal)) W (Proc.devRef .tc main_v3)
    = Cert.ReferenceIdeal.Spell.dstV (W (Proc.devRef .tc main_arg1)) := by
  after_results; rfl

/-- After stretch 0 the clamped in-degrees as a column. -/
theorem deg0 : StableHlo.after (hostOps0 (F := Ideal)) W (Proc.devRef .tc main_v10)
    = Cert.ReferenceIdeal.Spell.degCol (Cert.ReferenceIdeal.Spell.dstV (W (Proc.devRef .tc main_arg1))) := by
  after_results; rfl

/-- After stretch 1 the neighbour means of the features it starts from. -/
theorem mean1 : StableHlo.after (hostOps1 (F := Ideal)) W (Proc.devRef .tc main_v23)
    = Cert.ReferenceIdeal.Spell.mean (W (Proc.devRef .tc main_v11)) (W (Proc.devRef .tc main_v1)) (W (Proc.devRef .tc main_v3)) (W (Proc.devRef .tc main_v10)) := by
  after_results_simp <;> rfl

/-- After stretch 2 the neighbour means of the features it starts from. -/
theorem mean2 : StableHlo.after (hostOps2 (F := Ideal)) W (Proc.devRef .tc main_v36)
    = Cert.ReferenceIdeal.Spell.mean (W (Proc.devRef .tc main_v24)) (W (Proc.devRef .tc main_v1)) (W (Proc.devRef .tc main_v3)) (W (Proc.devRef .tc main_v10)) := by
  after_results_simp <;> rfl

/-- After stretch 3 the neighbour means of the features it starts from. -/
theorem mean3 : StableHlo.after (hostOps3 (F := Ideal)) W (Proc.devRef .tc main_v49)
    = Cert.ReferenceIdeal.Spell.mean (W (Proc.devRef .tc main_v37)) (W (Proc.devRef .tc main_v1)) (W (Proc.devRef .tc main_v3)) (W (Proc.devRef .tc main_v10)) := by
  after_results_simp <;> rfl

/-- After stretch 4 the neighbour means of the features it starts from. -/
theorem mean4 : StableHlo.after (hostOps4 (F := Ideal)) W (Proc.devRef .tc main_v62)
    = Cert.ReferenceIdeal.Spell.mean (W (Proc.devRef .tc main_v50)) (W (Proc.devRef .tc main_v1)) (W (Proc.devRef .tc main_v3)) (W (Proc.devRef .tc main_v10)) := by
  after_results_simp <;> rfl

/-- The head's weight matrix cut into its three blocks of 128 columns. -/
def qwBlock0 (qw : FVec Ideal S9x384 .f32) : FVec Ideal S9x128 .f32 := extractStridedSlice S9x128 ![0, 0] qw slices_S9x384_S9x128_0_0
def qwBlock1 (qw : FVec Ideal S9x384 .f32) : FVec Ideal S9x128 .f32 := extractStridedSlice S9x128 ![0, 128] qw slices_S9x384_S9x128_0_128
def qwBlock2 (qw : FVec Ideal S9x384 .f32) : FVec Ideal S9x128 .f32 := extractStridedSlice S9x128 ![0, 256] qw slices_S9x384_S9x128_0_256

theorem blk0 : StableHlo.after (hostOps5 (F := Ideal)) W (Proc.devRef .tc main_v64) = qwBlock0 (W (Proc.devRef .tc main_arg18)) := by
  after_results; rfl
theorem blk1 : StableHlo.after (hostOps5 (F := Ideal)) W (Proc.devRef .tc main_v65) = qwBlock1 (W (Proc.devRef .tc main_arg18)) := by
  after_results; rfl
theorem blk2 : StableHlo.after (hostOps5 (F := Ideal)) W (Proc.devRef .tc main_v66) = qwBlock2 (W (Proc.devRef .tc main_arg18)) := by
  after_results; rfl

end Cert.KernelIdeal.HostSteps

end
-- ==== Proof.ChainKeep.lean ====
/-
  Buffers carried unchanged through the program.

  The program's buffers are followed from boundary to boundary (before and after each stretch of host operations and
  each region). A stretch leaves every buffer it does not write as it was; a region leaves every buffer that is not one
  of its arrays as it was, and each of its input arrays too. So: every weight and bias argument still holds its launch
  contents where the region that uses it is entered; the edges' sources and targets and the clamped in-degrees,
  computed once before the first region, are what every layer's neighbour means are taken with; and the encoder's
  output and the second and fourth layers' outputs reach the head unchanged.
-/
import proofs.«176323_j18245021074049_1_alg».proof.Proof.Gen.KernelIdeal.Frame
import proofs.«176323_j18245021074049_1_alg».proof.Proof.HostSteps

set_option maxRecDepth 16384

noncomputable section

namespace Cert.KernelIdeal.Chain

open Cert.KernelIdeal Cert.KernelIdeal.Gen Idealize.ShloMosaic Idealize.ShloMosaic.TcCoe Idealize.SL.Sem
open Cert.ReferenceIdeal (Spell.srcV Spell.dstV Spell.degCol)

variable (m : (ℓ : Loc nD τ sig) → Buf (Elt Ideal) ℓ) (ρ : Dev nD → PrngReg) (c : Dev nD)

/-! ## The arguments where they are used -/

theorem V1_arg0 : V1 m ρ c main_arg0 = m ((c : Thread nD τ).loc main_arg0) :=
  calc W1 m ρ c (Proc.devRef .tc main_arg0)
    _ = W0 m ρ c (Proc.devRef .tc main_arg0) := HostSteps.keep0 (W0 m ρ c) main_arg0 (by decide)
    _ = m ((c : Thread nD τ).loc main_arg0) := rfl

theorem V1_arg2 : V1 m ρ c main_arg2 = m ((c : Thread nD τ).loc main_arg2) :=
  calc W1 m ρ c (Proc.devRef .tc main_arg2)
    _ = W0 m ρ c (Proc.devRef .tc main_arg2) := HostSteps.keep0 (W0 m ρ c) main_arg2 (by decide)
    _ = m ((c : Thread nD τ).loc main_arg2) := rfl

theorem V1_arg3 : V1 m ρ c main_arg3 = m ((c : Thread nD τ).loc main_arg3) :=
  calc W1 m ρ c (Proc.devRef .tc main_arg3)
    _ = W0 m ρ c (Proc.devRef .tc main_arg3) := HostSteps.keep0 (W0 m ρ c) main_arg3 (by decide)
    _ = m ((c : Thread nD τ).loc main_arg3) := rfl

theorem V1_arg4 : V1 m ρ c main_arg4 = m ((c : Thread nD τ).loc main_arg4) :=
  calc W1 m ρ c (Proc.devRef .tc main_arg4)
    _ = W0 m ρ c (Proc.devRef .tc main_arg4) := HostSteps.keep0 (W0 m ρ c) main_arg4 (by decide)
    _ = m ((c : Thread nD τ).loc main_arg4) := rfl

theorem V1_arg5 : V1 m ρ c main_arg5 = m ((c : Thread nD τ).loc main_arg5) :=
  calc W1 m ρ c (Proc.devRef .tc main_arg5)
    _ = W0 m ρ c (Proc.devRef .tc main_arg5) := HostSteps.keep0 (W0 m ρ c) main_arg5 (by decide)
    _ = m ((c : Thread nD τ).loc main_arg5) := rfl

theorem V3_arg6 : V3 m ρ c main_arg6 = m ((c : Thread nD τ).loc main_arg6) :=
  calc W3 m ρ c (Proc.devRef .tc main_arg6)
    _ = W2 m ρ c (Proc.devRef .tc main_arg6) := HostSteps.keep1 (W2 m ρ c) main_arg6 (by decide)
    _ = W1 m ρ c (Proc.devRef .tc main_arg6) := W2_of_ne m ρ c main_arg6 (by decide)
    _ = W0 m ρ c (Proc.devRef .tc main_arg6) := HostSteps.keep0 (W0 m ρ c) main_arg6 (by decide)
    _ = m ((c : Thread nD τ).loc main_arg6) := rfl

theorem V3_arg7 : V3 m ρ c main_arg7 = m ((c : Thread nD τ).loc main_arg7) :=
  calc W3 m ρ c (Proc.devRef .tc main_arg7)
    _ = W2 m ρ c (Proc.devRef .tc main_arg7) := HostSteps.keep1 (W2 m ρ c) main_arg7 (by decide)
    _ = W1 m ρ c (Proc.devRef .tc main_arg7) := W2_of_ne m ρ c main_arg7 (by decide)
    _ = W0 m ρ c (Proc.devRef .tc main_arg7) := HostSteps.keep0 (W0 m ρ c) main_arg7 (by decide)
    _ = m ((c : Thread nD τ).loc main_arg7) := rfl

theorem V3_arg8 : V3 m ρ c main_arg8 = m ((c : Thread nD τ).loc main_arg8) :=
  calc W3 m ρ c (Proc.devRef .tc main_arg8)
    _ = W2 m ρ c (Proc.devRef .tc main_arg8) := HostSteps.keep1 (W2 m ρ c) main_arg8 (by decide)
    _ = W1 m ρ c (Proc.devRef .tc main_arg8) := W2_of_ne m ρ c main_arg8 (by decide)
    _ = W0 m ρ c (Proc.devRef .tc main_arg8) := HostSteps.keep0 (W0 m ρ c) main_arg8 (by decide)
    _ = m ((c : Thread nD τ).loc main_arg8) := rfl

theorem V5_arg9 : V5 m ρ c main_arg9 = m ((c : Thread nD τ).loc main_arg9) :=
  calc W5 m ρ c (Proc.devRef .tc main_arg9)
    _ = W4 m ρ c (Proc.devRef .tc main_arg9) := HostSteps.keep2 (W4 m ρ c) main_arg9 (by decide)
    _ = W3 m ρ c (Proc.devRef .tc main_arg9) := W4_of_ne m ρ c main_arg9 (by decide)
    _ = W2 m ρ c (Proc.devRef .tc main_arg9) := HostSteps.keep1 (W2 m ρ c) main_arg9 (by decide)
    _ = W1 m ρ c (Proc.devRef .tc main_arg9) := W2_of_ne m ρ c main_arg9 (by decide)
    _ = W0 m ρ c (Proc.devRef .tc main_arg9) := HostSteps.keep0 (W0 m ρ c) main_arg9 (by decide)
    _ = m ((c : Thread nD τ).loc main_arg9) := rfl

theorem V5_arg10 : V5 m ρ c main_arg10 = m ((c : Thread nD τ).loc main_arg10) :=
  calc W5 m ρ c (Proc.devRef .tc main_arg10)
    _ = W4 m ρ c (Proc.devRef .tc main_arg10) := HostSteps.keep2 (W4 m ρ c) main_arg10 (by decide)
    _ = W3 m ρ c (Proc.devRef .tc main_arg10) := W4_of_ne m ρ c main_arg10 (by decide)
    _ = W2 m ρ c (Proc.devRef .tc main_arg10) := HostSteps.keep1 (W2 m ρ c) main_arg10 (by decide)
    _ = W1 m ρ c (Proc.devRef .tc main_arg10) := W2_of_ne m ρ c main_arg10 (by decide)
    _ = W0 m ρ c (Proc.devRef .tc main_arg10) := HostSteps.keep0 (W0 m ρ c) main_arg10 (by decide)
    _ = m ((c : Thread nD τ).loc main_arg10) := rfl

theorem V5_arg11 : V5 m ρ c main_arg11 = m ((c : Thread nD τ).loc main_arg11) :=
  calc W5 m ρ c (Proc.devRef .tc main_arg11)
    _ = W4 m ρ c (Proc.devRef .tc main_arg11) := HostSteps.keep2 (W4 m ρ c) main_arg11 (by decide)
    _ = W3 m ρ c (Proc.devRef .tc main_arg11) := W4_of_ne m ρ c main_arg11 (by decide)
    _ = W2 m ρ c (Proc.devRef .tc main_arg11) := HostSteps.keep1 (W2 m ρ c) main_arg11 (by decide)
    _ = W1 m ρ c (Proc.devRef .tc main_arg11) := W2_of_ne m ρ c main_arg11 (by decide)
    _ = W0 m ρ c (Proc.devRef .tc main_arg11) := HostSteps.keep0 (W0 m ρ c) main_arg11 (by decide)
    _ = m ((c : Thread nD τ).loc main_arg11) := rfl

theorem V7_arg12 : V7 m ρ c main_arg12 = m ((c : Thread nD τ).loc main_arg12) :=
  calc W7 m ρ c (Proc.devRef .tc main_arg12)
    _ = W6 m ρ c (Proc.devRef .tc main_arg12) := HostSteps.keep3 (W6 m ρ c) main_arg12 (by decide)
    _ = W5 m ρ c (Proc.devRef .tc main_arg12) := W6_of_ne m ρ c main_arg12 (by decide)
    _ = W4 m ρ c (Proc.devRef .tc main_arg12) := HostSteps.keep2 (W4 m ρ c) main_arg12 (by decide)
    _ = W3 m ρ c (Proc.devRef .tc main_arg12) := W4_of_ne m ρ c main_arg12 (by decide)
    _ = W2 m ρ c (Proc.devRef .tc main_arg12) := HostSteps.keep1 (W2 m ρ c) main_arg12 (by decide)
    _ = W1 m ρ c (Proc.devRef .tc main_arg12) := W2_of_ne m ρ c main_arg12 (by decide)
    _ = W0 m ρ c (Proc.devRef .tc main_arg12) := HostSteps.keep0 (W0 m ρ c) main_arg12 (by decide)
    _ = m ((c : Thread nD τ).loc main_arg12) := rfl

theorem V7_arg13 : V7 m ρ c main_arg13 = m ((c : Thread nD τ).loc main_arg13) :=
  calc W7 m ρ c (Proc.devRef .tc main_arg13)
    _ = W6 m ρ c (Proc.devRef .tc main_arg13) := HostSteps.keep3 (W6 m ρ c) main_arg13 (by decide)
    _ = W5 m ρ c (Proc.devRef .tc main_arg13) := W6_of_ne m ρ c main_arg13 (by decide)
    _ = W4 m ρ c (Proc.devRef .tc main_arg13) := HostSteps.keep2 (W4 m ρ c) main_arg13 (by decide)
    _ = W3 m ρ c (Proc.devRef .tc main_arg13) := W4_of_ne m ρ c main_arg13 (by decide)
    _ = W2 m ρ c (Proc.devRef .tc main_arg13) := HostSteps.keep1 (W2 m ρ c) main_arg13 (by decide)
    _ = W1 m ρ c (Proc.devRef .tc main_arg13) := W2_of_ne m ρ c main_arg13 (by decide)
    _ = W0 m ρ c (Proc.devRef .tc main_arg13) := HostSteps.keep0 (W0 m ρ c) main_arg13 (by decide)
    _ = m ((c : Thread nD τ).loc main_arg13) := rfl

theorem V7_arg14 : V7 m ρ c main_arg14 = m ((c : Thread nD τ).loc main_arg14) :=
  calc W7 m ρ c (Proc.devRef .tc main_arg14)
    _ = W6 m ρ c (Proc.devRef .tc main_arg14) := HostSteps.keep3 (W6 m ρ c) main_arg14 (by decide)
    _ = W5 m ρ c (Proc.devRef .tc main_arg14) := W6_of_ne m ρ c main_arg14 (by decide)
    _ = W4 m ρ c (Proc.devRef .tc main_arg14) := HostSteps.keep2 (W4 m ρ c) main_arg14 (by decide)
    _ = W3 m ρ c (Proc.devRef .tc main_arg14) := W4_of_ne m ρ c main_arg14 (by decide)
    _ = W2 m ρ c (Proc.devRef .tc main_arg14) := HostSteps.keep1 (W2 m ρ c) main_arg14 (by decide)
    _ = W1 m ρ c (Proc.devRef .tc main_arg14) := W2_of_ne m ρ c main_arg14 (by decide)
    _ = W0 m ρ c (Proc.devRef .tc main_arg14) := HostSteps.keep0 (W0 m ρ c) main_arg14 (by decide)
    _ = m ((c : Thread nD τ).loc main_arg14) := rfl

theorem V9_arg15 : V9 m ρ c main_arg15 = m ((c : Thread nD τ).loc main_arg15) :=
  calc W9 m ρ c (Proc.devRef .tc main_arg15)
    _ = W8 m ρ c (Proc.devRef .tc main_arg15) := HostSteps.keep4 (W8 m ρ c) main_arg15 (by decide)
    _ = W7 m ρ c (Proc.devRef .tc main_arg15) := W8_of_ne m ρ c main_arg15 (by decide)
    _ = W6 m ρ c (Proc.devRef .tc main_arg15) := HostSteps.keep3 (W6 m ρ c) main_arg15 (by decide)
    _ = W5 m ρ c (Proc.devRef .tc main_arg15) := W6_of_ne m ρ c main_arg15 (by decide)
    _ = W4 m ρ c (Proc.devRef .tc main_arg15) := HostSteps.keep2 (W4 m ρ c) main_arg15 (by decide)
    _ = W3 m ρ c (Proc.devRef .tc main_arg15) := W4_of_ne m ρ c main_arg15 (by decide)
    _ = W2 m ρ c (Proc.devRef .tc main_arg15) := HostSteps.keep1 (W2 m ρ c) main_arg15 (by decide)
    _ = W1 m ρ c (Proc.devRef .tc main_arg15) := W2_of_ne m ρ c main_arg15 (by decide)
    _ = W0 m ρ c (Proc.devRef .tc main_arg15) := HostSteps.keep0 (W0 m ρ c) main_arg15 (by decide)
    _ = m ((c : Thread nD τ).loc main_arg15) := rfl

theorem V9_arg16 : V9 m ρ c main_arg16 = m ((c : Thread nD τ).loc main_arg16) :=
  calc W9 m ρ c (Proc.devRef .tc main_arg16)
    _ = W8 m ρ c (Proc.devRef .tc main_arg16) := HostSteps.keep4 (W8 m ρ c) main_arg16 (by decide)
    _ = W7 m ρ c (Proc.devRef .tc main_arg16) := W8_of_ne m ρ c main_arg16 (by decide)
    _ = W6 m ρ c (Proc.devRef .tc main_arg16) := HostSteps.keep3 (W6 m ρ c) main_arg16 (by decide)
    _ = W5 m ρ c (Proc.devRef .tc main_arg16) := W6_of_ne m ρ c main_arg16 (by decide)
    _ = W4 m ρ c (Proc.devRef .tc main_arg16) := HostSteps.keep2 (W4 m ρ c) main_arg16 (by decide)
    _ = W3 m ρ c (Proc.devRef .tc main_arg16) := W4_of_ne m ρ c main_arg16 (by decide)
    _ = W2 m ρ c (Proc.devRef .tc main_arg16) := HostSteps.keep1 (W2 m ρ c) main_arg16 (by decide)
    _ = W1 m ρ c (Proc.devRef .tc main_arg16) := W2_of_ne m ρ c main_arg16 (by decide)
    _ = W0 m ρ c (Proc.devRef .tc main_arg16) := HostSteps.keep0 (W0 m ρ c) main_arg16 (by decide)
    _ = m ((c : Thread nD τ).loc main_arg16) := rfl

theorem V9_arg17 : V9 m ρ c main_arg17 = m ((c : Thread nD τ).loc main_arg17) :=
  calc W9 m ρ c (Proc.devRef .tc main_arg17)
    _ = W8 m ρ c (Proc.devRef .tc main_arg17) := HostSteps.keep4 (W8 m ρ c) main_arg17 (by decide)
    _ = W7 m ρ c (Proc.devRef .tc main_arg17) := W8_of_ne m ρ c main_arg17 (by decide)
    _ = W6 m ρ c (Proc.devRef .tc main_arg17) := HostSteps.keep3 (W6 m ρ c) main_arg17 (by decide)
    _ = W5 m ρ c (Proc.devRef .tc main_arg17) := W6_of_ne m ρ c main_arg17 (by decide)
    _ = W4 m ρ c (Proc.devRef .tc main_arg17) := HostSteps.keep2 (W4 m ρ c) main_arg17 (by decide)
    _ = W3 m ρ c (Proc.devRef .tc main_arg17) := W4_of_ne m ρ c main_arg17 (by decide)
    _ = W2 m ρ c (Proc.devRef .tc main_arg17) := HostSteps.keep1 (W2 m ρ c) main_arg17 (by decide)
    _ = W1 m ρ c (Proc.devRef .tc main_arg17) := W2_of_ne m ρ c main_arg17 (by decide)
    _ = W0 m ρ c (Proc.devRef .tc main_arg17) := HostSteps.keep0 (W0 m ρ c) main_arg17 (by decide)
    _ = m ((c : Thread nD τ).loc main_arg17) := rfl

theorem W10_arg18 : W10 m ρ c (Proc.devRef .tc main_arg18) = m ((c : Thread nD τ).loc main_arg18) :=
  calc W10 m ρ c (Proc.devRef .tc main_arg18)
    _ = W9 m ρ c (Proc.devRef .tc main_arg18) := W10_of_ne m ρ c main_arg18 (by decide)
    _ = W8 m ρ c (Proc.devRef .tc main_arg18) := HostSteps.keep4 (W8 m ρ c) main_arg18 (by decide)
    _ = W7 m ρ c (Proc.devRef .tc main_arg18) := W8_of_ne m ρ c main_arg18 (by decide)
    _ = W6 m ρ c (Proc.devRef .tc main_arg18) := HostSteps.keep3 (W6 m ρ c) main_arg18 (by decide)
    _ = W5 m ρ c (Proc.devRef .tc main_arg18) := W6_of_ne m ρ c main_arg18 (by decide)
    _ = W4 m ρ c (Proc.devRef .tc main_arg18) := HostSteps.keep2 (W4 m ρ c) main_arg18 (by decide)
    _ = W3 m ρ c (Proc.devRef .tc main_arg18) := W4_of_ne m ρ c main_arg18 (by decide)
    _ = W2 m ρ c (Proc.devRef .tc main_arg18) := HostSteps.keep1 (W2 m ρ c) main_arg18 (by decide)
    _ = W1 m ρ c (Proc.devRef .tc main_arg18) := W2_of_ne m ρ c main_arg18 (by decide)
    _ = W0 m ρ c (Proc.devRef .tc main_arg18) := HostSteps.keep0 (W0 m ρ c) main_arg18 (by decide)
    _ = m ((c : Thread nD τ).loc main_arg18) := rfl

theorem V11_arg19 : V11 m ρ c main_arg19 = m ((c : Thread nD τ).loc main_arg19) :=
  calc W11 m ρ c (Proc.devRef .tc main_arg19)
    _ = W10 m ρ c (Proc.devRef .tc main_arg19) := HostSteps.keep5 (W10 m ρ c) main_arg19 (by decide)
    _ = W9 m ρ c (Proc.devRef .tc main_arg19) := W10_of_ne m ρ c main_arg19 (by decide)
    _ = W8 m ρ c (Proc.devRef .tc main_arg19) := HostSteps.keep4 (W8 m ρ c) main_arg19 (by decide)
    _ = W7 m ρ c (Proc.devRef .tc main_arg19) := W8_of_ne m ρ c main_arg19 (by decide)
    _ = W6 m ρ c (Proc.devRef .tc main_arg19) := HostSteps.keep3 (W6 m ρ c) main_arg19 (by decide)
    _ = W5 m ρ c (Proc.devRef .tc main_arg19) := W6_of_ne m ρ c main_arg19 (by decide)
    _ = W4 m ρ c (Proc.devRef .tc main_arg19) := HostSteps.keep2 (W4 m ρ c) main_arg19 (by decide)
    _ = W3 m ρ c (Proc.devRef .tc main_arg19) := W4_of_ne m ρ c main_arg19 (by decide)
    _ = W2 m ρ c (Proc.devRef .tc main_arg19) := HostSteps.keep1 (W2 m ρ c) main_arg19 (by decide)
    _ = W1 m ρ c (Proc.devRef .tc main_arg19) := W2_of_ne m ρ c main_arg19 (by decide)
    _ = W0 m ρ c (Proc.devRef .tc main_arg19) := HostSteps.keep0 (W0 m ρ c) main_arg19 (by decide)
    _ = m ((c : Thread nD τ).loc main_arg19) := rfl

/-! ## The edge list's columns and the degrees, at every layer -/

theorem W2_src : W2 m ρ c (Proc.devRef .tc main_v1) = Cert.ReferenceIdeal.Spell.srcV (m ((c : Thread nD τ).loc main_arg1)) :=
  calc W2 m ρ c (Proc.devRef .tc main_v1)
    _ = W1 m ρ c (Proc.devRef .tc main_v1) := W2_of_ne m ρ c main_v1 (by decide)
    _ = Cert.ReferenceIdeal.Spell.srcV (m ((c : Thread nD τ).loc main_arg1)) := HostSteps.src0 (W0 m ρ c)

theorem W2_dst : W2 m ρ c (Proc.devRef .tc main_v3) = Cert.ReferenceIdeal.Spell.dstV (m ((c : Thread nD τ).loc main_arg1)) :=
  calc W2 m ρ c (Proc.devRef .tc main_v3)
    _ = W1 m ρ c (Proc.devRef .tc main_v3) := W2_of_ne m ρ c main_v3 (by decide)
    _ = Cert.ReferenceIdeal.Spell.dstV (m ((c : Thread nD τ).loc main_arg1)) := HostSteps.dst0 (W0 m ρ c)

theorem W2_deg : W2 m ρ c (Proc.devRef .tc main_v10) = Cert.ReferenceIdeal.Spell.degCol (Cert.ReferenceIdeal.Spell.dstV (m ((c : Thread nD τ).loc main_arg1))) :=
  calc W2 m ρ c (Proc.devRef .tc main_v10)
    _ = W1 m ρ c (Proc.devRef .tc main_v10) := W2_of_ne m ρ c main_v10 (by decide)
    _ = Cert.ReferenceIdeal.Spell.degCol (Cert.ReferenceIdeal.Spell.dstV (m ((c : Thread nD τ).loc main_arg1))) := HostSteps.deg0 (W0 m ρ c)

theorem W4_src : W4 m ρ c (Proc.devRef .tc main_v1) = Cert.ReferenceIdeal.Spell.srcV (m ((c : Thread nD τ).loc main_arg1)) :=
  calc W4 m ρ c (Proc.devRef .tc main_v1)
    _ = W3 m ρ c (Proc.devRef .tc main_v1) := W4_of_ne m ρ c main_v1 (by decide)
    _ = W2 m ρ c (Proc.devRef .tc main_v1) := HostSteps.keep1 (W2 m ρ c) main_v1 (by decide)
    _ = W1 m ρ c (Proc.devRef .tc main_v1) := W2_of_ne m ρ c main_v1 (by decide)
    _ = Cert.ReferenceIdeal.Spell.srcV (m ((c : Thread nD τ).loc main_arg1)) := HostSteps.src0 (W0 m ρ c)

theorem W4_dst : W4 m ρ c (Proc.devRef .tc main_v3) = Cert.ReferenceIdeal.Spell.dstV (m ((c : Thread nD τ).loc main_arg1)) :=
  calc W4 m ρ c (Proc.devRef .tc main_v3)
    _ = W3 m ρ c (Proc.devRef .tc main_v3) := W4_of_ne m ρ c main_v3 (by decide)
    _ = W2 m ρ c (Proc.devRef .tc main_v3) := HostSteps.keep1 (W2 m ρ c) main_v3 (by decide)
    _ = W1 m ρ c (Proc.devRef .tc main_v3) := W2_of_ne m ρ c main_v3 (by decide)
    _ = Cert.ReferenceIdeal.Spell.dstV (m ((c : Thread nD τ).loc main_arg1)) := HostSteps.dst0 (W0 m ρ c)

theorem W4_deg : W4 m ρ c (Proc.devRef .tc main_v10) = Cert.ReferenceIdeal.Spell.degCol (Cert.ReferenceIdeal.Spell.dstV (m ((c : Thread nD τ).loc main_arg1))) :=
  calc W4 m ρ c (Proc.devRef .tc main_v10)
    _ = W3 m ρ c (Proc.devRef .tc main_v10) := W4_of_ne m ρ c main_v10 (by decide)
    _ = W2 m ρ c (Proc.devRef .tc main_v10) := HostSteps.keep1 (W2 m ρ c) main_v10 (by decide)
    _ = W1 m ρ c (Proc.devRef .tc main_v10) := W2_of_ne m ρ c main_v10 (by decide)
    _ = Cert.ReferenceIdeal.Spell.degCol (Cert.ReferenceIdeal.Spell.dstV (m ((c : Thread nD τ).loc main_arg1))) := HostSteps.deg0 (W0 m ρ c)

theorem W6_src : W6 m ρ c (Proc.devRef .tc main_v1) = Cert.ReferenceIdeal.Spell.srcV (m ((c : Thread nD τ).loc main_arg1)) :=
  calc W6 m ρ c (Proc.devRef .tc main_v1)
    _ = W5 m ρ c (Proc.devRef .tc main_v1) := W6_of_ne m ρ c main_v1 (by decide)
    _ = W4 m ρ c (Proc.devRef .tc main_v1) := HostSteps.keep2 (W4 m ρ c) main_v1 (by decide)
    _ = W3 m ρ c (Proc.devRef .tc main_v1) := W4_of_ne m ρ c main_v1 (by decide)
    _ = W2 m ρ c (Proc.devRef .tc main_v1) := HostSteps.keep1 (W2 m ρ c) main_v1 (by decide)
    _ = W1 m ρ c (Proc.devRef .tc main_v1) := W2_of_ne m ρ c main_v1 (by decide)
    _ = Cert.ReferenceIdeal.Spell.srcV (m ((c : Thread nD τ).loc main_arg1)) := HostSteps.src0 (W0 m ρ c)

theorem W6_dst : W6 m ρ c (Proc.devRef .tc main_v3) = Cert.ReferenceIdeal.Spell.dstV (m ((c : Thread nD τ).loc main_arg1)) :=
  calc W6 m ρ c (Proc.devRef .tc main_v3)
    _ = W5 m ρ c (Proc.devRef .tc main_v3) := W6_of_ne m ρ c main_v3 (by decide)
    _ = W4 m ρ c (Proc.devRef .tc main_v3) := HostSteps.keep2 (W4 m ρ c) main_v3 (by decide)
    _ = W3 m ρ c (Proc.devRef .tc main_v3) := W4_of_ne m ρ c main_v3 (by decide)
    _ = W2 m ρ c (Proc.devRef .tc main_v3) := HostSteps.keep1 (W2 m ρ c) main_v3 (by decide)
    _ = W1 m ρ c (Proc.devRef .tc main_v3) := W2_of_ne m ρ c main_v3 (by decide)
    _ = Cert.ReferenceIdeal.Spell.dstV (m ((c : Thread nD τ).loc main_arg1)) := HostSteps.dst0 (W0 m ρ c)

theorem W6_deg : W6 m ρ c (Proc.devRef .tc main_v10) = Cert.ReferenceIdeal.Spell.degCol (Cert.ReferenceIdeal.Spell.dstV (m ((c : Thread nD τ).loc main_arg1))) :=
  calc W6 m ρ c (Proc.devRef .tc main_v10)
    _ = W5 m ρ c (Proc.devRef .tc main_v10) := W6_of_ne m ρ c main_v10 (by decide)
    _ = W4 m ρ c (Proc.devRef .tc main_v10) := HostSteps.keep2 (W4 m ρ c) main_v10 (by decide)
    _ = W3 m ρ c (Proc.devRef .tc main_v10) := W4_of_ne m ρ c main_v10 (by decide)
    _ = W2 m ρ c (Proc.devRef .tc main_v10) := HostSteps.keep1 (W2 m ρ c) main_v10 (by decide)
    _ = W1 m ρ c (Proc.devRef .tc main_v10) := W2_of_ne m ρ c main_v10 (by decide)
    _ = Cert.ReferenceIdeal.Spell.degCol (Cert.ReferenceIdeal.Spell.dstV (m ((c : Thread nD τ).loc main_arg1))) := HostSteps.deg0 (W0 m ρ c)

theorem W8_src : W8 m ρ c (Proc.devRef .tc main_v1) = Cert.ReferenceIdeal.Spell.srcV (m ((c : Thread nD τ).loc main_arg1)) :=
  calc W8 m ρ c (Proc.devRef .tc main_v1)
    _ = W7 m ρ c (Proc.devRef .tc main_v1) := W8_of_ne m ρ c main_v1 (by decide)
    _ = W6 m ρ c (Proc.devRef .tc main_v1) := HostSteps.keep3 (W6 m ρ c) main_v1 (by decide)
    _ = W5 m ρ c (Proc.devRef .tc main_v1) := W6_of_ne m ρ c main_v1 (by decide)
    _ = W4 m ρ c (Proc.devRef .tc main_v1) := HostSteps.keep2 (W4 m ρ c) main_v1 (by decide)
    _ = W3 m ρ c (Proc.devRef .tc main_v1) := W4_of_ne m ρ c main_v1 (by decide)
    _ = W2 m ρ c (Proc.devRef .tc main_v1) := HostSteps.keep1 (W2 m ρ c) main_v1 (by decide)
    _ = W1 m ρ c (Proc.devRef .tc main_v1) := W2_of_ne m ρ c main_v1 (by decide)
    _ = Cert.ReferenceIdeal.Spell.srcV (m ((c : Thread nD τ).loc main_arg1)) := HostSteps.src0 (W0 m ρ c)

theorem W8_dst : W8 m ρ c (Proc.devRef .tc main_v3) = Cert.ReferenceIdeal.Spell.dstV (m ((c : Thread nD τ).loc main_arg1)) :=
  calc W8 m ρ c (Proc.devRef .tc main_v3)
    _ = W7 m ρ c (Proc.devRef .tc main_v3) := W8_of_ne m ρ c main_v3 (by decide)
    _ = W6 m ρ c (Proc.devRef .tc main_v3) := HostSteps.keep3 (W6 m ρ c) main_v3 (by decide)
    _ = W5 m ρ c (Proc.devRef .tc main_v3) := W6_of_ne m ρ c main_v3 (by decide)
    _ = W4 m ρ c (Proc.devRef .tc main_v3) := HostSteps.keep2 (W4 m ρ c) main_v3 (by decide)
    _ = W3 m ρ c (Proc.devRef .tc main_v3) := W4_of_ne m ρ c main_v3 (by decide)
    _ = W2 m ρ c (Proc.devRef .tc main_v3) := HostSteps.keep1 (W2 m ρ c) main_v3 (by decide)
    _ = W1 m ρ c (Proc.devRef .tc main_v3) := W2_of_ne m ρ c main_v3 (by decide)
    _ = Cert.ReferenceIdeal.Spell.dstV (m ((c : Thread nD τ).loc main_arg1)) := HostSteps.dst0 (W0 m ρ c)

theorem W8_deg : W8 m ρ c (Proc.devRef .tc main_v10) = Cert.ReferenceIdeal.Spell.degCol (Cert.ReferenceIdeal.Spell.dstV (m ((c : Thread nD τ).loc main_arg1))) :=
  calc W8 m ρ c (Proc.devRef .tc main_v10)
    _ = W7 m ρ c (Proc.devRef .tc main_v10) := W8_of_ne m ρ c main_v10 (by decide)
    _ = W6 m ρ c (Proc.devRef .tc main_v10) := HostSteps.keep3 (W6 m ρ c) main_v10 (by decide)
    _ = W5 m ρ c (Proc.devRef .tc main_v10) := W6_of_ne m ρ c main_v10 (by decide)
    _ = W4 m ρ c (Proc.devRef .tc main_v10) := HostSteps.keep2 (W4 m ρ c) main_v10 (by decide)
    _ = W3 m ρ c (Proc.devRef .tc main_v10) := W4_of_ne m ρ c main_v10 (by decide)
    _ = W2 m ρ c (Proc.devRef .tc main_v10) := HostSteps.keep1 (W2 m ρ c) main_v10 (by decide)
    _ = W1 m ρ c (Proc.devRef .tc main_v10) := W2_of_ne m ρ c main_v10 (by decide)
    _ = Cert.ReferenceIdeal.Spell.degCol (Cert.ReferenceIdeal.Spell.dstV (m ((c : Thread nD τ).loc main_arg1))) := HostSteps.deg0 (W0 m ρ c)

/-! ## The feature arrays, carried to where they are read again -/

theorem V3_v11 : V3 m ρ c main_v11 = W2 m ρ c (Proc.devRef .tc main_v11) :=
  calc W3 m ρ c (Proc.devRef .tc main_v11)
    _ = W2 m ρ c (Proc.devRef .tc main_v11) := HostSteps.keep1 (W2 m ρ c) main_v11 (by decide)

theorem V11_v11 : V11 m ρ c main_v11 = W2 m ρ c (Proc.devRef .tc main_v11) :=
  calc W11 m ρ c (Proc.devRef .tc main_v11)
    _ = W10 m ρ c (Proc.devRef .tc main_v11) := HostSteps.keep5 (W10 m ρ c) main_v11 (by decide)
    _ = W9 m ρ c (Proc.devRef .tc main_v11) := W10_of_ne m ρ c main_v11 (by decide)
    _ = W8 m ρ c (Proc.devRef .tc main_v11) := HostSteps.keep4 (W8 m ρ c) main_v11 (by decide)
    _ = W7 m ρ c (Proc.devRef .tc main_v11) := W8_of_ne m ρ c main_v11 (by decide)
    _ = W6 m ρ c (Proc.devRef .tc main_v11) := HostSteps.keep3 (W6 m ρ c) main_v11 (by decide)
    _ = W5 m ρ c (Proc.devRef .tc main_v11) := W6_of_ne m ρ c main_v11 (by decide)
    _ = W4 m ρ c (Proc.devRef .tc main_v11) := HostSteps.keep2 (W4 m ρ c) main_v11 (by decide)
    _ = W3 m ρ c (Proc.devRef .tc main_v11) := (W4_arr m ρ c 1).trans (((dat1 (V3 m ρ) c).arrAt_in 1 rfl _).trans (A_eq1 (V3 m ρ) c 1))
    _ = W2 m ρ c (Proc.devRef .tc main_v11) := HostSteps.keep1 (W2 m ρ c) main_v11 (by decide)

theorem V5_v24 : V5 m ρ c main_v24 = W4 m ρ c (Proc.devRef .tc main_v24) :=
  calc W5 m ρ c (Proc.devRef .tc main_v24)
    _ = W4 m ρ c (Proc.devRef .tc main_v24) := HostSteps.keep2 (W4 m ρ c) main_v24 (by decide)

theorem V7_v37 : V7 m ρ c main_v37 = W6 m ρ c (Proc.devRef .tc main_v37) :=
  calc W7 m ρ c (Proc.devRef .tc main_v37)
    _ = W6 m ρ c (Proc.devRef .tc main_v37) := HostSteps.keep3 (W6 m ρ c) main_v37 (by decide)

theorem V11_v37 : V11 m ρ c main_v37 = W6 m ρ c (Proc.devRef .tc main_v37) :=
  calc W11 m ρ c (Proc.devRef .tc main_v37)
    _ = W10 m ρ c (Proc.devRef .tc main_v37) := HostSteps.keep5 (W10 m ρ c) main_v37 (by decide)
    _ = W9 m ρ c (Proc.devRef .tc main_v37) := W10_of_ne m ρ c main_v37 (by decide)
    _ = W8 m ρ c (Proc.devRef .tc main_v37) := HostSteps.keep4 (W8 m ρ c) main_v37 (by decide)
    _ = W7 m ρ c (Proc.devRef .tc main_v37) := (W8_arr m ρ c 1).trans (((dat3 (V7 m ρ) c).arrAt_in 1 rfl _).trans (A_eq3 (V7 m ρ) c 1))
    _ = W6 m ρ c (Proc.devRef .tc main_v37) := HostSteps.keep3 (W6 m ρ c) main_v37 (by decide)

theorem V9_v50 : V9 m ρ c main_v50 = W8 m ρ c (Proc.devRef .tc main_v50) :=
  calc W9 m ρ c (Proc.devRef .tc main_v50)
    _ = W8 m ρ c (Proc.devRef .tc main_v50) := HostSteps.keep4 (W8 m ρ c) main_v50 (by decide)

theorem V11_v63 : V11 m ρ c main_v63 = W10 m ρ c (Proc.devRef .tc main_v63) :=
  calc W11 m ρ c (Proc.devRef .tc main_v63)
    _ = W10 m ρ c (Proc.devRef .tc main_v63) := HostSteps.keep5 (W10 m ρ c) main_v63 (by decide)

end Cert.KernelIdeal.Chain

end
-- ==== Proof.LibNodeStages.lean ====
/-
  The stages of a network that treats the rows of its arrays (the nodes of a graph) independently, as functions of whole
  arrays on the extended reals, generic in all extents:

    dense stage        denseRelu X W b (r,q) = max (Σ_k X(r,k)·W(q,k) + b(q)) 0          (relu (X·Wᵀ + b))
    encoder            feat obs w1 b1 w2 b2 = denseRelu (denseRelu obs w1 b1) w2 b2
    graph layer        layerOut mean x wl bl wr (r,q)
                         = max ((Σ_k mean(r,k)·wl(q,k) + bl(q)) + Σ_k x(r,k)·wr(q,k)) 0
    head, three parts  qOut3 f r1 r2 q0 q1 q2 qb (r,q)
                         = ((Σ_k f(r,k)·q0(q,k) + Σ_k r1(r,k)·q1(q,k)) + Σ_k r2(r,k)·q2(q,k)) + qb(q)
    head, one product  qOut f r1 r2 qw qb (r,q) = Σ_{k<3K} [f | r1 | r2](r,k)·qw(q,k) + qb(q)

  The weights enter transposed (W(q,k)), as the programs hold them. The last two agree when q0, q1, q2 are the
  three consecutive blocks of K columns of qw: a sum over 3K positions is the sum of the sums over its three thirds,
  which needs only that addition on the extended reals is associative and commutative (`qOut3_eq_qOut`).
-/
import Idealize.ShloMosaic.Lib.ValueIdx
import Idealize.ShloMosaic.PureOps.Ideal

noncomputable section

open scoped BigOperators

namespace Cert.Spec

open Idealize.ShloMosaic Idealize.ShloMosaic.ValueIdx

/-- A matrix of extended reals with a rows and b columns. -/
abbrev Mat (a b : Nat) : Type := (⟨2, ![a, b]⟩ : Shape).Idx → EReal
/-- A vector of extended reals of length a. -/
abbrev Vc (a : Nat) : Type := (⟨1, ![a]⟩ : Shape).Idx → EReal

variable {M K H N : Nat}

/-- relu (X·Wᵀ + b), entry by entry. -/
def denseRelu (X : Mat M K) (W : Mat N K) (b : Vc N) : Mat M N := fun i =>
  max ((∑ k : Fin K, X (ix2 (i 0) k) * W (ix2 (i 1) k)) + b (ix1 (i 1))) 0

theorem denseRelu_apply (X : Mat M K) (W : Mat N K) (b : Vc N) (r : Fin M) (q : Fin N) :
    denseRelu X W b (ix2 r q) = max ((∑ k : Fin K, X (ix2 r k) * W (ix2 q k)) + b (ix1 q)) 0 := rfl

/-- The two-stage encoder. -/
def feat (obs : Mat M K) (w1 : Mat H K) (b1 : Vc H) (w2 : Mat N H) (b2 : Vc N) : Mat M N :=
  denseRelu (denseRelu obs w1 b1) w2 b2

/-- One graph layer from the neighbour means and the node's own features. -/
def layerOut (mean x : Mat M K) (wl : Mat N K) (bl : Vc N) (wr : Mat N K) : Mat M N := fun i =>
  max (((∑ k : Fin K, mean (ix2 (i 0) k) * wl (ix2 (i 1) k)) + bl (ix1 (i 1)))
    + ∑ k : Fin K, x (ix2 (i 0) k) * wr (ix2 (i 1) k)) 0

theorem layerOut_apply (mean x : Mat M K) (wl : Mat N K) (bl : Vc N) (wr : Mat N K) (r : Fin M) (q : Fin N) :
    layerOut mean x wl bl wr (ix2 r q)
      = max (((∑ k : Fin K, mean (ix2 r k) * wl (ix2 q k)) + bl (ix1 q)) + ∑ k : Fin K, x (ix2 r k) * wr (ix2 q k)) 0 := rfl

/-- The head as the sum of three products, one per part of the concatenated features. -/
def qOut3 (f r1 r2 : Mat M K) (q0 q1 q2 : Mat N K) (qb : Vc N) : Mat M N := fun i =>
  (((∑ k : Fin K, f (ix2 (i 0) k) * q0 (ix2 (i 1) k)) + ∑ k : Fin K, r1 (ix2 (i 0) k) * q1 (ix2 (i 1) k))
    + ∑ k : Fin K, r2 (ix2 (i 0) k) * q2 (ix2 (i 1) k)) + qb (ix1 (i 1))

theorem qOut3_apply (f r1 r2 : Mat M K) (q0 q1 q2 : Mat N K) (qb : Vc N) (r : Fin M) (q : Fin N) :
    qOut3 f r1 r2 q0 q1 q2 qb (ix2 r q)
      = (((∑ k : Fin K, f (ix2 r k) * q0 (ix2 q k)) + ∑ k : Fin K, r1 (ix2 r k) * q1 (ix2 q k))
          + ∑ k : Fin K, r2 (ix2 r k) * q2 (ix2 q k)) + qb (ix1 q) := rfl

end Cert.Spec

end
-- ==== Proof.Net.lean ====
/-
  The whole network as one function of its twenty arguments: the encoder, four graph layers whose neighbour means are
  all taken over the same edge list, and the head on the encoder's, the second layer's and the fourth layer's outputs,
  its weight matrix cut into its three blocks of 128 columns.
-/
import proofs.«176323_j18245021074049_1_alg».proof.Proof.RefSpell
import proofs.«176323_j18245021074049_1_alg».proof.Proof.HostSteps
import proofs.«176323_j18245021074049_1_alg».proof.Proof.LibNodeStages

noncomputable section

namespace Cert.Net

open Idealize.ShloMosaic Cert.ReferenceIdeal
open Cert.KernelIdeal.HostSteps (qwBlock0 qwBlock1 qwBlock2)

/-- The encoder's output. -/
abbrev ft (a0 : FVec Ideal S100000x5 .f32) (a2 : FVec Ideal S512x5 .f32) (a3 : FVec Ideal S512 .f32)
    (a4 : FVec Ideal S128x512 .f32) (a5 : FVec Ideal S128 .f32) : FVec Ideal S100000x128 .f32 :=
  Spec.feat (M := 100000) (K := 5) (H := 512) (N := 128) a0 a2 a3 a4 a5

/-- The neighbour means of `x` over the edge list `a1`. -/
abbrev mn (a1 : Vec Ideal S2x600000 .i32) (x : FVec Ideal S100000x128 .f32) : FVec Ideal S100000x128 .f32 :=
  Spell.mean x (Spell.srcV a1) (Spell.dstV a1) (Spell.degCol (Spell.dstV a1))

/-- One graph layer over the edge list `a1`. -/
abbrev lay (a1 : Vec Ideal S2x600000 .i32) (x : FVec Ideal S100000x128 .f32) (wl : FVec Ideal S128x128 .f32)
    (bl : FVec Ideal S128 .f32) (wr : FVec Ideal S128x128 .f32) : FVec Ideal S100000x128 .f32 :=
  Spec.layerOut (M := 100000) (K := 128) (N := 128) (mn a1 x) x wl bl wr

/-- The network's output. -/
def out (a0 : FVec Ideal S100000x5 .f32) (a1 : Vec Ideal S2x600000 .i32) (a2 : FVec Ideal S512x5 .f32) (a3 : FVec Ideal S512 .f32)
    (a4 : FVec Ideal S128x512 .f32) (a5 : FVec Ideal S128 .f32)
    (a6 : FVec Ideal S128x128 .f32) (a7 : FVec Ideal S128 .f32) (a8 : FVec Ideal S128x128 .f32)
    (a9 : FVec Ideal S128x128 .f32) (a10 : FVec Ideal S128 .f32) (a11 : FVec Ideal S128x128 .f32)
    (a12 : FVec Ideal S128x128 .f32) (a13 : FVec Ideal S128 .f32) (a14 : FVec Ideal S128x128 .f32)
    (a15 : FVec Ideal S128x128 .f32) (a16 : FVec Ideal S128 .f32) (a17 : FVec Ideal S128x128 .f32)
    (a18 : FVec Ideal S9x384 .f32) (a19 : FVec Ideal S9 .f32) : FVec Ideal S100000x9 .f32 :=
  Spec.qOut3 (M := 100000) (K := 128) (N := 9) (ft a0 a2 a3 a4 a5)
    (lay a1 (lay a1 (ft a0 a2 a3 a4 a5) a6 a7 a8) a9 a10 a11)
    (lay a1 (lay a1 (lay a1 (lay a1 (ft a0 a2 a3 a4 a5) a6 a7 a8) a9 a10 a11) a12 a13 a14) a15 a16 a17)
    (qwBlock0 a18) (qwBlock1 a18) (qwBlock2 a18) a19

end Cert.Net

end
-- ==== Proof.Region0.lean ====
/-
  The encoder region: its output array after all 50 grid points is the two-stage encoder of its input arrays.

  Each grid point t takes rows 2000·t … 2000·t + 1999 of the observations and the whole of the two weight matrices and
  the two bias vectors, and leaves the block

      max (max (x·w1ᵀ + b1) 0 · w2ᵀ + b2) 0

  in rows 2000·t … 2000·t + 1999 of the output. Row r of either stage depends on row r of its left factor alone, so
  that block is those rows of `Spec.feat` of the whole arrays; the 50 blocks cover the array (row r is in block
  r / 2000), hence the array is `Spec.feat` of the inputs. At the extended reals a narrowing of the float format is the
  identity and a product accumulated into the zero block is the plain sum Σ_k A(a,k)·B(k,b); the weights are
  transposed before the product, which is why the sums read W(q,k).
-/
import proofs.«176323_j18245021074049_1_alg».proof.Proof.Gen.KernelIdeal.Frame
import proofs.«176323_j18245021074049_1_alg».proof.Proof.LibNodeStages
import Idealize.ShloMosaic.Lib.ValueIdx
import Idealize.ShloMosaic.Lib.ValueLayout
import Idealize.ShloMosaic.Lib.Pipeline.Value
import Idealize.ShloMosaic.Lib.StackMember
import Idealize.ShloMosaic.Lib.KernelVsHost
import Idealize.ShloMosaic.PureOps.Ideal.Laws

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

/-! ## One dense stage on a block -/

/-- A product into the zero block, plus a bias vector made a row and repeated down the rows, then the maximum with
    zero: entry (r, q) is max (Σ_k u(r,k)·wt(k,q) + b(q)) 0. -/
theorem stage_apply {m K N : Nat} {ψ₁ ψ₂ : FTy} (u : FVec Ideal ⟨2, ![m, K]⟩ ψ₁) (wt : FVec Ideal ⟨2, ![K, N]⟩ ψ₂)
    (b : FVec Ideal ⟨1, ![N]⟩ .f32)
    (hc : (⟨1, ![N]⟩ : Shape).ShapeCasts ⟨2, ![1, N]⟩) (hbc : (⟨2, ![1, N]⟩ : Shape).Broadcasts ⟨2, ![m, N]⟩)
    (r : Fin m) (q : Fin N) :
    maximumf (addf (matmul (DotDims.plain m K N) none u wt (constant (F := Ideal) ⟨2, ![m, N]⟩ .f32 0x00000000#32))
        (broadcastTo ⟨2, ![m, N]⟩ (shapeCast ⟨2, ![1, N]⟩ b hc) hbc))
      (broadcast ⟨2, ![m, N]⟩ (Scalar.ofBits (F := Ideal) .f32 0x00000000#32)) (ix2 r q)
      = max ((∑ k : Fin K, u (ix2 r k) * wt (ix2 k q)) + b (ix1 q)) 0 := by
  rw [maximumf_apply, addf_apply, broadcast_apply, broadcastTo_1b_ab_apply, shapeCast_a_1a_apply,
    matmul_zero_eq_dotGeneral, StackMember.dotGeneral_plain_apply]
  show max _ (Ideal.ofBits .f32 0x00000000#32) = _
  rw [Ideal.ofBits_zero_f32]

/-! ## The body's arithmetic at an entry -/

/-- Entry (p, q) of the body's result, from the loaded blocks: the inner stage's entries (p, k) times the second
    weight's entries (q, k), summed over k, plus the second bias at q, cut at zero. -/
theorem pay_apply (x0 : Vec Ideal S2000x5 .f32) (x1 : Vec Ideal S512x5 .f32) (x2 : Vec Ideal S512 .f32)
    (x3 : Vec Ideal S128x512 .f32) (x4 : Vec Ideal S128 .f32) (p : Fin 2000) (q : Fin 128) :
    k0_pay1 x0 x1 x2 x3 x4 (ix2 p q)
      = max ((∑ k : Fin 512, max ((∑ c : Fin 5, x0 (ix2 p c) * x1 (ix2 k c)) + x2 (ix1 k)) 0 * x3 (ix2 q k))
          + x4 (ix1 q)) 0 := by
  unfold k0_pay1
  rw [show dot_S2000x512_S512x128_S2000x128_1_0_0_1_n_n = DotDims.plain 2000 512 128 from rfl,
    show dot_S2000x5_S5x512_S2000x512_1_0_0_1_n_n = DotDims.plain 2000 5 512 from rfl]
  refine (stage_apply (m := 2000) (K := 512) (N := 128) _ _ x4 shapeCasts_S128_S1x128 broadcasts_S1x128_S2000x128 p q).trans ?_
  refine congrArg (fun s => max (s + x4 (ix1 q)) 0) (Finset.sum_congr rfl fun k _ => ?_)
  rw [truncf_apply, transpose_ix2_apply, truncf_apply]
  refine congrArg (fun s => s * x3 (ix2 q k)) ?_
  refine (stage_apply (m := 2000) (K := 5) (N := 512) _ _ x2 shapeCasts_S512_S1x512 broadcasts_S1x512_S2000x512 p k).trans ?_
  refine congrArg (fun s => max (s + x2 (ix1 k)) 0) (Finset.sum_congr rfl fun c _ => ?_)
  rw [truncf_apply, transpose_ix2_apply, truncf_apply]

/-- The body's arithmetic on a block whose rows are rows `row p` of the observations is those rows of the encoder. -/
theorem block_eq (x0 : Vec Ideal S2000x5 .f32) (x1 : Vec Ideal S512x5 .f32) (x2 : Vec Ideal S512 .f32)
    (x3 : Vec Ideal S128x512 .f32) (x4 : Vec Ideal S128 .f32)
    (X : Spec.Mat 100000 5) (row : Fin 2000 → Fin 100000) (hx : ∀ p c, x0 (ix2 p c) = X (ix2 (row p) c))
    (j : S2000x128.Idx) (i : S100000x128.Idx) (h0 : (i 0).val = (row (j 0)).val) (h1 : (i 1).val = (j 1).val) :
    k0_pay1 x0 x1 x2 x3 x4 j = Spec.feat (M := 100000) (K := 5) (H := 512) (N := 128) X x1 x2 x3 x4 i := by
  obtain ⟨p, q, rfl⟩ : ∃ (p : Fin 2000) (q : Fin 128), j = ix2 p q := ⟨j 0, j 1, eq_ix2 j⟩
  obtain rfl : i = ix2 (row p) q := by
    rw [eq_ix2 i]; exact congrArg₂ ix2 (Fin.ext h0) (Fin.ext h1)
  rw [pay_apply]
  unfold Spec.feat
  rw [Spec.denseRelu_apply]
  simp only [Spec.denseRelu_apply, hx]

/-! ## The windows' blocks as parts of the arrays -/

section Blocks

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the observations' and the output's block index is the point, the weights' is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The observations' block at point `t` is rows 2000·t … of the observations. -/
theorem iblk0_0_apply (c : Dev nD) (t : Fin cfg0.N) (x : S2000x5.Idx) (k : S100000x5.Idx)
    (hk0 : (k 0).val = 2000 * t.val + (x 0).val) (hk1 : (k 1).val = (x 1).val) :
    (iblk0 V c 0 t : Vec Ideal S2000x5 .f32) x = (V c main_arg0 : S100000x5.Idx → Elt Ideal .f32) k := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 2000 + 1 * (x 0).val = (k 0).val; rw [e0, hk0]; omega
  | ⟨1, _⟩ => show win0_0.index t 1 * 5 + 1 * (x 1).val = (k 1).val; rw [e1, hk1]; omega

/-- The grid has 50 points. -/
theorem N_eq : cfg0.N = 50 := by decide +kernel

/-- The first weight's block at any point is the whole weight. -/
theorem iblk0_1_eq (c : Dev nD) (t : Fin cfg0.N) :
    (iblk0 V c 1 t : Vec Ideal S512x5 .f32) = (V c main_arg2 : S512x5.Idx → Elt Ideal .f32) := by
  obtain ⟨-, -, e0, e1, -⟩ := idx_facts t
  funext y
  unfold iblk0
  rw [View.read_apply]
  show V c main_arg2 _ = V c main_arg2 y
  congr 1
  funext a
  apply Fin.ext
  match a with
  | ⟨0, _⟩ => show win0_1.index t 0 * 512 + 1 * (y 0).val = (y 0).val; rw [e0]; omega
  | ⟨1, _⟩ => show win0_1.index t 1 * 5 + 1 * (y 1).val = (y 1).val; rw [e1]; omega

/-- The first bias's block at any point is the whole bias. -/
theorem iblk0_2_eq (c : Dev nD) (t : Fin cfg0.N) :
    (iblk0 V c 2 t : Vec Ideal S512 .f32) = (V c main_arg3 : S512.Idx → Elt Ideal .f32) := by
  obtain ⟨-, -, -, -, e0, -⟩ := idx_facts t
  funext y
  unfold iblk0
  rw [View.read_apply]
  show V c main_arg3 _ = V c main_arg3 y
  congr 1
  funext a
  apply Fin.ext
  match a with
  | ⟨0, _⟩ => show win0_2.index t 0 * 512 + 1 * (y 0).val = (y 0).val; rw [e0]; omega

/-- The second weight's block at any point is the whole weight. -/
theorem iblk0_3_eq (c : Dev nD) (t : Fin cfg0.N) :
    (iblk0 V c 3 t : Vec Ideal S128x512 .f32) = (V c main_arg4 : S128x512.Idx → Elt Ideal .f32) := by
  obtain ⟨-, -, -, -, -, e0, e1, -⟩ := idx_facts t
  funext y
  unfold iblk0
  rw [View.read_apply]
  show V c main_arg4 _ = V c main_arg4 y
  congr 1
  funext a
  apply Fin.ext
  match a with
  | ⟨0, _⟩ => show win0_3.index t 0 * 128 + 1 * (y 0).val = (y 0).val; rw [e0]; omega
  | ⟨1, _⟩ => show win0_3.index t 1 * 512 + 1 * (y 1).val = (y 1).val; rw [e1]; omega

/-- The second bias's block at any point is the whole bias. -/
theorem iblk0_4_eq (c : Dev nD) (t : Fin cfg0.N) :
    (iblk0 V c 4 t : Vec Ideal S128 .f32) = (V c main_arg5 : S128.Idx → Elt Ideal .f32) := by
  obtain ⟨-, -, -, -, -, -, -, e0, -⟩ := idx_facts t
  funext y
  unfold iblk0
  rw [View.read_apply]
  show V c main_arg5 _ = V c main_arg5 y
  congr 1
  funext a
  apply Fin.ext
  match a with
  | ⟨0, _⟩ => show win0_4.index t 0 * 128 + 1 * (y 0).val = (y 0).val; rw [e0]; omega

/-! ## From blocks to the array -/

/-- The encoder of the arrays as the region finds them. -/
abbrev G (c : Dev nD) : S100000x128.Idx → Elt Ideal .f32 :=
  Spec.feat (M := 100000) (K := 5) (H := 512) (N := 128) (V c main_arg0) (V c main_arg2) (V c main_arg3)
    (V c main_arg4) (V c main_arg5)

/-- What point `t` writes back is block `t` of the encoder's result. -/
theorem flushed_eq (c : Dev nD) (t : Fin cfg0.N) :
    (dat0 (F := Ideal) V c).flushed 5 t = ((cfg0.win 5).blk t).view.read (Elt Ideal) (G V c) := by
  show (cfg0.win 5).cut (grid0.coords t) ((dat0 V c).after 5 t) = _
  rw [after0_5]
  unfold out0_5
  rw [View.canon_unit_zero hz2]
  simp only [View.ld_unit_zero (S := S2000x5) hz2, View.ld_unit_zero (S := S512x5) hz2,
    View.ld_unit_zero (S := S512) hz1, View.ld_unit_zero (S := S128x512) hz2, View.ld_unit_zero (S := S128) hz1]
  rw [iblk0_1_eq V c t, iblk0_2_eq V c t, iblk0_3_eq V c t, iblk0_4_eq V c t]
  obtain ⟨-, -, -, -, -, -, -, -, e0, e1⟩ := idx_facts t
  have ht : t.val < 50 := lt_of_lt_of_eq t.isLt N_eq
  funext j
  refine block_eq (iblk0 V c 0 t) (V c main_arg2) (V c main_arg3) (V c main_arg4) (V c main_arg5) (V c main_arg0)
    (fun p => ⟨2000 * t.val + p.val, by have := p.isLt; omega⟩)
    (fun p k => iblk0_0_apply V c t (ix2 p k) (ix2 ⟨2000 * t.val + p.val, by have := p.isLt; omega⟩ k) rfl rfl)
    j (((cfg0.win 5).blk t).view.emb j) ?_ ?_
  · show win0_5.index t 0 * 2000 + 1 * (j 0).val = 2000 * t.val + (j 0).val
    rw [e0]; omega
  · show win0_5.index t 1 * 128 + 1 * (j 1).val = (j 1).val
    rw [e1]; omega

/-- An index of the array is in point `t`'s block iff each coordinate is in the block's range on its axis. -/
theorem mem_blk (t : Fin cfg0.N) (i : S100000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v11).slice (win0_5.rect t)).set ↔ _
  rw [View.set_slice_whole, Rect.mem_set_unit]
  exact Iff.rfl

/-- Every index of the array is in some point's block: row r is in block r / 2000. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, by rw [N_eq]; omega⟩, rfl⟩
  obtain ⟨-, -, -, -, -, -, -, -, e0, e1⟩ := idx_facts t
  refine ⟨t, flush0_5 t, ?_⟩
  rw [mem_blk]
  intro a
  match a with
  | ⟨0, _⟩ =>
    show win0_5.index t 0 * 2000 ≤ (i 0).val ∧ (i 0).val < win0_5.index t 0 * 2000 + 2000
    rw [e0, ht]; omega
  | ⟨1, _⟩ =>
    show win0_5.index t 1 * 128 ≤ (i 1).val ∧ (i 1).val < win0_5.index t 1 * 128 + 128
    rw [e1]; omega

end Blocks

/-- The region's output array after all 50 points is the encoder of the region's input arrays. -/
theorem arr_eq (V : (c : Dev nD) → (b : Ref sig .tc) → Buf (Elt Ideal) ((c : Thread nD τ).loc b)) (c : Dev nD) :
    (dat0 (F := Ideal) V c).arrAt 5 cfg0.N
      = Spec.feat (M := 100000) (K := 5) (H := 512) (N := 128) (V c main_arg0) (V c main_arg2) (V c main_arg3) (V c main_arg4) (V c main_arg5) :=
  (dat0 (F := Ideal) V c).arrAt_eq_of_cover 5 (G V c) (fun t _ => flushed_eq V c t) cover

end Cert.KernelIdeal.Region0

end
-- ==== Proof.Region1.lean ====
/-
  The first graph layer's region: its output array as one function of its input arrays.

  The region runs over the 100000 nodes in 50 blocks of 2000 rows. At block t the body reads rows 2000·t … 2000·t + 1999
  of the neighbour means and of the nodes' own features, and the whole of the two weight matrices and of the bias, and
  writes rows 2000·t … 2000·t + 1999 of the output. Entry (p, q) of what it writes is

      max ((Σ_k mean(2000·t + p, k)·wl(q, k) + bl(q)) + Σ_k x(2000·t + p, k)·wr(q, k)) 0,

  the weights being transposed before each product; this is entry (2000·t + p, q) of the layer as a function of whole
  arrays. Row r lies in block r / 2000, so the blocks cover the output array, which therefore ends holding the layer
  of the input arrays.
-/
import proofs.«176323_j18245021074049_1_alg».proof.Proof.Gen.KernelIdeal.Frame
import proofs.«176323_j18245021074049_1_alg».proof.Proof.LibNodeStages
import Idealize.ShloMosaic.Lib.ValueIdx
import Idealize.ShloMosaic.Lib.ValueLayout
import Idealize.ShloMosaic.Lib.Pipeline.Value
import Idealize.ShloMosaic.Lib.StackMember
import Idealize.ShloMosaic.Lib.KernelVsHost
import Idealize.ShloMosaic.PureOps.Ideal.Laws

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl
theorem hz1 : (![0] : Fin 1 → Nat) = fun _ => 0 := funext fun a => by fin_cases a; rfl

theorem dot_plain : dot_S2000x128_S128x128_S2000x128_1_0_0_1_n_n = DotDims.plain 2000 128 128 := rfl

/-- One product of the body at an entry: the block times the transposed weights. -/
theorem prod_at (x : Vec Ideal S2000x128 .f32) (w : Vec Ideal S128x128 .f32) (p : Fin 2000) (q : Fin 128) :
    matmul dot_S2000x128_S128x128_S2000x128_1_0_0_1_n_n none
        (truncf .bf16 (shapeCast S2000x128 x shapeCasts_S2000x128_S2000x128) bitsLt_bf16_f32)
        (transpose S128x128 [1, 0] (truncf .bf16 w bitsLt_bf16_f32) transposes_S128x128_p1_0_S128x128)
        (constant (F := Ideal) S2000x128 .f32 0x00000000#32) (ix2 p q)
      = ∑ k : Fin 128, x (ix2 p k) * w (ix2 q k) := by
  rw [matmul_zero_eq_dotGeneral, dot_plain, StackMember.dotGeneral_plain_apply]
  refine Finset.sum_congr rfl fun k _ => ?_
  rw [truncf_apply, shapeCast_self, transpose_ix2_apply, truncf_apply]

/-- The body's result at an entry of the block. -/
theorem pay_at (x0 x1 : Vec Ideal S2000x128 .f32) (x2 : Vec Ideal S128x128 .f32) (x3 : Vec Ideal S128 .f32)
    (x4 : Vec Ideal S128x128 .f32) (p : Fin 2000) (q : Fin 128) :
    k1_pay1 (F := Ideal) x0 x1 x2 x3 x4 (ix2 p q)
      = max (((∑ k : Fin 128, x0 (ix2 p k) * x2 (ix2 q k)) + x3 (ix1 q)) + ∑ k : Fin 128, x1 (ix2 p k) * x4 (ix2 q k)) 0 := by
  unfold k1_pay1
  rw [maximumf_apply, addf_apply, addf_apply, broadcast_apply, broadcastTo_1b_ab_apply, shapeCast_a_1a_apply, prod_at, prod_at]
  rw [show (Scalar.ofBits (F := Ideal) .f32 0x00000000#32 : Ideal .f32) = 0 from Ideal.ofBits_zero_f32]

/-- The body's result on a block of rows is that block of rows of the layer. -/
theorem pay_block (x0 x1 : Vec Ideal S2000x128 .f32) (x2 : Vec Ideal S128x128 .f32) (x3 : Vec Ideal S128 .f32)
    (x4 : Vec Ideal S128x128 .f32) (mean x : Spec.Mat 100000 128) (wl : Spec.Mat 128 128) (bl : Spec.Vc 128) (wr : Spec.Mat 128 128)
    (row : Fin 2000 → Fin 100000)
    (h0 : ∀ p k, x0 (ix2 p k) = mean (ix2 (row p) k)) (h1 : ∀ p k, x1 (ix2 p k) = x (ix2 (row p) k))
    (h2 : ∀ q k, x2 (ix2 q k) = wl (ix2 q k)) (h3 : ∀ q, x3 (ix1 q) = bl (ix1 q)) (h4 : ∀ q k, x4 (ix2 q k) = wr (ix2 q k))
    (j : S2000x128.Idx) (i : S100000x128.Idx) (hi0 : (i 0).val = (row (j 0)).val) (hi1 : (i 1).val = (j 1).val) :
    k1_pay1 (F := Ideal) x0 x1 x2 x3 x4 j = Spec.layerOut mean x wl bl wr i := by
  obtain ⟨p, q, rfl⟩ : ∃ (p : Fin 2000) (q : Fin 128), j = ix2 p q := ⟨j 0, j 1, eq_ix2 j⟩
  obtain rfl : i = ix2 (row p) q := by
    rw [eq_ix2 i]; exact congrArg₂ ix2 (Fin.ext hi0) (Fin.ext hi1)
  rw [pay_at, Spec.layerOut_apply]
  simp only [h0, h1, h2, h3, h4]

/-- The printed index maps, decided over the grid: the three row-tiled windows are at block (t, 0), the weights at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The row of the array that row p of block t is. -/
def row (t : Fin cfg1.N) (p : Fin 2000) : Fin 100000 :=
  ⟨t.val * 2000 + p.val, by have hN : cfg1.N = 50 := N_1; have := t.isLt; have := p.isLt; omega⟩

variable (V : (c : Dev nD) → (b : Ref sig .tc) → Buf (Elt Ideal) ((c : Thread nD τ).loc b))

theorem blk0 (c : Dev nD) (t : Fin cfg1.N) (p : Fin 2000) (k : Fin 128) :
    (iblk1 (F := Ideal) V c 0 t : Vec Ideal S2000x128 .f32) (ix2 p k) = (V c main_v23 : S100000x128.Idx → Ideal .f32) (ix2 (row t p) k) := by
  obtain ⟨e00, e01, -⟩ := idx_facts t
  unfold iblk1
  rw [View.read_apply]
  show V c main_v23 _ = V c main_v23 _
  congr 1
  funext a
  apply Fin.ext
  match a with
  | ⟨0, _⟩ => show win1_0.index t (0 : Fin 2) * 2000 + 1 * p.val = t.val * 2000 + p.val; rw [e00]; omega
  | ⟨1, _⟩ => show win1_0.index t (1 : Fin 2) * 128 + 1 * k.val = k.val; rw [e01]; omega

theorem blk1 (c : Dev nD) (t : Fin cfg1.N) (p : Fin 2000) (k : Fin 128) :
    (iblk1 (F := Ideal) V c 1 t : Vec Ideal S2000x128 .f32) (ix2 p k) = (V c main_v11 : S100000x128.Idx → Ideal .f32) (ix2 (row t p) k) := by
  obtain ⟨-, -, e10, e11, -⟩ := idx_facts t
  unfold iblk1
  rw [View.read_apply]
  show V c main_v11 _ = V c main_v11 _
  congr 1
  funext a
  apply Fin.ext
  match a with
  | ⟨0, _⟩ => show win1_1.index t (0 : Fin 2) * 2000 + 1 * p.val = t.val * 2000 + p.val; rw [e10]; omega
  | ⟨1, _⟩ => show win1_1.index t (1 : Fin 2) * 128 + 1 * k.val = k.val; rw [e11]; omega

theorem blk2 (c : Dev nD) (t : Fin cfg1.N) (q : Fin 128) (k : Fin 128) :
    (iblk1 (F := Ideal) V c 2 t : Vec Ideal S128x128 .f32) (ix2 q k) = (V c main_arg6 : S128x128.Idx → Ideal .f32) (ix2 q k) := by
  obtain ⟨-, -, -, -, e20, e21, -⟩ := idx_facts t
  unfold iblk1
  rw [View.read_apply]
  show V c main_arg6 _ = V c main_arg6 _
  congr 1
  funext a
  apply Fin.ext
  match a with
  | ⟨0, _⟩ => show win1_2.index t (0 : Fin 2) * 128 + 1 * q.val = q.val; rw [e20]; omega
  | ⟨1, _⟩ => show win1_2.index t (1 : Fin 2) * 128 + 1 * k.val = k.val; rw [e21]; omega

theorem blk3 (c : Dev nD) (t : Fin cfg1.N) (q : Fin 128) :
    (iblk1 (F := Ideal) V c 3 t : Vec Ideal S128 .f32) (ix1 q) = (V c main_arg7 : S128.Idx → Ideal .f32) (ix1 q) := by
  obtain ⟨-, -, -, -, -, -, e30, -⟩ := idx_facts t
  unfold iblk1
  rw [View.read_apply]
  show V c main_arg7 _ = V c main_arg7 _
  congr 1
  funext a
  apply Fin.ext
  match a with
  | ⟨0, _⟩ => show win1_3.index t (0 : Fin 1) * 128 + 1 * q.val = q.val; rw [e30]; omega

theorem blk4 (c : Dev nD) (t : Fin cfg1.N) (q : Fin 128) (k : Fin 128) :
    (iblk1 (F := Ideal) V c 4 t : Vec Ideal S128x128 .f32) (ix2 q k) = (V c main_arg8 : S128x128.Idx → Ideal .f32) (ix2 q k) := by
  obtain ⟨-, -, -, -, -, -, -, e40, e41, -⟩ := idx_facts t
  unfold iblk1
  rw [View.read_apply]
  show V c main_arg8 _ = V c main_arg8 _
  congr 1
  funext a
  apply Fin.ext
  match a with
  | ⟨0, _⟩ => show win1_4.index t (0 : Fin 2) * 128 + 1 * q.val = q.val; rw [e40]; omega
  | ⟨1, _⟩ => show win1_4.index t (1 : Fin 2) * 128 + 1 * k.val = k.val; rw [e41]; omega

/-- What point t writes back is block t of the layer of the region's input arrays. -/
theorem flushed_eq (c : Dev nD) (t : Fin cfg1.N) :
    (dat1 (F := Ideal) V c).flushed 5 t = ((cfg1.win 5).blk t).view.read (Elt Ideal)
      (Spec.layerOut (M := 100000) (K := 128) (N := 128) (V c main_v23) (V c main_v11) (V c main_arg6) (V c main_arg7) (V c main_arg8)) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S128) hz1]
  obtain ⟨-, -, -, -, -, -, -, -, -, e50, e51⟩ := idx_facts t
  funext j
  rw [View.read_apply]
  refine pay_block (iblk1 V c 0 t) (iblk1 V c 1 t) (iblk1 V c 2 t) (iblk1 V c 3 t) (iblk1 V c 4 t)
    (V c main_v23) (V c main_v11) (V c main_arg6) (V c main_arg7) (V c main_arg8) (row t)
    (blk0 V c t) (blk1 V c t) (blk2 V c t) (blk3 V c t) (blk4 V c t) _ _ ?_ ?_
  · show win1_5.index t (0 : Fin 2) * 2000 + 1 * (j 0).val = t.val * 2000 + (j 0).val
    rw [e50]; omega
  · show win1_5.index t (1 : Fin 2) * 128 + 1 * (j 1).val = (j 1).val
    rw [e51]; omega

/-- An index of the array is in point t's block iff each coordinate is in the block's range on its axis. -/
theorem mem_blk (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v24).slice (win1_5.rect t)).set ↔ _
  rw [View.set_slice_whole, Rect.mem_set_unit]
  exact Iff.rfl

/-- Row r of the array is in block r / 2000: the blocks cover the array. -/
theorem cover (i : S100000x128.Idx) : ∃ t : Fin cfg1.N, (cfg1.win 5).flush t = true ∧ i ∈ ((cfg1.win 5).blk t).view.set := by
  have hN : cfg1.N = 50 := N_1
  have hi0 : (i 0).val < 100000 := (i 0).isLt
  have hi1 : (i 1).val < 128 := (i 1).isLt
  obtain ⟨t, ht⟩ : ∃ t : Fin cfg1.N, t.val = (i 0).val / 2000 := ⟨⟨(i 0).val / 2000, by omega⟩, rfl⟩
  obtain ⟨-, -, -, -, -, -, -, -, -, e50, e51⟩ := idx_facts t
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; rw [e50, ht]; omega
  | ⟨1, _⟩ => show win1_5.index t (1 : Fin 2) * 128 ≤ (i 1).val ∧ (i 1).val < win1_5.index t (1 : Fin 2) * 128 + 128; rw [e51]; omega

/-- The region's output array after all its points is the layer of its input arrays. -/
theorem arr_eq (V : (c : Dev nD) → (b : Ref sig .tc) → Buf (Elt Ideal) ((c : Thread nD τ).loc b)) (c : Dev nD) :
    (dat1 (F := Ideal) V c).arrAt 5 cfg1.N
      = Spec.layerOut (M := 100000) (K := 128) (N := 128) (V c main_v23) (V c main_v11) (V c main_arg6) (V c main_arg7) (V c main_arg8) :=
  (dat1 (F := Ideal) V c).arrAt_eq_of_cover 5
    (Spec.layerOut (M := 100000) (K := 128) (N := 128) (V c main_v23) (V c main_v11) (V c main_arg6) (V c main_arg7) (V c main_arg8))
    (fun t _ => flushed_eq V c t) cover

end Cert.KernelIdeal.Region1

end
-- ==== Proof.Region2.lean ====
/-
  The second graph layer's region: its output array as one function of its input arrays.

  The region runs over the 100000 nodes in 50 blocks of 2000 rows. At block t the body reads rows 2000·t … 2000·t + 1999
  of the neighbour means and of the nodes' own features, and the whole of the two weight matrices and of the bias, and
  writes rows 2000·t … 2000·t + 1999 of the output. Entry (p, q) of what it writes is

      max ((Σ_k mean(2000·t + p, k)·wl(q, k) + bl(q)) + Σ_k x(2000·t + p, k)·wr(q, k)) 0,

  the weights being transposed before each product; this is entry (2000·t + p, q) of the layer as a function of whole
  arrays. Row r lies in block r / 2000, so the blocks cover the output array, which therefore ends holding the layer
  of the input arrays.
-/
import proofs.«176323_j18245021074049_1_alg».proof.Proof.Gen.KernelIdeal.Frame
import proofs.«176323_j18245021074049_1_alg».proof.Proof.LibNodeStages
import Idealize.ShloMosaic.Lib.ValueIdx
import Idealize.ShloMosaic.Lib.ValueLayout
import Idealize.ShloMosaic.Lib.Pipeline.Value
import Idealize.ShloMosaic.Lib.StackMember
import Idealize.ShloMosaic.Lib.KernelVsHost
import Idealize.ShloMosaic.PureOps.Ideal.Laws

noncomputable section

open scoped BigOperators

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl
theorem hz1 : (![0] : Fin 1 → Nat) = fun _ => 0 := funext fun a => by fin_cases a; rfl

theorem dot_plain : dot_S2000x128_S128x128_S2000x128_1_0_0_1_n_n = DotDims.plain 2000 128 128 := rfl

/-- One product of the body at an entry: the block times the transposed weights. -/
theorem prod_at (x : Vec Ideal S2000x128 .f32) (w : Vec Ideal S128x128 .f32) (p : Fin 2000) (q : Fin 128) :
    matmul dot_S2000x128_S128x128_S2000x128_1_0_0_1_n_n none
        (truncf .bf16 (shapeCast S2000x128 x shapeCasts_S2000x128_S2000x128) bitsLt_bf16_f32)
        (transpose S128x128 [1, 0] (truncf .bf16 w bitsLt_bf16_f32) transposes_S128x128_p1_0_S128x128)
        (constant (F := Ideal) S2000x128 .f32 0x00000000#32) (ix2 p q)
      = ∑ k : Fin 128, x (ix2 p k) * w (ix2 q k) := by
  rw [matmul_zero_eq_dotGeneral, dot_plain, StackMember.dotGeneral_plain_apply]
  refine Finset.sum_congr rfl fun k _ => ?_
  rw [truncf_apply, shapeCast_self, transpose_ix2_apply, truncf_apply]

/-- The body's result at an entry of the block. -/
theorem pay_at (x0 x1 : Vec Ideal S2000x128 .f32) (x2 : Vec Ideal S128x128 .f32) (x3 : Vec Ideal S128 .f32)
    (x4 : Vec Ideal S128x128 .f32) (p : Fin 2000) (q : Fin 128) :
    k2_pay1 (F := Ideal) x0 x1 x2 x3 x4 (ix2 p q)
      = max (((∑ k : Fin 128, x0 (ix2 p k) * x2 (ix2 q k)) + x3 (ix1 q)) + ∑ k : Fin 128, x1 (ix2 p k) * x4 (ix2 q k)) 0 := by
  unfold k2_pay1
  rw [maximumf_apply, addf_apply, addf_apply, broadcast_apply, broadcastTo_1b_ab_apply, shapeCast_a_1a_apply, prod_at, prod_at]
  rw [show (Scalar.ofBits (F := Ideal) .f32 0x00000000#32 : Ideal .f32) = 0 from Ideal.ofBits_zero_f32]

/-- The body's result on a block of rows is that block of rows of the layer. -/
theorem pay_block (x0 x1 : Vec Ideal S2000x128 .f32) (x2 : Vec Ideal S128x128 .f32) (x3 : Vec Ideal S128 .f32)
    (x4 : Vec Ideal S128x128 .f32) (mean x : Spec.Mat 100000 128) (wl : Spec.Mat 128 128) (bl : Spec.Vc 128) (wr : Spec.Mat 128 128)
    (row : Fin 2000 → Fin 100000)
    (h0 : ∀ p k, x0 (ix2 p k) = mean (ix2 (row p) k)) (h1 : ∀ p k, x1 (ix2 p k) = x (ix2 (row p) k))
    (h2 : ∀ q k, x2 (ix2 q k) = wl (ix2 q k)) (h3 : ∀ q, x3 (ix1 q) = bl (ix1 q)) (h4 : ∀ q k, x4 (ix2 q k) = wr (ix2 q k))
    (j : S2000x128.Idx) (i : S100000x128.Idx) (hi0 : (i 0).val = (row (j 0)).val) (hi1 : (i 1).val = (j 1).val) :
    k2_pay1 (F := Ideal) x0 x1 x2 x3 x4 j = Spec.layerOut mean x wl bl wr i := by
  obtain ⟨p, q, rfl⟩ : ∃ (p : Fin 2000) (q : Fin 128), j = ix2 p q := ⟨j 0, j 1, eq_ix2 j⟩
  obtain rfl : i = ix2 (row p) q := by
    rw [eq_ix2 i]; exact congrArg₂ ix2 (Fin.ext hi0) (Fin.ext hi1)
  rw [pay_at, Spec.layerOut_apply]
  simp only [h0, h1, h2, h3, h4]

/-- The printed index maps, decided over the grid: the three row-tiled windows are at block (t, 0), the weights at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The row of the array that row p of block t is. -/
def row (t : Fin cfg2.N) (p : Fin 2000) : Fin 100000 :=
  ⟨t.val * 2000 + p.val, by have hN : cfg2.N = 50 := N_2; have := t.isLt; have := p.isLt; omega⟩

variable (V : (c : Dev nD) → (b : Ref sig .tc) → Buf (Elt Ideal) ((c : Thread nD τ).loc b))

theorem blk0 (c : Dev nD) (t : Fin cfg2.N) (p : Fin 2000) (k : Fin 128) :
    (iblk2 (F := Ideal) V c 0 t : Vec Ideal S2000x128 .f32) (ix2 p k) = (V c main_v36 : S100000x128.Idx → Ideal .f32) (ix2 (row t p) k) := by
  obtain ⟨e00, e01, -⟩ := idx_facts t
  unfold iblk2
  rw [View.read_apply]
  show V c main_v36 _ = V c main_v36 _
  congr 1
  funext a
  apply Fin.ext
  match a with
  | ⟨0, _⟩ => show win2_0.index t (0 : Fin 2) * 2000 + 1 * p.val = t.val * 2000 + p.val; rw [e00]; omega
  | ⟨1, _⟩ => show win2_0.index t (1 : Fin 2) * 128 + 1 * k.val = k.val; rw [e01]; omega

theorem blk1 (c : Dev nD) (t : Fin cfg2.N) (p : Fin 2000) (k : Fin 128) :
    (iblk2 (F := Ideal) V c 1 t : Vec Ideal S2000x128 .f32) (ix2 p k) = (V c main_v24 : S100000x128.Idx → Ideal .f32) (ix2 (row t p) k) := by
  obtain ⟨-, -, e10, e11, -⟩ := idx_facts t
  unfold iblk2
  rw [View.read_apply]
  show V c main_v24 _ = V c main_v24 _
  congr 1
  funext a
  apply Fin.ext
  match a with
  | ⟨0, _⟩ => show win2_1.index t (0 : Fin 2) * 2000 + 1 * p.val = t.val * 2000 + p.val; rw [e10]; omega
  | ⟨1, _⟩ => show win2_1.index t (1 : Fin 2) * 128 + 1 * k.val = k.val; rw [e11]; omega

theorem blk2 (c : Dev nD) (t : Fin cfg2.N) (q : Fin 128) (k : Fin 128) :
    (iblk2 (F := Ideal) V c 2 t : Vec Ideal S128x128 .f32) (ix2 q k) = (V c main_arg9 : S128x128.Idx → Ideal .f32) (ix2 q k) := by
  obtain ⟨-, -, -, -, e20, e21, -⟩ := idx_facts t
  unfold iblk2
  rw [View.read_apply]
  show V c main_arg9 _ = V c main_arg9 _
  congr 1
  funext a
  apply Fin.ext
  match a with
  | ⟨0, _⟩ => show win2_2.index t (0 : Fin 2) * 128 + 1 * q.val = q.val; rw [e20]; omega
  | ⟨1, _⟩ => show win2_2.index t (1 : Fin 2) * 128 + 1 * k.val = k.val; rw [e21]; omega

theorem blk3 (c : Dev nD) (t : Fin cfg2.N) (q : Fin 128) :
    (iblk2 (F := Ideal) V c 3 t : Vec Ideal S128 .f32) (ix1 q) = (V c main_arg10 : S128.Idx → Ideal .f32) (ix1 q) := by
  obtain ⟨-, -, -, -, -, -, e30, -⟩ := idx_facts t
  unfold iblk2
  rw [View.read_apply]
  show V c main_arg10 _ = V c main_arg10 _
  congr 1
  funext a
  apply Fin.ext
  match a with
  | ⟨0, _⟩ => show win2_3.index t (0 : Fin 1) * 128 + 1 * q.val = q.val; rw [e30]; omega

theorem blk4 (c : Dev nD) (t : Fin cfg2.N) (q : Fin 128) (k : Fin 128) :
    (iblk2 (F := Ideal) V c 4 t : Vec Ideal S128x128 .f32) (ix2 q k) = (V c main_arg11 : S128x128.Idx → Ideal .f32) (ix2 q k) := by
  obtain ⟨-, -, -, -, -, -, -, e40, e41, -⟩ := idx_facts t
  unfold iblk2
  rw [View.read_apply]
  show V c main_arg11 _ = V c main_arg11 _
  congr 1
  funext a
  apply Fin.ext
  match a with
  | ⟨0, _⟩ => show win2_4.index t (0 : Fin 2) * 128 + 1 * q.val = q.val; rw [e40]; omega
  | ⟨1, _⟩ => show win2_4.index t (1 : Fin 2) * 128 + 1 * k.val = k.val; rw [e41]; omega

/-- What point t writes back is block t of the layer of the region's input arrays. -/
theorem flushed_eq (c : Dev nD) (t : Fin cfg2.N) :
    (dat2 (F := Ideal) V c).flushed 5 t = ((cfg2.win 5).blk t).view.read (Elt Ideal)
      (Spec.layerOut (M := 100000) (K := 128) (N := 128) (V c main_v36) (V c main_v24) (V c main_arg9) (V c main_arg10) (V c main_arg11)) := by
  show (cfg2.win 5).cut (grid2.coords t) ((dat2 V c).after 5 t) = _
  rw [after2_5]
  unfold out2_5
  rw [View.canon_unit_zero hz]
  simp only [View.ld_unit_zero (S := S2000x128) hz, View.ld_unit_zero (S := S128x128) hz, View.ld_unit_zero (S := S128) hz1]
  obtain ⟨-, -, -, -, -, -, -, -, -, e50, e51⟩ := idx_facts t
  funext j
  rw [View.read_apply]
  refine pay_block (iblk2 V c 0 t) (iblk2 V c 1 t) (iblk2 V c 2 t) (iblk2 V c 3 t) (iblk2 V c 4 t)
    (V c main_v36) (V c main_v24) (V c main_arg9) (V c main_arg10) (V c main_arg11) (row t)
    (blk0 V c t) (blk1 V c t) (blk2 V c t) (blk3 V c t) (blk4 V c t) _ _ ?_ ?_
  · show win2_5.index t (0 : Fin 2) * 2000 + 1 * (j 0).val = t.val * 2000 + (j 0).val
    rw [e50]; omega
  · show win2_5.index t (1 : Fin 2) * 128 + 1 * (j 1).val = (j 1).val
    rw [e51]; omega

/-- An index of the array is in point t's block iff each coordinate is in the block's range on its axis. -/
theorem mem_blk (t : Fin cfg2.N) (i : S100000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v37).slice (win2_5.rect t)).set ↔ _
  rw [View.set_slice_whole, Rect.mem_set_unit]
  exact Iff.rfl

/-- Row r of the array is in block r / 2000: the blocks cover the array. -/
theorem cover (i : S100000x128.Idx) : ∃ t : Fin cfg2.N, (cfg2.win 5).flush t = true ∧ i ∈ ((cfg2.win 5).blk t).view.set := by
  have hN : cfg2.N = 50 := N_2
  have hi0 : (i 0).val < 100000 := (i 0).isLt
  have hi1 : (i 1).val < 128 := (i 1).isLt
  obtain ⟨t, ht⟩ : ∃ t : Fin cfg2.N, t.val = (i 0).val / 2000 := ⟨⟨(i 0).val / 2000, by omega⟩, rfl⟩
  obtain ⟨-, -, -, -, -, -, -, -, -, e50, e51⟩ := idx_facts t
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; rw [e50, ht]; omega
  | ⟨1, _⟩ => show win2_5.index t (1 : Fin 2) * 128 ≤ (i 1).val ∧ (i 1).val < win2_5.index t (1 : Fin 2) * 128 + 128; rw [e51]; omega

/-- The region's output array after all its points is the layer of its input arrays. -/
theorem arr_eq (V : (c : Dev nD) → (b : Ref sig .tc) → Buf (Elt Ideal) ((c : Thread nD τ).loc b)) (c : Dev nD) :
    (dat2 (F := Ideal) V c).arrAt 5 cfg2.N
      = Spec.layerOut (M := 100000) (K := 128) (N := 128) (V c main_v36) (V c main_v24) (V c main_arg9) (V c main_arg10) (V c main_arg11) :=
  (dat2 (F := Ideal) V c).arrAt_eq_of_cover 5
    (Spec.layerOut (M := 100000) (K := 128) (N := 128) (V c main_v36) (V c main_v24) (V c main_arg9) (V c main_arg10) (V c main_arg11))
    (fun t _ => flushed_eq V c t) cover

end Cert.KernelIdeal.Region2

end
-- ==== Proof.Region3.lean ====
/-
  The third graph layer's region: its output array as one function of its input arrays.

  The region runs over the 100000 nodes in 50 blocks of 2000 rows. At block t the body reads rows 2000·t … 2000·t + 1999
  of the neighbour means and of the nodes' own features, and the whole of the two weight matrices and of the bias, and
  writes rows 2000·t … 2000·t + 1999 of the output. Entry (p, q) of what it writes is

      max ((Σ_k mean(2000·t + p, k)·wl(q, k) + bl(q)) + Σ_k x(2000·t + p, k)·wr(q, k)) 0,

  the weights being transposed before each product; this is entry (2000·t + p, q) of the layer as a function of whole
  arrays. Row r lies in block r / 2000, so the blocks cover the output array, which therefore ends holding the layer
  of the input arrays.
-/
import proofs.«176323_j18245021074049_1_alg».proof.Proof.Gen.KernelIdeal.Frame
import proofs.«176323_j18245021074049_1_alg».proof.Proof.LibNodeStages
import Idealize.ShloMosaic.Lib.ValueIdx
import Idealize.ShloMosaic.Lib.ValueLayout
import Idealize.ShloMosaic.Lib.Pipeline.Value
import Idealize.ShloMosaic.Lib.StackMember
import Idealize.ShloMosaic.Lib.KernelVsHost
import Idealize.ShloMosaic.PureOps.Ideal.Laws

noncomputable section

open scoped BigOperators

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl
theorem hz1 : (![0] : Fin 1 → Nat) = fun _ => 0 := funext fun a => by fin_cases a; rfl

theorem dot_plain : dot_S2000x128_S128x128_S2000x128_1_0_0_1_n_n = DotDims.plain 2000 128 128 := rfl

/-- One product of the body at an entry: the block times the transposed weights. -/
theorem prod_at (x : Vec Ideal S2000x128 .f32) (w : Vec Ideal S128x128 .f32) (p : Fin 2000) (q : Fin 128) :
    matmul dot_S2000x128_S128x128_S2000x128_1_0_0_1_n_n none
        (truncf .bf16 (shapeCast S2000x128 x shapeCasts_S2000x128_S2000x128) bitsLt_bf16_f32)
        (transpose S128x128 [1, 0] (truncf .bf16 w bitsLt_bf16_f32) transposes_S128x128_p1_0_S128x128)
        (constant (F := Ideal) S2000x128 .f32 0x00000000#32) (ix2 p q)
      = ∑ k : Fin 128, x (ix2 p k) * w (ix2 q k) := by
  rw [matmul_zero_eq_dotGeneral, dot_plain, StackMember.dotGeneral_plain_apply]
  refine Finset.sum_congr rfl fun k _ => ?_
  rw [truncf_apply, shapeCast_self, transpose_ix2_apply, truncf_apply]

/-- The body's result at an entry of the block. -/
theorem pay_at (x0 x1 : Vec Ideal S2000x128 .f32) (x2 : Vec Ideal S128x128 .f32) (x3 : Vec Ideal S128 .f32)
    (x4 : Vec Ideal S128x128 .f32) (p : Fin 2000) (q : Fin 128) :
    k3_pay1 (F := Ideal) x0 x1 x2 x3 x4 (ix2 p q)
      = max (((∑ k : Fin 128, x0 (ix2 p k) * x2 (ix2 q k)) + x3 (ix1 q)) + ∑ k : Fin 128, x1 (ix2 p k) * x4 (ix2 q k)) 0 := by
  unfold k3_pay1
  rw [maximumf_apply, addf_apply, addf_apply, broadcast_apply, broadcastTo_1b_ab_apply, shapeCast_a_1a_apply, prod_at, prod_at]
  rw [show (Scalar.ofBits (F := Ideal) .f32 0x00000000#32 : Ideal .f32) = 0 from Ideal.ofBits_zero_f32]

/-- The body's result on a block of rows is that block of rows of the layer. -/
theorem pay_block (x0 x1 : Vec Ideal S2000x128 .f32) (x2 : Vec Ideal S128x128 .f32) (x3 : Vec Ideal S128 .f32)
    (x4 : Vec Ideal S128x128 .f32) (mean x : Spec.Mat 100000 128) (wl : Spec.Mat 128 128) (bl : Spec.Vc 128) (wr : Spec.Mat 128 128)
    (row : Fin 2000 → Fin 100000)
    (h0 : ∀ p k, x0 (ix2 p k) = mean (ix2 (row p) k)) (h1 : ∀ p k, x1 (ix2 p k) = x (ix2 (row p) k))
    (h2 : ∀ q k, x2 (ix2 q k) = wl (ix2 q k)) (h3 : ∀ q, x3 (ix1 q) = bl (ix1 q)) (h4 : ∀ q k, x4 (ix2 q k) = wr (ix2 q k))
    (j : S2000x128.Idx) (i : S100000x128.Idx) (hi0 : (i 0).val = (row (j 0)).val) (hi1 : (i 1).val = (j 1).val) :
    k3_pay1 (F := Ideal) x0 x1 x2 x3 x4 j = Spec.layerOut mean x wl bl wr i := by
  obtain ⟨p, q, rfl⟩ : ∃ (p : Fin 2000) (q : Fin 128), j = ix2 p q := ⟨j 0, j 1, eq_ix2 j⟩
  obtain rfl : i = ix2 (row p) q := by
    rw [eq_ix2 i]; exact congrArg₂ ix2 (Fin.ext hi0) (Fin.ext hi1)
  rw [pay_at, Spec.layerOut_apply]
  simp only [h0, h1, h2, h3, h4]

/-- The printed index maps, decided over the grid: the three row-tiled windows are at block (t, 0), the weights at block 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The row of the array that row p of block t is. -/
def row (t : Fin cfg3.N) (p : Fin 2000) : Fin 100000 :=
  ⟨t.val * 2000 + p.val, by have hN : cfg3.N = 50 := N_3; have := t.isLt; have := p.isLt; omega⟩

variable (V : (c : Dev nD) → (b : Ref sig .tc) → Buf (Elt Ideal) ((c : Thread nD τ).loc b))

theorem blk0 (c : Dev nD) (t : Fin cfg3.N) (p : Fin 2000) (k : Fin 128) :
    (iblk3 (F := Ideal) V c 0 t : Vec Ideal S2000x128 .f32) (ix2 p k) = (V c main_v49 : S100000x128.Idx → Ideal .f32) (ix2 (row t p) k) := by
  obtain ⟨e00, e01, -⟩ := idx_facts t
  unfold iblk3
  rw [View.read_apply]
  show V c main_v49 _ = V c main_v49 _
  congr 1
  funext a
  apply Fin.ext
  match a with
  | ⟨0, _⟩ => show win3_0.index t (0 : Fin 2) * 2000 + 1 * p.val = t.val * 2000 + p.val; rw [e00]; omega
  | ⟨1, _⟩ => show win3_0.index t (1 : Fin 2) * 128 + 1 * k.val = k.val; rw [e01]; omega

theorem blk1 (c : Dev nD) (t : Fin cfg3.N) (p : Fin 2000) (k : Fin 128) :
    (iblk3 (F := Ideal) V c 1 t : Vec Ideal S2000x128 .f32) (ix2 p k) = (V c main_v37 : S100000x128.Idx → Ideal .f32) (ix2 (row t p) k) := by
  obtain ⟨-, -, e10, e11, -⟩ := idx_facts t
  unfold iblk3
  rw [View.read_apply]
  show V c main_v37 _ = V c main_v37 _
  congr 1
  funext a
  apply Fin.ext
  match a with
  | ⟨0, _⟩ => show win3_1.index t (0 : Fin 2) * 2000 + 1 * p.val = t.val * 2000 + p.val; rw [e10]; omega
  | ⟨1, _⟩ => show win3_1.index t (1 : Fin 2) * 128 + 1 * k.val = k.val; rw [e11]; omega

theorem blk2 (c : Dev nD) (t : Fin cfg3.N) (q : Fin 128) (k : Fin 128) :
    (iblk3 (F := Ideal) V c 2 t : Vec Ideal S128x128 .f32) (ix2 q k) = (V c main_arg12 : S128x128.Idx → Ideal .f32) (ix2 q k) := by
  obtain ⟨-, -, -, -, e20, e21, -⟩ := idx_facts t
  unfold iblk3
  rw [View.read_apply]
  show V c main_arg12 _ = V c main_arg12 _
  congr 1
  funext a
  apply Fin.ext
  match a with
  | ⟨0, _⟩ => show win3_2.index t (0 : Fin 2) * 128 + 1 * q.val = q.val; rw [e20]; omega
  | ⟨1, _⟩ => show win3_2.index t (1 : Fin 2) * 128 + 1 * k.val = k.val; rw [e21]; omega

theorem blk3 (c : Dev nD) (t : Fin cfg3.N) (q : Fin 128) :
    (iblk3 (F := Ideal) V c 3 t : Vec Ideal S128 .f32) (ix1 q) = (V c main_arg13 : S128.Idx → Ideal .f32) (ix1 q) := by
  obtain ⟨-, -, -, -, -, -, e30, -⟩ := idx_facts t
  unfold iblk3
  rw [View.read_apply]
  show V c main_arg13 _ = V c main_arg13 _
  congr 1
  funext a
  apply Fin.ext
  match a with
  | ⟨0, _⟩ => show win3_3.index t (0 : Fin 1) * 128 + 1 * q.val = q.val; rw [e30]; omega

theorem blk4 (c : Dev nD) (t : Fin cfg3.N) (q : Fin 128) (k : Fin 128) :
    (iblk3 (F := Ideal) V c 4 t : Vec Ideal S128x128 .f32) (ix2 q k) = (V c main_arg14 : S128x128.Idx → Ideal .f32) (ix2 q k) := by
  obtain ⟨-, -, -, -, -, -, -, e40, e41, -⟩ := idx_facts t
  unfold iblk3
  rw [View.read_apply]
  show V c main_arg14 _ = V c main_arg14 _
  congr 1
  funext a
  apply Fin.ext
  match a with
  | ⟨0, _⟩ => show win3_4.index t (0 : Fin 2) * 128 + 1 * q.val = q.val; rw [e40]; omega
  | ⟨1, _⟩ => show win3_4.index t (1 : Fin 2) * 128 + 1 * k.val = k.val; rw [e41]; omega

/-- What point t writes back is block t of the layer of the region's input arrays. -/
theorem flushed_eq (c : Dev nD) (t : Fin cfg3.N) :
    (dat3 (F := Ideal) V c).flushed 5 t = ((cfg3.win 5).blk t).view.read (Elt Ideal)
      (Spec.layerOut (M := 100000) (K := 128) (N := 128) (V c main_v49) (V c main_v37) (V c main_arg12) (V c main_arg13) (V c main_arg14)) := by
  show (cfg3.win 5).cut (grid3.coords t) ((dat3 V c).after 5 t) = _
  rw [after3_5]
  unfold out3_5
  rw [View.canon_unit_zero hz]
  simp only [View.ld_unit_zero (S := S2000x128) hz, View.ld_unit_zero (S := S128x128) hz, View.ld_unit_zero (S := S128) hz1]
  obtain ⟨-, -, -, -, -, -, -, -, -, e50, e51⟩ := idx_facts t
  funext j
  rw [View.read_apply]
  refine pay_block (iblk3 V c 0 t) (iblk3 V c 1 t) (iblk3 V c 2 t) (iblk3 V c 3 t) (iblk3 V c 4 t)
    (V c main_v49) (V c main_v37) (V c main_arg12) (V c main_arg13) (V c main_arg14) (row t)
    (blk0 V c t) (blk1 V c t) (blk2 V c t) (blk3 V c t) (blk4 V c t) _ _ ?_ ?_
  · show win3_5.index t (0 : Fin 2) * 2000 + 1 * (j 0).val = t.val * 2000 + (j 0).val
    rw [e50]; omega
  · show win3_5.index t (1 : Fin 2) * 128 + 1 * (j 1).val = (j 1).val
    rw [e51]; omega

/-- An index of the array is in point t's block iff each coordinate is in the block's range on its axis. -/
theorem mem_blk (t : Fin cfg3.N) (i : S100000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v50).slice (win3_5.rect t)).set ↔ _
  rw [View.set_slice_whole, Rect.mem_set_unit]
  exact Iff.rfl

/-- Row r of the array is in block r / 2000: the blocks cover the array. -/
theorem cover (i : S100000x128.Idx) : ∃ t : Fin cfg3.N, (cfg3.win 5).flush t = true ∧ i ∈ ((cfg3.win 5).blk t).view.set := by
  have hN : cfg3.N = 50 := N_3
  have hi0 : (i 0).val < 100000 := (i 0).isLt
  have hi1 : (i 1).val < 128 := (i 1).isLt
  obtain ⟨t, ht⟩ : ∃ t : Fin cfg3.N, t.val = (i 0).val / 2000 := ⟨⟨(i 0).val / 2000, by omega⟩, rfl⟩
  obtain ⟨-, -, -, -, -, -, -, -, -, e50, e51⟩ := idx_facts t
  refine ⟨t, flush3_5 t, ?_⟩
  rw [mem_blk]
  intro a
  match a with
  | ⟨0, _⟩ => show win3_5.index t (0 : Fin 2) * 2000 ≤ (i 0).val ∧ (i 0).val < win3_5.index t (0 : Fin 2) * 2000 + 2000; rw [e50, ht]; omega
  | ⟨1, _⟩ => show win3_5.index t (1 : Fin 2) * 128 ≤ (i 1).val ∧ (i 1).val < win3_5.index t (1 : Fin 2) * 128 + 128; rw [e51]; omega

/-- The region's output array after all its points is the layer of its input arrays. -/
theorem arr_eq (V : (c : Dev nD) → (b : Ref sig .tc) → Buf (Elt Ideal) ((c : Thread nD τ).loc b)) (c : Dev nD) :
    (dat3 (F := Ideal) V c).arrAt 5 cfg3.N
      = Spec.layerOut (M := 100000) (K := 128) (N := 128) (V c main_v49) (V c main_v37) (V c main_arg12) (V c main_arg13) (V c main_arg14) :=
  (dat3 (F := Ideal) V c).arrAt_eq_of_cover 5
    (Spec.layerOut (M := 100000) (K := 128) (N := 128) (V c main_v49) (V c main_v37) (V c main_arg12) (V c main_arg13) (V c main_arg14))
    (fun t _ => flushed_eq V c t) cover

end Cert.KernelIdeal.Region3

end
-- ==== Proof.Region4.lean ====
/-
  The fourth graph layer's region: its output array as one function of its input arrays.

  The region runs over the 100000 nodes in 50 blocks of 2000 rows. At block t the body reads rows 2000·t … 2000·t + 1999
  of the neighbour means and of the nodes' own features, and the whole of the two weight matrices and of the bias, and
  writes rows 2000·t … 2000·t + 1999 of the output. Entry (p, q) of what it writes is

      max ((Σ_k mean(2000·t + p, k)·wl(q, k) + bl(q)) + Σ_k x(2000·t + p, k)·wr(q, k)) 0,

  the weights being transposed before each product; this is entry (2000·t + p, q) of the layer as a function of whole
  arrays. Row r lies in block r / 2000, so the blocks cover the output array, which therefore ends holding the layer
  of the input arrays.
-/
import proofs.«176323_j18245021074049_1_alg».proof.Proof.Gen.KernelIdeal.Frame
import proofs.«176323_j18245021074049_1_alg».proof.Proof.LibNodeStages
import Idealize.ShloMosaic.Lib.ValueIdx
import Idealize.ShloMosaic.Lib.ValueLayout
import Idealize.ShloMosaic.Lib.Pipeline.Value
import Idealize.ShloMosaic.Lib.StackMember
import Idealize.ShloMosaic.Lib.KernelVsHost
import Idealize.ShloMosaic.PureOps.Ideal.Laws

noncomputable section

open scoped BigOperators

namespace Cert.KernelIdeal.Region4

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl
theorem hz1 : (![0] : Fin 1 → Nat) = fun _ => 0 := funext fun a => by fin_cases a; rfl

theorem dot_plain : dot_S2000x128_S128x128_S2000x128_1_0_0_1_n_n = DotDims.plain 2000 128 128 := rfl

/-- One product of the body at an entry: the block times the transposed weights. -/
theorem prod_at (x : Vec Ideal S2000x128 .f32) (w : Vec Ideal S128x128 .f32) (p : Fin 2000) (q : Fin 128) :
    matmul dot_S2000x128_S128x128_S2000x128_1_0_0_1_n_n none
        (truncf .bf16 (shapeCast S2000x128 x shapeCasts_S2000x128_S2000x128) bitsLt_bf16_f32)
        (transpose S128x128 [1, 0] (truncf .bf16 w bitsLt_bf16_f32) transposes_S128x128_p1_0_S128x128)
        (constant (F := Ideal) S2000x128 .f32 0x00000000#32) (ix2 p q)
      = ∑ k : Fin 128, x (ix2 p k) * w (ix2 q k) := by
  rw [matmul_zero_eq_dotGeneral, dot_plain, StackMember.dotGeneral_plain_apply]
  refine Finset.sum_congr rfl fun k _ => ?_
  rw [truncf_apply, shapeCast_self, transpose_ix2_apply, truncf_apply]

/-- The body's result at an entry of the block. -/
theorem pay_at (x0 x1 : Vec Ideal S2000x128 .f32) (x2 : Vec Ideal S128x128 .f32) (x3 : Vec Ideal S128 .f32)
    (x4 : Vec Ideal S128x128 .f32) (p : Fin 2000) (q : Fin 128) :
    k4_pay1 (F := Ideal) x0 x1 x2 x3 x4 (ix2 p q)
      = max (((∑ k : Fin 128, x0 (ix2 p k) * x2 (ix2 q k)) + x3 (ix1 q)) + ∑ k : Fin 128, x1 (ix2 p k) * x4 (ix2 q k)) 0 := by
  unfold k4_pay1
  rw [maximumf_apply, addf_apply, addf_apply, broadcast_apply, broadcastTo_1b_ab_apply, shapeCast_a_1a_apply, prod_at, prod_at]
  rw [show (Scalar.ofBits (F := Ideal) .f32 0x00000000#32 : Ideal .f32) = 0 from Ideal.ofBits_zero_f32]

/-- The body's result on a block of rows is that block of rows of the layer. -/
theorem pay_block (x0 x1 : Vec Ideal S2000x128 .f32) (x2 : Vec Ideal S128x128 .f32) (x3 : Vec Ideal S128 .f32)
    (x4 : Vec Ideal S128x128 .f32) (mean x : Spec.Mat 100000 128) (wl : Spec.Mat 128 128) (bl : Spec.Vc 128) (wr : Spec.Mat 128 128)
    (row : Fin 2000 → Fin 100000)
    (h0 : ∀ p k, x0 (ix2 p k) = mean (ix2 (row p) k)) (h1 : ∀ p k, x1 (ix2 p k) = x (ix2 (row p) k))
    (h2 : ∀ q k, x2 (ix2 q k) = wl (ix2 q k)) (h3 : ∀ q, x3 (ix1 q) = bl (ix1 q)) (h4 : ∀ q k, x4 (ix2 q k) = wr (ix2 q k))
    (j : S2000x128.Idx) (i : S100000x128.Idx) (hi0 : (i 0).val = (row (j 0)).val) (hi1 : (i 1).val = (j 1).val) :
    k4_pay1 (F := Ideal) x0 x1 x2 x3 x4 j = Spec.layerOut mean x wl bl wr i := by
  obtain ⟨p, q, rfl⟩ : ∃ (p : Fin 2000) (q : Fin 128), j = ix2 p q := ⟨j 0, j 1, eq_ix2 j⟩
  obtain rfl : i = ix2 (row p) q := by
    rw [eq_ix2 i]; exact congrArg₂ ix2 (Fin.ext hi0) (Fin.ext hi1)
  rw [pay_at, Spec.layerOut_apply]
  simp only [h0, h1, h2, h3, h4]

/-- The printed index maps, decided over the grid: the three row-tiled windows are at block (t, 0), the weights at block 0. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- The row of the array that row p of block t is. -/
def row (t : Fin cfg4.N) (p : Fin 2000) : Fin 100000 :=
  ⟨t.val * 2000 + p.val, by have hN : cfg4.N = 50 := N_4; have := t.isLt; have := p.isLt; omega⟩

variable (V : (c : Dev nD) → (b : Ref sig .tc) → Buf (Elt Ideal) ((c : Thread nD τ).loc b))

theorem blk0 (c : Dev nD) (t : Fin cfg4.N) (p : Fin 2000) (k : Fin 128) :
    (iblk4 (F := Ideal) V c 0 t : Vec Ideal S2000x128 .f32) (ix2 p k) = (V c main_v62 : S100000x128.Idx → Ideal .f32) (ix2 (row t p) k) := by
  obtain ⟨e00, e01, -⟩ := idx_facts t
  unfold iblk4
  rw [View.read_apply]
  show V c main_v62 _ = V c main_v62 _
  congr 1
  funext a
  apply Fin.ext
  match a with
  | ⟨0, _⟩ => show win4_0.index t (0 : Fin 2) * 2000 + 1 * p.val = t.val * 2000 + p.val; rw [e00]; omega
  | ⟨1, _⟩ => show win4_0.index t (1 : Fin 2) * 128 + 1 * k.val = k.val; rw [e01]; omega

theorem blk1 (c : Dev nD) (t : Fin cfg4.N) (p : Fin 2000) (k : Fin 128) :
    (iblk4 (F := Ideal) V c 1 t : Vec Ideal S2000x128 .f32) (ix2 p k) = (V c main_v50 : S100000x128.Idx → Ideal .f32) (ix2 (row t p) k) := by
  obtain ⟨-, -, e10, e11, -⟩ := idx_facts t
  unfold iblk4
  rw [View.read_apply]
  show V c main_v50 _ = V c main_v50 _
  congr 1
  funext a
  apply Fin.ext
  match a with
  | ⟨0, _⟩ => show win4_1.index t (0 : Fin 2) * 2000 + 1 * p.val = t.val * 2000 + p.val; rw [e10]; omega
  | ⟨1, _⟩ => show win4_1.index t (1 : Fin 2) * 128 + 1 * k.val = k.val; rw [e11]; omega

theorem blk2 (c : Dev nD) (t : Fin cfg4.N) (q : Fin 128) (k : Fin 128) :
    (iblk4 (F := Ideal) V c 2 t : Vec Ideal S128x128 .f32) (ix2 q k) = (V c main_arg15 : S128x128.Idx → Ideal .f32) (ix2 q k) := by
  obtain ⟨-, -, -, -, e20, e21, -⟩ := idx_facts t
  unfold iblk4
  rw [View.read_apply]
  show V c main_arg15 _ = V c main_arg15 _
  congr 1
  funext a
  apply Fin.ext
  match a with
  | ⟨0, _⟩ => show win4_2.index t (0 : Fin 2) * 128 + 1 * q.val = q.val; rw [e20]; omega
  | ⟨1, _⟩ => show win4_2.index t (1 : Fin 2) * 128 + 1 * k.val = k.val; rw [e21]; omega

theorem blk3 (c : Dev nD) (t : Fin cfg4.N) (q : Fin 128) :
    (iblk4 (F := Ideal) V c 3 t : Vec Ideal S128 .f32) (ix1 q) = (V c main_arg16 : S128.Idx → Ideal .f32) (ix1 q) := by
  obtain ⟨-, -, -, -, -, -, e30, -⟩ := idx_facts t
  unfold iblk4
  rw [View.read_apply]
  show V c main_arg16 _ = V c main_arg16 _
  congr 1
  funext a
  apply Fin.ext
  match a with
  | ⟨0, _⟩ => show win4_3.index t (0 : Fin 1) * 128 + 1 * q.val = q.val; rw [e30]; omega

theorem blk4 (c : Dev nD) (t : Fin cfg4.N) (q : Fin 128) (k : Fin 128) :
    (iblk4 (F := Ideal) V c 4 t : Vec Ideal S128x128 .f32) (ix2 q k) = (V c main_arg17 : S128x128.Idx → Ideal .f32) (ix2 q k) := by
  obtain ⟨-, -, -, -, -, -, -, e40, e41, -⟩ := idx_facts t
  unfold iblk4
  rw [View.read_apply]
  show V c main_arg17 _ = V c main_arg17 _
  congr 1
  funext a
  apply Fin.ext
  match a with
  | ⟨0, _⟩ => show win4_4.index t (0 : Fin 2) * 128 + 1 * q.val = q.val; rw [e40]; omega
  | ⟨1, _⟩ => show win4_4.index t (1 : Fin 2) * 128 + 1 * k.val = k.val; rw [e41]; omega

/-- What point t writes back is block t of the layer of the region's input arrays. -/
theorem flushed_eq (c : Dev nD) (t : Fin cfg4.N) :
    (dat4 (F := Ideal) V c).flushed 5 t = ((cfg4.win 5).blk t).view.read (Elt Ideal)
      (Spec.layerOut (M := 100000) (K := 128) (N := 128) (V c main_v62) (V c main_v50) (V c main_arg15) (V c main_arg16) (V c main_arg17)) := by
  show (cfg4.win 5).cut (grid4.coords t) ((dat4 V c).after 5 t) = _
  rw [after4_5]
  unfold out4_5
  rw [View.canon_unit_zero hz]
  simp only [View.ld_unit_zero (S := S2000x128) hz, View.ld_unit_zero (S := S128x128) hz, View.ld_unit_zero (S := S128) hz1]
  obtain ⟨-, -, -, -, -, -, -, -, -, e50, e51⟩ := idx_facts t
  funext j
  rw [View.read_apply]
  refine pay_block (iblk4 V c 0 t) (iblk4 V c 1 t) (iblk4 V c 2 t) (iblk4 V c 3 t) (iblk4 V c 4 t)
    (V c main_v62) (V c main_v50) (V c main_arg15) (V c main_arg16) (V c main_arg17) (row t)
    (blk0 V c t) (blk1 V c t) (blk2 V c t) (blk3 V c t) (blk4 V c t) _ _ ?_ ?_
  · show win4_5.index t (0 : Fin 2) * 2000 + 1 * (j 0).val = t.val * 2000 + (j 0).val
    rw [e50]; omega
  · show win4_5.index t (1 : Fin 2) * 128 + 1 * (j 1).val = (j 1).val
    rw [e51]; omega

/-- An index of the array is in point t's block iff each coordinate is in the block's range on its axis. -/
theorem mem_blk (t : Fin cfg4.N) (i : S100000x128.Idx) :
    i ∈ ((cfg4.win 5).blk t).view.set ↔ ∀ a : Fin 2, win4_5.index t a * S2000x128.size a ≤ (i a).val ∧ (i a).val < win4_5.index t a * S2000x128.size a + S2000x128.size a := by
  show i ∈ ((View.whole main_v63).slice (win4_5.rect t)).set ↔ _
  rw [View.set_slice_whole, Rect.mem_set_unit]
  exact Iff.rfl

/-- Row r of the array is in block r / 2000: the blocks cover the array. -/
theorem cover (i : S100000x128.Idx) : ∃ t : Fin cfg4.N, (cfg4.win 5).flush t = true ∧ i ∈ ((cfg4.win 5).blk t).view.set := by
  have hN : cfg4.N = 50 := N_4
  have hi0 : (i 0).val < 100000 := (i 0).isLt
  have hi1 : (i 1).val < 128 := (i 1).isLt
  obtain ⟨t, ht⟩ : ∃ t : Fin cfg4.N, t.val = (i 0).val / 2000 := ⟨⟨(i 0).val / 2000, by omega⟩, rfl⟩
  obtain ⟨-, -, -, -, -, -, -, -, -, e50, e51⟩ := idx_facts t
  refine ⟨t, flush4_5 t, ?_⟩
  rw [mem_blk]
  intro a
  match a with
  | ⟨0, _⟩ => show win4_5.index t (0 : Fin 2) * 2000 ≤ (i 0).val ∧ (i 0).val < win4_5.index t (0 : Fin 2) * 2000 + 2000; rw [e50, ht]; omega
  | ⟨1, _⟩ => show win4_5.index t (1 : Fin 2) * 128 ≤ (i 1).val ∧ (i 1).val < win4_5.index t (1 : Fin 2) * 128 + 128; rw [e51]; omega

/-- The region's output array after all its points is the layer of its input arrays. -/
theorem arr_eq (V : (c : Dev nD) → (b : Ref sig .tc) → Buf (Elt Ideal) ((c : Thread nD τ).loc b)) (c : Dev nD) :
    (dat4 (F := Ideal) V c).arrAt 5 cfg4.N
      = Spec.layerOut (M := 100000) (K := 128) (N := 128) (V c main_v62) (V c main_v50) (V c main_arg15) (V c main_arg16) (V c main_arg17) :=
  (dat4 (F := Ideal) V c).arrAt_eq_of_cover 5
    (Spec.layerOut (M := 100000) (K := 128) (N := 128) (V c main_v62) (V c main_v50) (V c main_arg15) (V c main_arg16) (V c main_arg17))
    (fun t _ => flushed_eq V c t) cover

end Cert.KernelIdeal.Region4

end
-- ==== Proof.Region5.lean ====
/-
  The head of the network on a tiling of the rows, at the extended reals.

  The head computes, for every node r and output q,

      ((Σ_k f(r,k)·q0(q,k) + Σ_k r1(r,k)·q1(q,k)) + Σ_k r2(r,k)·q2(q,k)) + qb(q)

  from the node features f and the two relational features r1, r2 (each [100000,128]), the three column blocks q0, q1,
  q2 of the head's weights (each [9,128], entering transposed) and the bias qb. Row r of the result depends on row r of
  f, r1 and r2 alone. The region runs over the rows in 50 blocks of 2000: at point t it holds rows 2000·t … 2000·t + 1999
  of the three feature arrays, the whole of each weight block and the bias, and writes rows 2000·t … 2000·t + 1999 of
  the output. Here: the arithmetic of one point at an entry of its block (`pay_apply`), each window's block at a point
  as entries of its array (`blkW_apply`), what a point writes back as a block of the whole-array head (`flushed_eq`),
  the blocks' cover of the output (`cover`: row r is in block r / 2000), and so the output array after all points
  (`arr_eq`). Nothing of real arithmetic is used beyond 0 + x = x in the product's accumulator, so every statement
  holds at the infinities too.
-/
import proofs.«176323_j18245021074049_1_alg».proof.Proof.Gen.KernelIdeal.Frame
import proofs.«176323_j18245021074049_1_alg».proof.Proof.LibNodeStages
import Idealize.ShloMosaic.Lib.Pipeline.Value
import Idealize.ShloMosaic.Lib.ValueIdx
import Idealize.ShloMosaic.Lib.ValueLayout
import Idealize.ShloMosaic.Lib.StackMember
import Idealize.ShloMosaic.Lib.KernelVsHost

noncomputable section

open scoped BigOperators

namespace Cert.KernelIdeal.Region5

open Cert.KernelIdeal Cert.KernelIdeal.Gen Idealize.ShloMosaic Idealize.ShloMosaic.TcCoe Idealize.SL.Sem
open Idealize.ShloMosaic.Pipeline (Dat)
open Idealize.ShloMosaic.ValueIdx

/-- The extents of the vectors a point of the head computes with are literal, so the offsets `![0, 0]` and `![0]`
    of its whole-buffer accesses are the zero offsets. -/
theorem hz2 : (![0, 0] : Fin 2 → Nat) = fun _ => 0 := funext fun a => by fin_cases a <;> rfl
theorem hz1 : (![0] : Fin 1 → Nat) = fun _ => 0 := funext fun a => by fin_cases a <;> rfl

/-- One of the head's three products at an entry: the block of rows x, narrowed, times the transpose of the narrowed
    weight block w, accumulated into zero, is Σ_k x(p,k)·w(q,k). -/
theorem part_apply (x : FVec Ideal S2000x128 .f32) (w : FVec Ideal S9x128 .f32)
    (hx : S2000x128.ShapeCasts S2000x128) (hw : S9x128.ShapeCasts S9x128) (hlt : FTy.bf16.bits < FTy.f32.bits)
    (ht : S9x128.Transposes [1, 0] S128x9) (p : Fin 2000) (q : Fin 9) :
    matmul dot_S2000x128_S128x9_S2000x9_1_0_0_1_n_n none
      (truncf .bf16 (shapeCast S2000x128 x hx) hlt)
      (transpose S128x9 [1, 0] (truncf .bf16 (shapeCast S9x128 w hw) hlt) ht)
      (constant (F := Ideal) S2000x9 .f32 0x00000000#32) (ix2 p q)
    = ∑ k : Fin 128, x (ix2 p k) * w (ix2 q k) := by
  rw [show dot_S2000x128_S128x9_S2000x9_1_0_0_1_n_n = DotDims.plain 2000 128 9 from rfl, matmul_zero_eq_dotGeneral,
    StackMember.dotGeneral_plain_apply]
  refine Finset.sum_congr rfl fun k _ => ?_
  rw [truncf_apply, shapeCast_self, transpose_ix2_apply, truncf_apply, shapeCast_self]

/-- The body's arithmetic at an entry (p, q) of its block: the three sums, added left to right, plus the bias at q. -/
theorem pay_apply (x0 x1 x2 : Vec Ideal S2000x128 .f32) (x3 x4 x5 : Vec Ideal S9x128 .f32) (x6 : Vec Ideal S9 .f32)
    (p : Fin 2000) (q : Fin 9) :
    k5_pay1 x0 x1 x2 x3 x4 x5 x6 (ix2 p q)
      = (((∑ k : Fin 128, x0 (ix2 p k) * x3 (ix2 q k)) + ∑ k : Fin 128, x1 (ix2 p k) * x4 (ix2 q k))
          + ∑ k : Fin 128, x2 (ix2 p k) * x5 (ix2 q k)) + x6 (ix1 q) := by
  unfold k5_pay1
  rw [addf_apply, addf_apply, addf_apply, part_apply, part_apply, part_apply, broadcastTo_1b_ab_apply, shapeCast_a_1a_apply]

/-- A point's block of the head, from blocks that are rows `row p` of the three feature arrays and the whole of the
    weight blocks and the bias, is those rows of the whole-array head. -/
theorem point_eq (f r1 r2 : Spec.Mat 100000 128) (q0 q1 q2 : Spec.Mat 9 128) (qb : Spec.Vc 9)
    (x0 x1 x2 : Vec Ideal S2000x128 .f32) (x3 x4 x5 : Vec Ideal S9x128 .f32) (x6 : Vec Ideal S9 .f32)
    (row : Fin 2000 → Fin 100000)
    (h0 : ∀ p k, x0 (ix2 p k) = f (ix2 (row p) k)) (h1 : ∀ p k, x1 (ix2 p k) = r1 (ix2 (row p) k))
    (h2 : ∀ p k, x2 (ix2 p k) = r2 (ix2 (row p) k))
    (h3 : ∀ q k, x3 (ix2 q k) = q0 (ix2 q k)) (h4 : ∀ q k, x4 (ix2 q k) = q1 (ix2 q k))
    (h5 : ∀ q k, x5 (ix2 q k) = q2 (ix2 q k)) (h6 : ∀ q, x6 (ix1 q) = qb (ix1 q))
    (j : S2000x9.Idx) (i : S100000x9.Idx) (hi0 : (i 0).val = (row (j 0)).val) (hi1 : (i 1).val = (j 1).val) :
    k5_pay1 x0 x1 x2 x3 x4 x5 x6 j = Spec.qOut3 f r1 r2 q0 q1 q2 qb i := by
  obtain ⟨p, q, rfl⟩ : ∃ (p : Fin 2000) (q : Fin 9), j = ix2 p q := ⟨j 0, j 1, eq_ix2 j⟩
  obtain rfl : i = ix2 (row p) q := by
    rw [eq_ix2 i]; exact congrArg₂ ix2 (Fin.ext hi0) (Fin.ext hi1)
  rw [pay_apply, Spec.qOut3_apply]
  simp only [h0, h1, h2, h3, h4, h5, h6]

/-- The printed index maps, decided over the grid: the three feature windows and the output move down the rows with
    the point; the weight blocks and the bias stay. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 1) = 0
    ∧ win5_7.index t (0 : Fin 2) = t.val ∧ win5_7.index t (1 : Fin 2) = 0 :=
  (by decide +kernel : ∀ t : Fin grid5.N, _)

/-- Row p of point t's blocks is row 2000·t + p of the arrays. -/
def row (t : Fin cfg5.N) (p : Fin 2000) : Fin 100000 :=
  ⟨t.val * 2000 + p.val, by have := t.isLt; have hN : cfg5.N = 50 := N_5; omega⟩

variable (V : (c : Dev nD) → (b : Ref sig .tc) → Buf (Elt Ideal) ((c : Thread nD τ).loc b)) (c : Dev nD)

/-! ## Each window's block at a point, read at an entry -/

theorem blk0_apply (t : Fin cfg5.N) (p : Fin 2000) (k : Fin 128) :
    (iblk5 (F := Ideal) V c 0 t : Vec Ideal S2000x128 .f32) (ix2 p k) = (V c main_v11 : Spec.Mat 100000 128) (ix2 (row t p) k) := by
  obtain ⟨e0, e1, -⟩ := idx_facts t
  unfold iblk5
  rw [View.read_apply]
  show V c main_v11 _ = V c main_v11 _
  congr 1
  funext a
  apply Fin.ext
  match a with
  | ⟨0, _⟩ => show win5_0.index t (0 : Fin 2) * 2000 + 1 * p.val = t.val * 2000 + p.val; rw [e0]; omega
  | ⟨1, _⟩ => show win5_0.index t (1 : Fin 2) * 128 + 1 * k.val = k.val; rw [e1]; omega

theorem blk1_apply (t : Fin cfg5.N) (p : Fin 2000) (k : Fin 128) :
    (iblk5 (F := Ideal) V c 1 t : Vec Ideal S2000x128 .f32) (ix2 p k) = (V c main_v37 : Spec.Mat 100000 128) (ix2 (row t p) k) := by
  obtain ⟨-, -, e0, e1, -⟩ := idx_facts t
  unfold iblk5
  rw [View.read_apply]
  show V c main_v37 _ = V c main_v37 _
  congr 1
  funext a
  apply Fin.ext
  match a with
  | ⟨0, _⟩ => show win5_1.index t (0 : Fin 2) * 2000 + 1 * p.val = t.val * 2000 + p.val; rw [e0]; omega
  | ⟨1, _⟩ => show win5_1.index t (1 : Fin 2) * 128 + 1 * k.val = k.val; rw [e1]; omega

theorem blk2_apply (t : Fin cfg5.N) (p : Fin 2000) (k : Fin 128) :
    (iblk5 (F := Ideal) V c 2 t : Vec Ideal S2000x128 .f32) (ix2 p k) = (V c main_v63 : Spec.Mat 100000 128) (ix2 (row t p) k) := by
  obtain ⟨-, -, -, -, e0, e1, -⟩ := idx_facts t
  unfold iblk5
  rw [View.read_apply]
  show V c main_v63 _ = V c main_v63 _
  congr 1
  funext a
  apply Fin.ext
  match a with
  | ⟨0, _⟩ => show win5_2.index t (0 : Fin 2) * 2000 + 1 * p.val = t.val * 2000 + p.val; rw [e0]; omega
  | ⟨1, _⟩ => show win5_2.index t (1 : Fin 2) * 128 + 1 * k.val = k.val; rw [e1]; omega

theorem blk3_apply (t : Fin cfg5.N) (q : Fin 9) (k : Fin 128) :
    (iblk5 (F := Ideal) V c 3 t : Vec Ideal S9x128 .f32) (ix2 q k) = (V c main_v64 : Spec.Mat 9 128) (ix2 q k) := by
  obtain ⟨-, -, -, -, -, -, e0, e1, -⟩ := idx_facts t
  unfold iblk5
  rw [View.read_apply]
  show V c main_v64 _ = V c main_v64 _
  congr 1
  funext a
  apply Fin.ext
  match a with
  | ⟨0, _⟩ => show win5_3.index t (0 : Fin 2) * 9 + 1 * q.val = q.val; rw [e0]; omega
  | ⟨1, _⟩ => show win5_3.index t (1 : Fin 2) * 128 + 1 * k.val = k.val; rw [e1]; omega

theorem blk4_apply (t : Fin cfg5.N) (q : Fin 9) (k : Fin 128) :
    (iblk5 (F := Ideal) V c 4 t : Vec Ideal S9x128 .f32) (ix2 q k) = (V c main_v65 : Spec.Mat 9 128) (ix2 q k) := by
  obtain ⟨-, -, -, -, -, -, -, -, e0, e1, -⟩ := idx_facts t
  unfold iblk5
  rw [View.read_apply]
  show V c main_v65 _ = V c main_v65 _
  congr 1
  funext a
  apply Fin.ext
  match a with
  | ⟨0, _⟩ => show win5_4.index t (0 : Fin 2) * 9 + 1 * q.val = q.val; rw [e0]; omega
  | ⟨1, _⟩ => show win5_4.index t (1 : Fin 2) * 128 + 1 * k.val = k.val; rw [e1]; omega

theorem blk5_apply (t : Fin cfg5.N) (q : Fin 9) (k : Fin 128) :
    (iblk5 (F := Ideal) V c 5 t : Vec Ideal S9x128 .f32) (ix2 q k) = (V c main_v66 : Spec.Mat 9 128) (ix2 q k) := by
  obtain ⟨-, -, -, -, -, -, -, -, -, -, e0, e1, -⟩ := idx_facts t
  unfold iblk5
  rw [View.read_apply]
  show V c main_v66 _ = V c main_v66 _
  congr 1
  funext a
  apply Fin.ext
  match a with
  | ⟨0, _⟩ => show win5_5.index t (0 : Fin 2) * 9 + 1 * q.val = q.val; rw [e0]; omega
  | ⟨1, _⟩ => show win5_5.index t (1 : Fin 2) * 128 + 1 * k.val = k.val; rw [e1]; omega

theorem blk6_apply (t : Fin cfg5.N) (q : Fin 9) :
    (iblk5 (F := Ideal) V c 6 t : Vec Ideal S9 .f32) (ix1 q) = (V c main_arg19 : Spec.Vc 9) (ix1 q) := by
  obtain ⟨-, -, -, -, -, -, -, -, -, -, -, -, e0, -⟩ := idx_facts t
  unfold iblk5
  rw [View.read_apply]
  show V c main_arg19 _ = V c main_arg19 _
  congr 1
  funext a
  apply Fin.ext
  match a with
  | ⟨0, _⟩ => show win5_6.index t (0 : Fin 1) * 9 + 1 * q.val = q.val; rw [e0]; omega

/-- The whole-array head of the arrays as the region finds them. -/
abbrev G : Spec.Mat 100000 9 :=
  Spec.qOut3 (M := 100000) (K := 128) (N := 9) (V c main_v11) (V c main_v37) (V c main_v63) (V c main_v64) (V c main_v65) (V c main_v66) (V c main_arg19)

/-- What point t writes back is block t of the whole-array head. -/
theorem flushed_eq (t : Fin cfg5.N) :
    (dat5 (F := Ideal) V c).flushed 7 t = ((cfg5.win 7).blk t).view.read (Elt Ideal) (G V c) := by
  show (cfg5.win 7).cut (grid5.coords t) ((dat5 V c).after 7 t) = _
  rw [after5_7]
  unfold out5_7
  rw [View.canon_unit_zero hz2]
  simp only [View.ld_unit_zero (S := S2000x128) hz2, View.ld_unit_zero (S := S9x128) hz2, View.ld_unit_zero (S := S9) hz1]
  obtain ⟨-, -, -, -, -, -, -, -, -, -, -, -, -, e0, e1⟩ := idx_facts t
  funext j
  show k5_pay1 (iblk5 V c 0 t) (iblk5 V c 1 t) (iblk5 V c 2 t) (iblk5 V c 3 t) (iblk5 V c 4 t) (iblk5 V c 5 t) (iblk5 V c 6 t) j
    = G V c (((cfg5.win 7).blk t).view.emb j)
  refine point_eq (V c main_v11) (V c main_v37) (V c main_v63) (V c main_v64) (V c main_v65) (V c main_v66) (V c main_arg19)
    (iblk5 V c 0 t) (iblk5 V c 1 t) (iblk5 V c 2 t) (iblk5 V c 3 t) (iblk5 V c 4 t) (iblk5 V c 5 t) (iblk5 V c 6 t) (row t)
    (blk0_apply V c t) (blk1_apply V c t) (blk2_apply V c t) (blk3_apply V c t) (blk4_apply V c t) (blk5_apply V c t)
    (blk6_apply V c t) j (((cfg5.win 7).blk t).view.emb j) ?_ ?_
  · show win5_7.index t (0 : Fin 2) * 2000 + 1 * (j 0).val = t.val * 2000 + (j 0).val
    rw [e0]; omega
  · show win5_7.index t (1 : Fin 2) * 9 + 1 * (j 1).val = (j 1).val
    rw [e1]; omega

/-- An entry of the output array is in point t's block iff each coordinate is in the block's range on its axis. -/
theorem mem_blk (t : Fin cfg5.N) (i : S100000x9.Idx) :
    i ∈ ((cfg5.win 7).blk t).view.set ↔ ∀ a : Fin 2, win5_7.index t a * S2000x9.size a ≤ (i a).val
      ∧ (i a).val < win5_7.index t a * S2000x9.size a + S2000x9.size a := by
  show i ∈ ((View.whole main_v67).slice (win5_7.rect t)).set ↔ _
  rw [View.set_slice_whole, Rect.mem_set_unit]
  exact Iff.rfl

/-- Every entry of the output array is in some point's block: row r is in the block of point r / 2000. -/
theorem cover (i : S100000x9.Idx) :
    ∃ t : Fin cfg5.N, (cfg5.win 7).flush t = true ∧ i ∈ ((cfg5.win 7).blk t).view.set := by
  have hN : cfg5.N = 50 := N_5
  have hi0 : (i 0).val < 100000 := (i 0).isLt
  have hi1 : (i 1).val < 9 := (i 1).isLt
  have ht : (i 0).val / 2000 < cfg5.N := by omega
  obtain ⟨-, -, -, -, -, -, -, -, -, -, -, -, -, e0, e1⟩ := idx_facts ⟨(i 0).val / 2000, ht⟩
  refine ⟨⟨(i 0).val / 2000, ht⟩, flush5_7 _, ?_⟩
  rw [mem_blk]
  intro a
  match a with
  | ⟨0, _⟩ =>
    show win5_7.index ⟨(i 0).val / 2000, ht⟩ (0 : Fin 2) * 2000 ≤ (i 0).val
      ∧ (i 0).val < win5_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win5_7.index ⟨(i 0).val / 2000, ht⟩ (1 : Fin 2) * 9 ≤ (i 1).val
      ∧ (i 1).val < win5_7.index ⟨(i 0).val / 2000, ht⟩ (1 : Fin 2) * 9 + 9
    rw [e1]; omega

/-- The region's output array after all its points is the whole-array head of its input arrays. -/
theorem arr_eq (V : (c : Dev nD) → (b : Ref sig .tc) → Buf (Elt Ideal) ((c : Thread nD τ).loc b)) (c : Dev nD) :
    (dat5 (F := Ideal) V c).arrAt 7 cfg5.N
      = Spec.qOut3 (M := 100000) (K := 128) (N := 9) (V c main_v11) (V c main_v37) (V c main_v63) (V c main_v64) (V c main_v65) (V c main_v66) (V c main_arg19) :=
  (dat5 (F := Ideal) V c).arrAt_eq_of_cover 7 (G V c) (fun t _ => flushed_eq V c t) (cover)

end Cert.KernelIdeal.Region5

end
-- ==== Proof.Chain.lean ====
/-
  What every region leaves, as the network's functions of the launch arguments.

  Region by region: the encoder's output array is the encoder of the observation and its weights; before each graph
  layer the host operations form the neighbour means of the current features over the edge list; each layer's region
  leaves the layer's function of those means, the features and its weights; and the head's region leaves the head of the
  encoder's, the second layer's and the fourth layer's outputs with the three blocks of columns of its weights. So the
  result buffer ends at the network's output of the launch arguments.
-/
import proofs.«176323_j18245021074049_1_alg».proof.Proof.ChainKeep
import proofs.«176323_j18245021074049_1_alg».proof.Proof.Net
import proofs.«176323_j18245021074049_1_alg».proof.Proof.Region0
import proofs.«176323_j18245021074049_1_alg».proof.Proof.Region1
import proofs.«176323_j18245021074049_1_alg».proof.Proof.Region2
import proofs.«176323_j18245021074049_1_alg».proof.Proof.Region3
import proofs.«176323_j18245021074049_1_alg».proof.Proof.Region4
import proofs.«176323_j18245021074049_1_alg».proof.Proof.Region5

set_option maxRecDepth 16384

noncomputable section

namespace Cert.KernelIdeal.Chain

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- The encoder's region leaves the encoder's output. -/
theorem W2_v11 : W2 m ρ c (Proc.devRef .tc main_v11) = (Cert.Net.ft (m ((c : Thread nD τ).loc main_arg0)) (m ((c : Thread nD τ).loc main_arg2)) (m ((c : Thread nD τ).loc main_arg3)) (m ((c : Thread nD τ).loc main_arg4)) (m ((c : Thread nD τ).loc main_arg5))) :=
  (W2_arr m ρ c 5).trans ((Region0.arr_eq (V1 m ρ) c).trans (by
    rw [V1_arg0 m ρ c, V1_arg2 m ρ c, V1_arg3 m ρ c, V1_arg4 m ρ c, V1_arg5 m ρ c]))

/-- Before layer 1: the neighbour means of its input features. -/
theorem V3_v23 : V3 m ρ c main_v23 = (Cert.Net.mn (m ((c : Thread nD τ).loc main_arg1)) (Cert.Net.ft (m ((c : Thread nD τ).loc main_arg0)) (m ((c : Thread nD τ).loc main_arg2)) (m ((c : Thread nD τ).loc main_arg3)) (m ((c : Thread nD τ).loc main_arg4)) (m ((c : Thread nD τ).loc main_arg5)))) :=
  (HostSteps.mean1 (W2 m ρ c)).trans (by
    rw [W2_v11 m ρ c, W2_src m ρ c, W2_dst m ρ c, W2_deg m ρ c])

/-- Layer 1's input features, as its region finds them. -/
theorem V3_v11' : V3 m ρ c main_v11 = (Cert.Net.ft (m ((c : Thread nD τ).loc main_arg0)) (m ((c : Thread nD τ).loc main_arg2)) (m ((c : Thread nD τ).loc main_arg3)) (m ((c : Thread nD τ).loc main_arg4)) (m ((c : Thread nD τ).loc main_arg5))) :=
  (V3_v11 m ρ c).trans (W2_v11 m ρ c)

/-- Layer 1's region leaves the layer's output. -/
theorem W4_v24 : W4 m ρ c (Proc.devRef .tc main_v24) = (Cert.Net.lay (m ((c : Thread nD τ).loc main_arg1)) (Cert.Net.ft (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8))) :=
  (W4_arr m ρ c 5).trans ((Region1.arr_eq (V3 m ρ) c).trans (by
    rw [V3_v23 m ρ c, V3_v11' m ρ c, V3_arg6 m ρ c, V3_arg7 m ρ c, V3_arg8 m ρ c]))

/-- Before layer 2: the neighbour means of its input features. -/
theorem V5_v36 : V5 m ρ c main_v36 = (Cert.Net.mn (m ((c : Thread nD τ).loc main_arg1)) (Cert.Net.lay (m ((c : Thread nD τ).loc main_arg1)) (Cert.Net.ft (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)))) :=
  (HostSteps.mean2 (W4 m ρ c)).trans (by
    rw [W4_v24 m ρ c, W4_src m ρ c, W4_dst m ρ c, W4_deg m ρ c])

/-- Layer 2's input features, as its region finds them. -/
theorem V5_v24' : V5 m ρ c main_v24 = (Cert.Net.lay (m ((c : Thread nD τ).loc main_arg1)) (Cert.Net.ft (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8))) :=
  (V5_v24 m ρ c).trans (W4_v24 m ρ c)

/-- Layer 2's region leaves the layer's output. -/
theorem W6_v37 : W6 m ρ c (Proc.devRef .tc main_v37) = (Cert.Net.lay (m ((c : Thread nD τ).loc main_arg1)) (Cert.Net.lay (m ((c : Thread nD τ).loc main_arg1)) (Cert.Net.ft (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8))) (m ((c : Thread nD τ).loc main_arg9)) (m ((c : Thread nD τ).loc main_arg10)) (m ((c : Thread nD τ).loc main_arg11))) :=
  (W6_arr m ρ c 5).trans ((Region2.arr_eq (V5 m ρ) c).trans (by
    rw [V5_v36 m ρ c, V5_v24' m ρ c, V5_arg9 m ρ c, V5_arg10 m ρ c, V5_arg11 m ρ c]))

/-- Before layer 3: the neighbour means of its input features. -/
theorem V7_v49 : V7 m ρ c main_v49 = (Cert.Net.mn (m ((c : Thread nD τ).loc main_arg1)) (Cert.Net.lay (m ((c : Thread nD τ).loc main_arg1)) (Cert.Net.lay (m ((c : Thread nD τ).loc main_arg1)) (Cert.Net.ft (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8))) (m ((c : Thread nD τ).loc main_arg9)) (m ((c : Thread nD τ).loc main_arg10)) (m ((c : Thread nD τ).loc main_arg11)))) :=
  (HostSteps.mean3 (W6 m ρ c)).trans (by
    rw [W6_v37 m ρ c, W6_src m ρ c, W6_dst m ρ c, W6_deg m ρ c])

/-- Layer 3's input features, as its region finds them. -/
theorem V7_v37' : V7 m ρ c main_v37 = (Cert.Net.lay (m ((c : Thread nD τ).loc main_arg1)) (Cert.Net.lay (m ((c : Thread nD τ).loc main_arg1)) (Cert.Net.ft (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8))) (m ((c : Thread nD τ).loc main_arg9)) (m ((c : Thread nD τ).loc main_arg10)) (m ((c : Thread nD τ).loc main_arg11))) :=
  (V7_v37 m ρ c).trans (W6_v37 m ρ c)

/-- Layer 3's region leaves the layer's output. -/
theorem W8_v50 : W8 m ρ c (Proc.devRef .tc main_v50) = (Cert.Net.lay (m ((c : Thread nD τ).loc main_arg1)) (Cert.Net.lay (m ((c : Thread nD τ).loc main_arg1)) (Cert.Net.lay (m ((c : Thread nD τ).loc main_arg1)) (Cert.Net.ft (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8))) (m ((c : Thread nD τ).loc main_arg9)) (m ((c : Thread nD τ).loc main_arg10)) (m ((c : Thread nD τ).loc main_arg11))) (m ((c : Thread nD τ).loc main_arg12)) (m ((c : Thread nD τ).loc main_arg13)) (m ((c : Thread nD τ).loc main_arg14))) :=
  (W8_arr m ρ c 5).trans ((Region3.arr_eq (V7 m ρ) c).trans (by
    rw [V7_v49 m ρ c, V7_v37' m ρ c, V7_arg12 m ρ c, V7_arg13 m ρ c, V7_arg14 m ρ c]))

/-- Before layer 4: the neighbour means of its input features. -/
theorem V9_v62 : V9 m ρ c main_v62 = (Cert.Net.mn (m ((c : Thread nD τ).loc main_arg1)) (Cert.Net.lay (m ((c : Thread nD τ).loc main_arg1)) (Cert.Net.lay (m ((c : Thread nD τ).loc main_arg1)) (Cert.Net.lay (m ((c : Thread nD τ).loc main_arg1)) (Cert.Net.ft (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8))) (m ((c : Thread nD τ).loc main_arg9)) (m ((c : Thread nD τ).loc main_arg10)) (m ((c : Thread nD τ).loc main_arg11))) (m ((c : Thread nD τ).loc main_arg12)) (m ((c : Thread nD τ).loc main_arg13)) (m ((c : Thread nD τ).loc main_arg14)))) :=
  (HostSteps.mean4 (W8 m ρ c)).trans (by
    rw [W8_v50 m ρ c, W8_src m ρ c, W8_dst m ρ c, W8_deg m ρ c])

/-- Layer 4's input features, as its region finds them. -/
theorem V9_v50' : V9 m ρ c main_v50 = (Cert.Net.lay (m ((c : Thread nD τ).loc main_arg1)) (Cert.Net.lay (m ((c : Thread nD τ).loc main_arg1)) (Cert.Net.lay (m ((c : Thread nD τ).loc main_arg1)) (Cert.Net.ft (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8))) (m ((c : Thread nD τ).loc main_arg9)) (m ((c : Thread nD τ).loc main_arg10)) (m ((c : Thread nD τ).loc main_arg11))) (m ((c : Thread nD τ).loc main_arg12)) (m ((c : Thread nD τ).loc main_arg13)) (m ((c : Thread nD τ).loc main_arg14))) :=
  (V9_v50 m ρ c).trans (W8_v50 m ρ c)

/-- Layer 4's region leaves the layer's output. -/
theorem W10_v63 : W10 m ρ c (Proc.devRef .tc main_v63) = (Cert.Net.lay (m ((c : Thread nD τ).loc main_arg1)) (Cert.Net.lay (m ((c : Thread nD τ).loc main_arg1)) (Cert.Net.lay (m ((c : Thread nD τ).loc main_arg1)) (Cert.Net.lay (m ((c : Thread nD τ).loc main_arg1)) (Cert.Net.ft (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8))) (m ((c : Thread nD τ).loc main_arg9)) (m ((c : Thread nD τ).loc main_arg10)) (m ((c : Thread nD τ).loc main_arg11))) (m ((c : Thread nD τ).loc main_arg12)) (m ((c : Thread nD τ).loc main_arg13)) (m ((c : Thread nD τ).loc main_arg14))) (m ((c : Thread nD τ).loc main_arg15)) (m ((c : Thread nD τ).loc main_arg16)) (m ((c : Thread nD τ).loc main_arg17))) :=
  (W10_arr m ρ c 5).trans ((Region4.arr_eq (V9 m ρ) c).trans (by
    rw [V9_v62 m ρ c, V9_v50' m ρ c, V9_arg15 m ρ c, V9_arg16 m ρ c, V9_arg17 m ρ c]))

/-- Before the head: the three blocks of columns of its weights. -/
theorem V11_v64 : V11 m ρ c main_v64 = HostSteps.qwBlock0 (m ((c : Thread nD τ).loc main_arg18)) :=
  (HostSteps.blk0 (W10 m ρ c)).trans (by rw [W10_arg18 m ρ c])
theorem V11_v65 : V11 m ρ c main_v65 = HostSteps.qwBlock1 (m ((c : Thread nD τ).loc main_arg18)) :=
  (HostSteps.blk1 (W10 m ρ c)).trans (by rw [W10_arg18 m ρ c])
theorem V11_v66 : V11 m ρ c main_v66 = HostSteps.qwBlock2 (m ((c : Thread nD τ).loc main_arg18)) :=
  (HostSteps.blk2 (W10 m ρ c)).trans (by rw [W10_arg18 m ρ c])

/-- THE RESULT: the head's region leaves the network's output of the launch arguments. -/
theorem W12_v67 : W12 m ρ c (Proc.devRef .tc main_v67)
    = Cert.Net.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) :=
  (W12_arr m ρ c 7).trans ((Region5.arr_eq (V11 m ρ) c).trans (by
    rw [(V11_v11 m ρ c).trans (W2_v11 m ρ c), (V11_v37 m ρ c).trans (W6_v37 m ρ c), (V11_v63 m ρ c).trans (W10_v63 m ρ c),
      V11_v64 m ρ c, V11_v65 m ρ c, V11_v66 m ρ c, V11_arg19 m ρ c]
    rfl))

end Cert.KernelIdeal.Chain

end
-- ==== Proof.RefRun.lean ====
/-
  The reference's result, as the generated run states it, is the composition of the reference's stages:
  the head on the encoder's output, on the second layer's output and on the fourth layer's output, every layer taking
  its neighbour means from the same edge list.
-/
import proofs.«176323_j18245021074049_1_alg».proof.Proof.Gen.ReferenceIdeal.Run
import proofs.«176323_j18245021074049_1_alg».proof.Proof.RefSpell

noncomputable section

namespace Cert.ReferenceIdeal.Spell

open Cert.ReferenceIdeal Cert.ReferenceIdeal.Gen Idealize.ShloMosaic Idealize.ShloMosaic.TcCoe Idealize.SL.Sem

/-- The whole reference as one function of its twenty arguments. -/
def network (a0 : FVec Ideal S100000x5 .f32) (a1 : Vec Ideal S2x600000 .i32) (a2 : FVec Ideal S512x5 .f32) (a3 : FVec Ideal S512 .f32)
    (a4 : FVec Ideal S128x512 .f32) (a5 : FVec Ideal S128 .f32)
    (a6 : FVec Ideal S128x128 .f32) (a7 : FVec Ideal S128 .f32) (a8 : FVec Ideal S128x128 .f32)
    (a9 : FVec Ideal S128x128 .f32) (a10 : FVec Ideal S128 .f32) (a11 : FVec Ideal S128x128 .f32)
    (a12 : FVec Ideal S128x128 .f32) (a13 : FVec Ideal S128 .f32) (a14 : FVec Ideal S128x128 .f32)
    (a15 : FVec Ideal S128x128 .f32) (a16 : FVec Ideal S128 .f32) (a17 : FVec Ideal S128x128 .f32)
    (a18 : FVec Ideal S9x384 .f32) (a19 : FVec Ideal S9 .f32) : FVec Ideal S100000x9 .f32 :=
  let f := feat a0 a2 a3 a4 a5
  let rel1 := layerE (layerE f a1 a6 a7 a8) a1 a9 a10 a11
  let rel2 := layerE (layerE rel1 a1 a12 a13 a14) a1 a15 a16 a17
  head f rel1 rel2 a18 a19

set_option maxRecDepth 8192 in
/-- The generated run's result term is the network of the launch contents of the arguments. -/
theorem res_eq (m : (ℓ : Loc nD τ sig) → Buf (Elt Ideal) ℓ) (c : Dev nD) :
    Value.res_main_v133 (F := Ideal) m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) (m ((c.tc : Thread nD τ).loc main_arg17))
          (m ((c.tc : Thread nD τ).loc main_arg18)) (m ((c.tc : Thread nD τ).loc main_arg19)) := by
  unfold Value.res_main_v133
  rfl

end Cert.ReferenceIdeal.Spell

end
-- ==== Proof.LibHostReads.lean ====
/-
  Host-side array operations read at an index, on the extended reals.

  The reads that plain array code needs again and again: a plain matrix product [m,k]·[k,n] at (a, b) is the finite sum
  Σ_c L(a,c)·R(c,b), whatever name the product's dimension record was printed under, as long as it is the plain one; a
  scalar broadcast to any shape reads the scalar; a bias vector [n] broadcast to one row [1,n] and then down m rows reads,
  at (r, c), the bias at c; a vector [m] made a column [m,1] reads, at (r, ·), the vector at r; and a column [m,1]
  repeated along n columns reads, at (r, d), the column at r. Generic in the extents (an extent that must not be the unit
  extent says so) and, for the layout reads, in the element type; the indices are written by coordinates (ix1, ix2), so
  each lemma applies to a printed operation by unification.
-/
import Idealize.ShloMosaic.Lib.StackMember
import Idealize.ShloMosaic.Lib.Pipeline.Value
import Idealize.ShloMosaic.Lib.ValueIdx

noncomputable section

open scoped BigOperators

namespace Cert.LibHostReads

open Idealize.ShloMosaic Idealize.ShloMosaic.ValueIdx

variable {α : Type}

/-- A plain m×k by k×n product read at (a, b): Σ_c L(a,c)·R(c,b). -/
theorem dot_apply {m k n : Nat} (D : DotDims ⟨2, ![m, k]⟩ ⟨2, ![k, n]⟩ ⟨2, ![m, n]⟩) (hD : D = DotDims.plain m k n)
    (L : FVec Ideal ⟨2, ![m, k]⟩ .f32) (R : FVec Ideal ⟨2, ![k, n]⟩ .f32) (a : Fin m) (b : Fin n) :
    Host.dotGeneral D none L R (ix2 a b) = ∑ c : Fin k, L (ix2 a c) * R (ix2 c b) := by
  subst hD
  exact StackMember.dotGeneral_plain_apply none L R a b

/-- A scalar broadcast to any shape reads the scalar everywhere. -/
theorem splat_apply {t : Shape} (h : (⟨0, ![]⟩ : Shape).BroadcastsInDim t ![]) (y : (⟨0, ![]⟩ : Shape).Idx → α) (j : t.Idx) :
    broadcastInDim t ![] h y j = y ix0 :=
  broadcastInDim_apply _ h y j ix0 (fun a => a.elim0)

/-- A vector of length n broadcast to one row and then to m rows reads, at (r, c), the vector at c. -/
theorem rowBias_apply {m n : Nat} (hn : n ≠ 1)
    (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) := by
  rw [broadcastInDim_apply _ h2 _ (ix2 r c) (ix2 (0 : Fin 1) c) (fun a => match a with
      | ⟨0, _⟩ => by show 0 = if (1 : Nat) = 1 then 0 else r.val; rw [if_pos rfl]
      | ⟨1, _⟩ => by show c.val = if n = 1 then 0 else c.val; rw [if_neg hn]),
    broadcastInDim_apply _ h1 b (ix2 (0 : Fin 1) c) (ix1 c) (fun a => match a with
      | ⟨0, _⟩ => by show c.val = if n = 1 then 0 else c.val; rw [if_neg hn])]

/-- A vector of length m as a column reads, at (r, z), the vector at r. -/
theorem col_apply {m : Nat} (hm : m ≠ 1) (h1 : (⟨1, ![m]⟩ : Shape).BroadcastsInDim ⟨2, ![m, 1]⟩ ![0])
    (v : (⟨1, ![m]⟩ : Shape).Idx → α) (r : Fin m) (z : Fin 1) :
    broadcastInDim ⟨2, ![m, 1]⟩ ![0] h1 v (ix2 r z) = v (ix1 r) :=
  broadcastInDim_apply _ h1 v (ix2 r z) (ix1 r) (fun a => match a with
    | ⟨0, _⟩ => by show r.val = if m = 1 then 0 else r.val; rw [if_neg hm])

/-- A column broadcast along its rows reads, at (r, d), the column at r. -/
theorem colBcast_apply {m n : Nat} (hm : m ≠ 1) (h2 : (⟨2, ![m, 1]⟩ : Shape).BroadcastsInDim ⟨2, ![m, n]⟩ ![0, 1])
    (Y : (⟨2, ![m, 1]⟩ : Shape).Idx → α) (r : Fin m) (d : Fin n) :
    broadcastInDim ⟨2, ![m, n]⟩ ![0, 1] h2 Y (ix2 r d) = Y (ix2 r (0 : Fin 1)) :=
  broadcastInDim_apply _ h2 Y (ix2 r d) (ix2 r (0 : Fin 1)) (fun a => match a with
    | ⟨0, _⟩ => by show r.val = if m = 1 then 0 else r.val; rw [if_neg hm]
    | ⟨1, _⟩ => by show 0 = if (1 : Nat) = 1 then 0 else d.val; rw [if_pos rfl])

end Cert.LibHostReads

end
-- ==== Proof.LibTransposedStages.lean ====
/-
  A dense stage and a two-product layer with TRANSPOSED weights, in the host's spelling, read entry by entry at the
  extended reals; generic in the extents M, K, N (N not 1).

    max (X·Wᵀ + b) 0                  at (r, q):  max (Σ_k X(r,k)·W(q,k) + b(q)) 0
    max ((U·Wlᵀ + b) + X·Wrᵀ) 0       at (r, q):  max ((Σ_k U(r,k)·Wl(q,k) + b(q)) + Σ_k X(r,k)·Wr(q,k)) 0

  where the host writes the product as a dot_general (under any printed record equal to the plain one) with the weight
  matrix [N,K] transposed to [K,N] first, the bias vector [N] broadcast to a row and then down the rows, and the zero as
  a scalar constant broadcast to the shape. The product is the finite sum over the contracted coordinate, the transpose
  swaps the weight's coordinates, the broadcasts read the evident entries and the zero word is the real 0; nothing of
  real arithmetic is used, so both hold at the infinities too.
-/
import proofs.«176323_j18245021074049_1_alg».proof.Proof.LibNodeStages
import proofs.«176323_j18245021074049_1_alg».proof.Proof.LibHostReads
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibTransposedStages

open Idealize.ShloMosaic Idealize.ShloMosaic.ValueIdx Cert.LibHostReads

variable {M K N : Nat}

/-- relu (X·Wᵀ + b) in the host's spelling is the specification's dense stage. -/
theorem hostDense_eq (hN : N ≠ 1) (D : DotDims ⟨2, ![M, K]⟩ ⟨2, ![K, N]⟩ ⟨2, ![M, N]⟩) (hD : D = DotDims.plain M K N)
    (X : FVec Ideal ⟨2, ![M, K]⟩ .f32) (W : FVec Ideal ⟨2, ![N, K]⟩ .f32) (b : FVec Ideal ⟨1, ![N]⟩ .f32)
    (ht : (⟨2, ![N, K]⟩ : Shape).Transposes [1, 0] ⟨2, ![K, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (hz : (⟨0, ![]⟩ : Shape).BroadcastsInDim ⟨2, ![M, N]⟩ ![]) :
    maximumf (addf (Host.dotGeneral D none X (transpose ⟨2, ![K, N]⟩ [1, 0] W ht))
        (broadcastInDim ⟨2, ![M, N]⟩ ![0, 1] h2 (broadcastInDim ⟨2, ![1, N]⟩ ![1] h1 b)))
      (broadcastInDim ⟨2, ![M, N]⟩ ![] hz (constant (F := Ideal) ⟨0, ![]⟩ .f32 0x00000000#32))
    = Spec.denseRelu X W b := by
  funext i
  obtain ⟨r, q, rfl⟩ : ∃ (r : Fin M) (q : Fin N), i = ix2 r q := ⟨i 0, i 1, eq_ix2 i⟩
  rw [Spec.denseRelu_apply, maximumf_apply, addf_apply, dot_apply D hD, rowBias_apply hN, splat_apply, constant_apply,
    Ideal.ofBits_zero_f32]
  refine congrArg (fun s => max (s + b (ix1 q)) 0) ?_
  exact Finset.sum_congr rfl fun k _ => by rw [transpose_ix2_apply]

/-- The graph layer in the host's spelling is the specification's layer. -/
theorem hostLayer_eq (hN : N ≠ 1) (D1 D2 : DotDims ⟨2, ![M, K]⟩ ⟨2, ![K, N]⟩ ⟨2, ![M, N]⟩)
    (hD1 : D1 = DotDims.plain M K N) (hD2 : D2 = DotDims.plain M K N)
    (mn x : FVec Ideal ⟨2, ![M, K]⟩ .f32) (wl wr : FVec Ideal ⟨2, ![N, K]⟩ .f32) (bl : FVec Ideal ⟨1, ![N]⟩ .f32)
    (ht1 ht2 : (⟨2, ![N, K]⟩ : Shape).Transposes [1, 0] ⟨2, ![K, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (hz : (⟨0, ![]⟩ : Shape).BroadcastsInDim ⟨2, ![M, N]⟩ ![]) :
    maximumf (addf (addf (Host.dotGeneral D1 none mn (transpose ⟨2, ![K, N]⟩ [1, 0] wl ht1))
          (broadcastInDim ⟨2, ![M, N]⟩ ![0, 1] h2 (broadcastInDim ⟨2, ![1, N]⟩ ![1] h1 bl)))
        (Host.dotGeneral D2 none x (transpose ⟨2, ![K, N]⟩ [1, 0] wr ht2)))
      (broadcastInDim ⟨2, ![M, N]⟩ ![] hz (constant (F := Ideal) ⟨0, ![]⟩ .f32 0x00000000#32))
    = Spec.layerOut mn x wl bl wr := by
  funext i
  obtain ⟨r, q, rfl⟩ : ∃ (r : Fin M) (q : Fin N), i = ix2 r q := ⟨i 0, i 1, eq_ix2 i⟩
  rw [Spec.layerOut_apply, maximumf_apply, addf_apply, addf_apply, dot_apply D1 hD1, dot_apply D2 hD2, rowBias_apply hN,
    splat_apply, constant_apply, Ideal.ofBits_zero_f32]
  have e1 : ∑ k : Fin K, mn (ix2 r k) * transpose ⟨2, ![K, N]⟩ [1, 0] wl ht1 (ix2 k q) = ∑ k : Fin K, mn (ix2 r k) * wl (ix2 q k) :=
    Finset.sum_congr rfl fun k _ => by rw [transpose_ix2_apply]
  have e2 : ∑ k : Fin K, x (ix2 r k) * transpose ⟨2, ![K, N]⟩ [1, 0] wr ht2 (ix2 k q) = ∑ k : Fin K, x (ix2 r k) * wr (ix2 q k) :=
    Finset.sum_congr rfl fun k _ => by rw [transpose_ix2_apply]
  rw [e1, e2]

end Cert.LibTransposedStages

end
-- ==== Proof.LibColumnBlocks.lean ====
/-
  Matrices cut into blocks of rows or of columns, and a product whose left factor is two blocks of columns side by side.

  Writing [ A | B ] for an m x a matrix A and an m x b matrix B laid side by side (m x (a + b)), and P for an (a + b) x p
  matrix with top a rows P_top and bottom b rows P_bot,

      [ A | B ] · P  =  A · P_top  +  B · P_bot        entry by entry,

  because a sum over the a + b contracted positions is the sum over the first a plus the sum over the last b. This is the
  law behind factoring a projection of two concatenated feature rows, concat(h[row], h[col]) · P, into two projections
  added. On the extended reals it needs nothing of the entries: only associativity and commutativity of the sum are used.
  Also here, generic in the extents and the element type: the entry reads of two column blocks side by side, of a block of
  consecutive rows of a matrix, and of a block of consecutive columns.
-/
import Idealize.ShloMosaic.Lib.StackMember
import Idealize.ShloMosaic.Lib.Pipeline.Value
import Idealize.ShloMosaic.Lib.ValueIdx

noncomputable section

open scoped BigOperators

namespace Cert.LibColumnBlocks

open Idealize.ShloMosaic Idealize.ShloMosaic.ValueIdx

variable {α : Type}

/-- A sum over n = a + b positions is the sum over the first a plus the sum over the last b. -/
theorem sum_split {M : Type*} [AddCommMonoid M] {a b n : Nat} (hn : a + b = n) (f : Fin n → M) :
    ∑ k : Fin n, f k = ∑ k : Fin a, f ⟨k.val, by omega⟩ + ∑ k : Fin b, f ⟨a + k.val, by omega⟩ := by
  subst hn
  exact Fin.sum_univ_add (a := a) (b := b) f

/-- Two blocks of columns side by side, read in the first block. -/
theorem colBlocks_left {m a b n : Nat} (hn : a + b = n) (x₁ : (⟨2, ![m, a]⟩ : Shape).Idx → α) (x₂ : (⟨2, ![m, b]⟩ : Shape).Idx → α)
    (h : Shape.Concatenates [(⟨2, ![m, a]⟩ : Shape), ⟨2, ![m, b]⟩] ⟨2, ![m, n]⟩ 1) (r : Fin m) (k : Fin a) :
    concatenate ⟨2, ![m, n]⟩ 1 [⟨⟨2, ![m, a]⟩, x₁⟩, ⟨⟨2, ![m, b]⟩, x₂⟩] h (ix2 r (⟨k.val, by omega⟩ : Fin n)) = x₁ (ix2 r k) :=
  concatenate_pair_apply_left (t := ⟨2, ![m, n]⟩) (s₁ := ⟨2, ![m, a]⟩) (s₂ := ⟨2, ![m, b]⟩) (1 : Fin 2) x₁ x₂ h
    (ix2 r (⟨k.val, by omega⟩ : Fin n)) rfl (ix2 r k) (fun d => by
      match d with
      | ⟨0, _⟩ => rfl
      | ⟨1, _⟩ => rfl)

/-- Two blocks of columns side by side, read in the second block. -/
theorem colBlocks_right {m a b n : Nat} (hn : a + b = n) (x₁ : (⟨2, ![m, a]⟩ : Shape).Idx → α) (x₂ : (⟨2, ![m, b]⟩ : Shape).Idx → α)
    (h : Shape.Concatenates [(⟨2, ![m, a]⟩ : Shape), ⟨2, ![m, b]⟩] ⟨2, ![m, n]⟩ 1) (r : Fin m) (k : Fin b) :
    concatenate ⟨2, ![m, n]⟩ 1 [⟨⟨2, ![m, a]⟩, x₁⟩, ⟨⟨2, ![m, b]⟩, x₂⟩] h (ix2 r (⟨a + k.val, by omega⟩ : Fin n)) = x₂ (ix2 r k) :=
  concatenate_pair_apply_right (t := ⟨2, ![m, n]⟩) (s₁ := ⟨2, ![m, a]⟩) (s₂ := ⟨2, ![m, b]⟩) (1 : Fin 2) x₁ x₂ h
    (ix2 r (⟨a + k.val, by omega⟩ : Fin n)) rfl rfl (ix2 r k) (fun d hd => by
      match d with
      | ⟨0, _⟩ => rfl
      | ⟨1, _⟩ => exact absurd rfl hd) (by show k.val + a = a + k.val; omega)

/-- A block of m consecutive rows of a matrix, starting at row o, read at an entry. -/
theorem rowBlock_apply {M m n : Nat} (o : Nat) (ho : o + m ≤ M) (x : (⟨2, ![M, n]⟩ : Shape).Idx → α)
    (h : (⟨2, ![M, n]⟩ : Shape).Slices ![o, 0] ⟨2, ![m, n]⟩) (r : Fin m) (j : Fin n) :
    extractStridedSlice ⟨2, ![m, n]⟩ ![o, 0] x h (ix2 r j) = x (ix2 (⟨o + r.val, by omega⟩ : Fin M) j) :=
  extractStridedSlice_apply _ x h (ix2 r j) (ix2 (⟨o + r.val, by omega⟩ : Fin M) j) (fun d => by
    match d with
    | ⟨0, _⟩ => rfl
    | ⟨1, _⟩ => show j.val = 0 + j.val; omega)

/-- A block of n consecutive columns of a matrix, starting at column o, read at an entry. -/
theorem colBlock_apply {m N n : Nat} (o : Nat) (ho : o + n ≤ N) (x : (⟨2, ![m, N]⟩ : Shape).Idx → α)
    (h : (⟨2, ![m, N]⟩ : Shape).Slices ![0, o] ⟨2, ![m, n]⟩) (r : Fin m) (j : Fin n) :
    extractStridedSlice ⟨2, ![m, n]⟩ ![0, o] x h (ix2 r j) = x (ix2 r (⟨o + j.val, by omega⟩ : Fin N)) :=
  extractStridedSlice_apply _ x h (ix2 r j) (ix2 r (⟨o + j.val, by omega⟩ : Fin N)) (fun d => by
    match d with
    | ⟨0, _⟩ => show r.val = 0 + r.val; omega
    | ⟨1, _⟩ => rfl)

/-- THE LAW: [ A | B ] · P at (e, j) is Σ_k A(e,k) · P(k, j) + Σ_k B(e,k) · P(a + k, j), under any printed record equal to
    the plain one. -/
theorem dot_colBlocks_apply {m a b n p : Nat} (hn : a + b = n)
    (D : DotDims ⟨2, ![m, n]⟩ ⟨2, ![n, p]⟩ ⟨2, ![m, p]⟩) (hD : D = DotDims.plain m n p)
    (A : FVec Ideal ⟨2, ![m, a]⟩ .f32) (B : FVec Ideal ⟨2, ![m, b]⟩ .f32)
    (h : Shape.Concatenates [(⟨2, ![m, a]⟩ : Shape), ⟨2, ![m, b]⟩] ⟨2, ![m, n]⟩ 1)
    (P : FVec Ideal ⟨2, ![n, p]⟩ .f32) (e : Fin m) (j : Fin p) :
    Host.dotGeneral D none (concatenate ⟨2, ![m, n]⟩ 1 [⟨⟨2, ![m, a]⟩, A⟩, ⟨⟨2, ![m, b]⟩, B⟩] h : FVec Ideal ⟨2, ![m, n]⟩ .f32) P (ix2 e j)
      = ∑ k : Fin a, A (ix2 e k) * P (ix2 (⟨k.val, by omega⟩ : Fin n) j)
        + ∑ k : Fin b, B (ix2 e k) * P (ix2 (⟨a + k.val, by omega⟩ : Fin n) j) := by
  subst hD
  rw [StackMember.dotGeneral_plain_apply, sum_split hn]
  congr 1
  · exact Finset.sum_congr rfl fun k _ => by rw [colBlocks_left hn A B h e k]
  · exact Finset.sum_congr rfl fun k _ => by rw [colBlocks_right hn A B h e k]

end Cert.LibColumnBlocks

end
-- ==== Proof.RefSpec.lean ====
/-
  The reference's stages are the specification's functions.

  A dense stage in the reference's spelling — a matrix product with the transposed weights, the bias broadcast down the
  rows, the maximum with zero — reads at (r, q) as max (Σ_k X(r,k)·W(q,k) + b(q)) 0: the product is the finite sum over
  the contracted coordinate, the transpose swaps the weight's coordinates, the broadcasts read the evident entries and
  the zero word is the real 0. The graph layer is the same with two products. For the head, the product of the three
  feature arrays laid side by side with the transposed weights is a sum over 384 = 128 + 128 + 128 positions; a sum over
  consecutive blocks of positions is the sum of the blocks' sums, on the left third the concatenation reads the first
  array and the weights their first 128 columns, and so on: the head is the sum of three products with the three blocks of
  columns of the weight matrix. Only associativity of addition on the extended reals is used.
-/
import proofs.«176323_j18245021074049_1_alg».proof.Proof.RefSpell
import proofs.«176323_j18245021074049_1_alg».proof.Proof.HostSteps
import proofs.«176323_j18245021074049_1_alg».proof.Proof.LibNodeStages
import proofs.«176323_j18245021074049_1_alg».proof.Proof.Net
import proofs.«176323_j18245021074049_1_alg».proof.Proof.RefRun
import proofs.«176323_j18245021074049_1_alg».proof.Proof.LibHostReads
import proofs.«176323_j18245021074049_1_alg».proof.Proof.LibTransposedStages
import proofs.«176323_j18245021074049_1_alg».proof.Proof.LibColumnBlocks
import Idealize.ShloMosaic.Lib.ValueIdx
import Idealize.ShloMosaic.Lib.ValueLayout
import Idealize.ShloMosaic.Lib.Pipeline.Value
import Idealize.ShloMosaic.PureOps.Ideal.Laws

noncomputable section

open scoped BigOperators

/-! ## The reference's own stages -/

namespace Cert.ReferenceIdeal.Spell

open Cert.ReferenceIdeal Cert.ReferenceIdeal.Gen Idealize.ShloMosaic Idealize.ShloMosaic.ValueIdx Cert.LibHostReads
open Cert.KernelIdeal.HostSteps (qwBlock0 qwBlock1 qwBlock2)

theorem feat_eq (a0 : FVec Ideal S100000x5 .f32) (a2 : FVec Ideal S512x5 .f32) (a3 : FVec Ideal S512 .f32)
    (a4 : FVec Ideal S128x512 .f32) (a5 : FVec Ideal S128 .f32) :
    feat a0 a2 a3 a4 a5 = Spec.feat (M := 100000) (K := 5) (H := 512) (N := 128) a0 a2 a3 a4 a5 := by
  unfold feat Spec.feat
  rw [Cert.LibTransposedStages.hostDense_eq (M := 100000) (K := 5) (N := 512) (by decide) dot_S100000x5_S5x512_S100000x512_1_0_0_1_n_n rfl a0 a2 a3]
  exact Cert.LibTransposedStages.hostDense_eq (M := 100000) (K := 512) (N := 128) (by decide) dot_S100000x512_S512x128_S100000x128_1_0_0_1_n_n rfl _ a4 a5 _ _ _ _

theorem layer_eq (x mn : FVec Ideal S100000x128 .f32) (wl : FVec Ideal S128x128 .f32) (bl : FVec Ideal S128 .f32)
    (wr : FVec Ideal S128x128 .f32) :
    layer x mn wl bl wr = Spec.layerOut (M := 100000) (K := 128) (N := 128) mn x wl bl wr := by
  unfold layer
  exact Cert.LibTransposedStages.hostLayer_eq (M := 100000) (K := 128) (N := 128) (by decide) dot_S100000x128_S128x128_S100000x128_1_0_0_1_n_n dot_S100000x128_S128x128_S100000x128_1_0_0_1_n_n rfl rfl mn x wl wr bl _ _ _ _ _

/-- A sum over 384 positions is the sum of the sums over its three thirds. -/
theorem sum_three (g : Fin 384 → EReal) :
    ∑ c : Fin 384, g c = (∑ k : Fin 128, g ⟨k.val, by omega⟩ + ∑ k : Fin 128, g ⟨128 + k.val, by omega⟩)
      + ∑ k : Fin 128, g ⟨256 + k.val, by omega⟩ := by
  rw [Cert.LibColumnBlocks.sum_split (a := 128) (b := 256) (n := 384) rfl g,
    Cert.LibColumnBlocks.sum_split (a := 128) (b := 128) (n := 256) rfl (fun k => g ⟨128 + k.val, by omega⟩), ← add_assoc]
  refine congrArg₂ (· + ·) (congrArg₂ (· + ·) rfl (Finset.sum_congr rfl fun k _ => rfl))
    (Finset.sum_congr rfl fun k _ => congrArg g (Fin.ext ?_))
  show 128 + (128 + k.val) = 256 + k.val
  omega

/-- The three feature arrays side by side, read in the first, the second and the third array. -/
theorem cat_apply (f r1 r2 : FVec Ideal S100000x128 .f32) (r : Fin 100000) (k : Fin 128) :
    concatenate S100000x384 1 [⟨S100000x128, f⟩, ⟨S100000x128, r1⟩, ⟨S100000x128, r2⟩]
        concatenates_S100000x128_S100000x128_S100000x128_S100000x384_d1 (ix2 r (⟨k.val, by omega⟩ : Fin 384)) = f (ix2 r k)
    ∧ concatenate S100000x384 1 [⟨S100000x128, f⟩, ⟨S100000x128, r1⟩, ⟨S100000x128, r2⟩]
        concatenates_S100000x128_S100000x128_S100000x128_S100000x384_d1 (ix2 r (⟨128 + k.val, by omega⟩ : Fin 384)) = r1 (ix2 r k)
    ∧ concatenate S100000x384 1 [⟨S100000x128, f⟩, ⟨S100000x128, r1⟩, ⟨S100000x128, r2⟩]
        concatenates_S100000x128_S100000x128_S100000x128_S100000x384_d1 (ix2 r (⟨256 + k.val, by omega⟩ : Fin 384)) = r2 (ix2 r k) := by
  refine ⟨?_, ?_, ?_⟩
  · exact concatenate_apply_piece (t := S100000x384) (1 : Fin 2) _ _ _ 0 (by show (0 : Nat) < 3; omega) S100000x128 f rfl rfl 0 rfl (ix2 r k)
      (fun b hb => by match b with | ⟨0, _⟩ => rfl | ⟨1, _⟩ => exact absurd rfl hb) (by show 0 + k.val = k.val; omega)
  · exact concatenate_apply_piece (t := S100000x384) (1 : Fin 2) _ _ _ 1 (by show (1 : Nat) < 3; omega) S100000x128 r1 rfl rfl 128 rfl (ix2 r k)
      (fun b hb => by match b with | ⟨0, _⟩ => rfl | ⟨1, _⟩ => exact absurd rfl hb) (by show 128 + k.val = 128 + k.val; rfl)
  · exact concatenate_apply_piece (t := S100000x384) (1 : Fin 2) _ _ _ 2 (by show (2 : Nat) < 3; omega) S100000x128 r2 rfl rfl 256 rfl (ix2 r k)
      (fun b hb => by match b with | ⟨0, _⟩ => rfl | ⟨1, _⟩ => exact absurd rfl hb) (by show 256 + k.val = 256 + k.val; rfl)

/-- The three blocks of columns of the head's weights, read at an entry. -/
theorem qwBlock_apply (qw : FVec Ideal S9x384 .f32) (q : Fin 9) (k : Fin 128) :
    qwBlock0 qw (ix2 q k) = qw (ix2 q (⟨k.val, by omega⟩ : Fin 384))
    ∧ qwBlock1 qw (ix2 q k) = qw (ix2 q (⟨128 + k.val, by omega⟩ : Fin 384))
    ∧ qwBlock2 qw (ix2 q k) = qw (ix2 q (⟨256 + k.val, by omega⟩ : Fin 384)) := by
  refine ⟨?_, ?_, ?_⟩
  · exact (Cert.LibColumnBlocks.colBlock_apply (m := 9) (N := 384) (n := 128) 0 (by omega) qw _ q k).trans
      (congrArg qw (congrArg (ix2 q) (Fin.ext (by show 0 + k.val = k.val; omega))))
  · exact Cert.LibColumnBlocks.colBlock_apply (m := 9) (N := 384) (n := 128) 128 (by omega) qw _ q k
  · exact Cert.LibColumnBlocks.colBlock_apply (m := 9) (N := 384) (n := 128) 256 (by omega) qw _ q k

/-- The head on the concatenated features is the sum of the three products with the three blocks of its weights. -/
theorem head_eq (f r1 r2 : FVec Ideal S100000x128 .f32) (a18 : FVec Ideal S9x384 .f32) (a19 : FVec Ideal S9 .f32) :
    head f r1 r2 a18 a19
      = Spec.qOut3 (M := 100000) (K := 128) (N := 9) f r1 r2 (qwBlock0 a18) (qwBlock1 a18) (qwBlock2 a18) a19 := by
  funext i
  obtain ⟨r, q, rfl⟩ : ∃ (r : Fin 100000) (q : Fin 9), i = ix2 r q := ⟨i 0, i 1, eq_ix2 i⟩
  unfold head
  rw [Spec.qOut3_apply, addf_apply, dot_apply dot_S100000x384_S384x9_S100000x9_1_0_0_1_n_n rfl, rowBias_apply (by decide), sum_three]
  refine congrArg (· + a19 (ix1 q)) ?_
  refine congrArg₂ (· + ·) (congrArg₂ (· + ·) ?_ ?_) ?_
  · exact Finset.sum_congr rfl fun k _ => by
      rw [(cat_apply f r1 r2 r k).1, transpose_ix2_apply, (qwBlock_apply a18 q k).1]
  · exact Finset.sum_congr rfl fun k _ => by
      rw [(cat_apply f r1 r2 r k).2.1, transpose_ix2_apply, (qwBlock_apply a18 q k).2.1]
  · exact Finset.sum_congr rfl fun k _ => by
      rw [(cat_apply f r1 r2 r k).2.2, transpose_ix2_apply, (qwBlock_apply a18 q k).2.2]

/-- The reference as one function of its arguments is the network. -/
theorem network_eq (a0 : FVec Ideal S100000x5 .f32) (a1 : Vec Ideal S2x600000 .i32) (a2 : FVec Ideal S512x5 .f32) (a3 : FVec Ideal S512 .f32)
    (a4 : FVec Ideal S128x512 .f32) (a5 : FVec Ideal S128 .f32)
    (a6 : FVec Ideal S128x128 .f32) (a7 : FVec Ideal S128 .f32) (a8 : FVec Ideal S128x128 .f32)
    (a9 : FVec Ideal S128x128 .f32) (a10 : FVec Ideal S128 .f32) (a11 : FVec Ideal S128x128 .f32)
    (a12 : FVec Ideal S128x128 .f32) (a13 : FVec Ideal S128 .f32) (a14 : FVec Ideal S128x128 .f32)
    (a15 : FVec Ideal S128x128 .f32) (a16 : FVec Ideal S128 .f32) (a17 : FVec Ideal S128x128 .f32)
    (a18 : FVec Ideal S9x384 .f32) (a19 : FVec Ideal S9 .f32) :
    network a0 a1 a2 a3 a4 a5 a6 a7 a8 a9 a10 a11 a12 a13 a14 a15 a16 a17 a18 a19
      = Cert.Net.out a0 a1 a2 a3 a4 a5 a6 a7 a8 a9 a10 a11 a12 a13 a14 a15 a16 a17 a18 a19 := by
  unfold network Cert.Net.out layerE
  simp only [head_eq, layer_eq, feat_eq]

end Cert.ReferenceIdeal.Spell

end
-- ==== Proof.lean ====
/- The proof of `Cert.Claim` (proofs.«176323_j18245021074049_1_alg».proof.Defs).

   The kernel program and the reference compute one network on a graph of 100000 nodes and 600000 edges: a two-stage
   encoder of the node observations, four graph layers — each the maximum with zero of (mean·wlᵀ + bl) + x·wrᵀ, where
   mean is, per node, the sum of its in-neighbours' feature rows divided by its in-degree clamped below by one —, and a
   linear head on the encoder's, the second layer's and the fourth layer's outputs laid side by side.

   The kernel runs the encoder, each layer's dense part and the head as tiled regions over blocks of 2000 nodes, and the
   neighbour sums as host operations between them; a block of rows of a dense stage is that stage on the block of rows,
   so each region leaves the whole-array function of its inputs (Proof/Region0 … Region5), and, the buffers followed
   from boundary to boundary (Proof/ChainKeep, Proof/Chain), the result buffer ends at the network's output of the launch
   arguments (Proof/Net). The reference's run ends at the same function of its arguments (Proof/RefRun, Proof/RefSpec):
   its dense stages read entry by entry as the same sums, its neighbour means are the same host operations on the same
   contents, and its head's product over the 384 concatenated features is the sum of the kernel's three products over
   the three blocks of 128 columns of the weights — a regrouping of a finite sum, which holds on the extended reals
   without any finiteness. The in-degree is computed once by the kernel and once per layer by the reference: the same term.
   So the two results are equal whenever the arguments agree; the precondition is not used.
   The three frames are the generated ones (the reference's is its generated run with the result dropped); no rewrite was
   applied in idealizing the kernel, so `preserves` is trivial. -/
import proofs.«176323_j18245021074049_1_alg».proof.Defs
import proofs.«176323_j18245021074049_1_alg».proof.Proof.Gen.Kernel
import proofs.«176323_j18245021074049_1_alg».proof.Proof.Gen.Kernel.Frame
import proofs.«176323_j18245021074049_1_alg».proof.Proof.Gen.KernelIdeal
import proofs.«176323_j18245021074049_1_alg».proof.Proof.Gen.KernelIdeal.Frame
import proofs.«176323_j18245021074049_1_alg».proof.Proof.Gen.ReferenceIdeal
import proofs.«176323_j18245021074049_1_alg».proof.Proof.Gen.Pre_finite_inputs
import proofs.«176323_j18245021074049_1_alg».proof.Proof.Gen.ReferenceIdeal.Run
import proofs.«176323_j18245021074049_1_alg».proof.Proof.KernelRun
import proofs.«176323_j18245021074049_1_alg».proof.Proof.Chain
import proofs.«176323_j18245021074049_1_alg».proof.Proof.RefRun
import proofs.«176323_j18245021074049_1_alg».proof.Proof.RefSpec
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel program ends with its result at the network's output of its launch arguments, the arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v67) = Cert.Net.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)) :=
  (θ_run Cert.KernelIdeal.defs _ _).mono
    (fun r h c => ⟨(h c).1.trans (Cert.KernelIdeal.Chain.W12_v67 m ρ c), (h c).2⟩)
    (Cert.KernelIdeal.GenP.run_value m ρ)

/-- The reference ends with its result at the network's output of its launch arguments, the arguments unchanged. -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v133) = Cert.Net.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)) :=
  (θ_run Cert.ReferenceIdeal.defs _ _).mono
    (fun r h c => ⟨(h c).1.trans ((Cert.ReferenceIdeal.Spell.res_eq m' c).trans (Cert.ReferenceIdeal.Spell.network_eq _ _ _ _ _ _ _ _ _ _ _ _ _ _ _ _ _ _ _ _)), (h c).2⟩)
    (Cert.ReferenceIdeal.Value.run (F := Ideal) m' ρ')

open Cert.ReferenceIdeal in
/-- The network's outputs of equal arguments are equal. -/
theorem out_congr {x0 y0 : FVec Ideal S100000x5 .f32} {x1 y1 : Vec Ideal S2x600000 .i32} {x2 y2 : FVec Ideal S512x5 .f32} {x3 y3 : FVec Ideal S512 .f32} {x4 y4 : FVec Ideal S128x512 .f32} {x5 y5 : FVec Ideal S128 .f32} {x6 y6 : FVec Ideal S128x128 .f32} {x7 y7 : FVec Ideal S128 .f32} {x8 y8 : FVec Ideal S128x128 .f32} {x9 y9 : FVec Ideal S128x128 .f32} {x10 y10 : FVec Ideal S128 .f32} {x11 y11 : FVec Ideal S128x128 .f32} {x12 y12 : FVec Ideal S128x128 .f32} {x13 y13 : FVec Ideal S128 .f32} {x14 y14 : FVec Ideal S128x128 .f32} {x15 y15 : FVec Ideal S128x128 .f32} {x16 y16 : FVec Ideal S128 .f32} {x17 y17 : FVec Ideal S128x128 .f32} {x18 y18 : FVec Ideal S9x384 .f32} {x19 y19 : FVec Ideal S9 .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) :
    Cert.Net.out x0 x1 x2 x3 x4 x5 x6 x7 x8 x9 x10 x11 x12 x13 x14 x15 x16 x17 x18 x19 = Cert.Net.out y0 y1 y2 y3 y4 y5 y6 y7 y8 y9 y10 y11 y12 y13 y14 y15 y16 y17 y18 y19 := by
  subst_vars
  rfl

/-- Both programs end with the result at the network's output of the arguments, which agree. -/
theorem algebraic : Cert.algebraic_KernelIdeal_ReferenceIdeal := fun m ρ m' ρ' _ hagree =>
  ⟨_, kernel_run m ρ, (θ_run Cert.ReferenceIdeal.defs _ _).mono
    (fun r h c => ⟨(h c).1.trans (out_congr (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.1 (hagree c).2.2.2.2.2.2.2.2.2.2.2.2.2.2.2.1 (hagree c).2.2.2.2.2.2.2.2.2.2.2.2.2.2.2.2.1 (hagree c).2.2.2.2.2.2.2.2.2.2.2.2.2.2.2.2.2.1 (hagree c).2.2.2.2.2.2.2.2.2.2.2.2.2.2.2.2.2.2.1 (hagree c).2.2.2.2.2.2.2.2.2.2.2.2.2.2.2.2.2.2.2), (h c).2⟩)
    (ref_run m' ρ')⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
